-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S9x4 : Shape := ⟨2, ![9, 4]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel
  bcast_S_S9x4 : S_.BroadcastsInDim S9x4 (![] : Fin 0 → Fin S9x4.rank)
  reducesTo_S9x4_S_d0_1 : S9x4.ReducesTo [0, 1] S_

variable [Facts]

def fn {F : FTy → Type} [FloatOps F] (main_arg0 : FVec F S4x256x128x128 .f32) (main_arg1 : FVec F S9x4 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S9x4 .f32 := Host.absf main_arg1
  let main_cst_0 : FVec F S_ .f32 := constant S_ .f32 0x7F800000#32
  let main_v5 : FVec F S9x4 .f32 := broadcastInDim S9x4 ![] bcast_S_S9x4 main_cst_0
  let main_v6 : IVec S9x4 1 := cmpf .olt main_v4 main_v5
  let main_c_1 : IVec S_ 1 := constantI S_ 1 1#1
  let main_v7 : IVec S_ 1 := (fun x v => Host.reduce IntOp.andi x v reducesTo_S9x4_S_d0_1 h_S_) main_v6 main_c_1
  let main_v8 : IVec S_ 1 := andi main_v3 main_v7
  main_v8
-- ==== Kernel.lean ====
abbrev S4x256x128x128 : Shape := ⟨4, ![4, 256, 128, 128]⟩
abbrev S9x4 : Shape := ⟨2, ![9, 4]⟩
abbrev S4x9x256x256 : Shape := ⟨4, ![4, 9, 256, 256]⟩
abbrev S1x64x128x128 : Shape := ⟨4, ![1, 64, 128, 128]⟩
abbrev S1x9x256x256 : Shape := ⟨4, ![1, 9, 256, 256]⟩
abbrev S128x128 : Shape := ⟨2, ![128, 128]⟩
abbrev S64x128x128 : Shape := ⟨3, ![64, 128, 128]⟩
abbrev S1x128 : Shape := ⟨2, ![1, 128]⟩
abbrev S129x128 : Shape := ⟨2, ![129, 128]⟩
abbrev S130x128 : Shape := ⟨2, ![130, 128]⟩
abbrev S130x1 : Shape := ⟨2, ![130, 1]⟩
abbrev S130x129 : Shape := ⟨2, ![130, 129]⟩
abbrev S130x130 : Shape := ⟨2, ![130, 130]⟩
abbrev S1x4 : Shape := ⟨2, ![1, 4]⟩
abbrev S4 : Shape := ⟨1, ![4]⟩
abbrev S2x2 : Shape := ⟨2, ![2, 2]⟩
abbrev S128x1x128x1 : Shape := ⟨4, ![128, 1, 128, 1]⟩
abbrev S1x2x1x2 : Shape := ⟨4, ![1, 2, 1, 2]⟩
abbrev S128x2x128x2 : Shape := ⟨4, ![128, 2, 128, 2]⟩
abbrev S256x256 : Shape := ⟨2, ![256, 256]⟩
abbrev S1x1x256x256 : Shape := ⟨4, ![1, 1, 256, 256]⟩
abbrev S4x256x256x256 : Shape := ⟨4, ![4, 256, 256, 256]⟩
abbrev S1x16x128x128 : Shape := ⟨4, ![1, 16, 128, 128]⟩
abbrev S1x16x256x256 : Shape := ⟨4, ![1, 16, 256, 256]⟩
abbrev S16x128x128 : Shape := ⟨3, ![16, 128, 128]⟩
abbrev S16x1x128 : Shape := ⟨3, ![16, 1, 128]⟩
abbrev S16x129x128 : Shape := ⟨3, ![16, 129, 128]⟩
abbrev S16x130x128 : Shape := ⟨3, ![16, 130, 128]⟩
abbrev S16x130x1 : Shape := ⟨3, ![16, 130, 1]⟩
abbrev S16x130x129 : Shape := ⟨3, ![16, 130, 129]⟩
abbrev S16x130x130 : Shape := ⟨3, ![16, 130, 130]⟩
abbrev S16x256x256 : Shape := ⟨3, ![16, 256, 256]⟩
abbrev S16x128x1x128x1 : Shape := ⟨5, ![16, 128, 1, 128, 1]⟩
abbrev S16x128x2x128x2 : Shape := ⟨5, ![16, 128, 2, 128, 2]⟩
abbrev S1x256x256 : Shape := ⟨3, ![1, 256, 256]⟩

abbrev nBuf : Space → Nat
  | .hbm => 4
  | .vmem => 11
  | .smem => 0
  | _ => 0

abbrev bufTy : (tb : Table) → Fin (tcTables nBuf tb) → BufTy
  | .hbm, ⟨0, _⟩ => ⟨S4x256x128x128, .f32⟩
  | .hbm, ⟨1, _⟩ => ⟨S9x4, .f32⟩
  | .hbm, ⟨2, _⟩ => ⟨S4x9x256x256, .f32⟩
  | .hbm, ⟨3, _⟩ => ⟨S4x256x256x256, .f32⟩
  | .local _ .vmem, ⟨0, _⟩ => ⟨S1x64x128x128, .f32⟩
  | .local _ .vmem, ⟨1, _⟩ => ⟨S1x64x128x128, .f32⟩
  | .local _ .vmem, ⟨2, _⟩ => ⟨S9x4, .f32⟩
  | .local _ .vmem, ⟨3, _⟩ => ⟨S1x9x256x256, .f32⟩
  | .local _ .vmem, ⟨4, _⟩ => ⟨S1x9x256x256, .f32⟩
  | .local _ .vmem, ⟨5, _⟩ => ⟨S128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x9x256x256, .f32⟩
  | .local _ .vmem, ⟨9, _⟩ => ⟨S1x16x256x256, .f32⟩
  | .local _ .vmem, ⟨10, _⟩ => ⟨S1x16x256x256, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x9x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  reduces_S64x128x128_S128x128 : S64x128x128.Reduces [0] S128x128
  concatenates_S1x128_S128x128_S129x128_d0 : Shape.Concatenates [S1x128, S128x128] S129x128 0
  concatenates_S129x128_S1x128_S130x128_d0 : Shape.Concatenates [S129x128, S1x128] S130x128 0
  concatenates_S130x1_S130x128_S130x129_d1 : Shape.Concatenates [S130x1, S130x128] S130x129 1
  concatenates_S130x129_S130x1_S130x130_d1 : Shape.Concatenates [S130x129, S130x1] S130x130 1
  inb_S9x4_S9x4_0_0 : ∀ a, (![0, 0] : Fin 2 → Nat) a + S9x4.size a ≤ S9x4.size a
  h_S9x4 : 0 < S9x4.numel
  slices_S130x130_o0_0_S128x128 : S130x130.Slices ![0, 0] S128x128
  slices_S9x4_o0_0_S1x4 : S9x4.Slices ![0, 0] S1x4
  shapeCasts_S1x4_S4 : S1x4.ShapeCasts S4
  shapeCasts_S4_S2x2 : S4.ShapeCasts S2x2
  shapeCasts_S128x128_S128x1x128x1 : S128x128.ShapeCasts S128x1x128x1
  shapeCasts_S2x2_S1x2x1x2 : S2x2.ShapeCasts S1x2x1x2
  broadcasts_S128x1x128x1_S128x2x128x2 : S128x1x128x1.Broadcasts S128x2x128x2
  broadcasts_S1x2x1x2_S128x2x128x2 : S1x2x1x2.Broadcasts S128x2x128x2
  shapeCasts_S128x2x128x2_S256x256 : S128x2x128x2.ShapeCasts S256x256
  slices_S130x130_o0_1_S128x128 : S130x130.Slices ![0, 1] S128x128
  slices_S9x4_o1_0_S1x4 : S9x4.Slices ![1, 0] S1x4
  slices_S130x130_o0_2_S128x128 : S130x130.Slices ![0, 2] S128x128
  slices_S9x4_o2_0_S1x4 : S9x4.Slices ![2, 0] S1x4
  slices_S130x130_o1_0_S128x128 : S130x130.Slices ![1, 0] S128x128
  slices_S9x4_o3_0_S1x4 : S9x4.Slices ![3, 0] S1x4
  slices_S130x130_o1_1_S128x128 : S130x130.Slices ![1, 1] S128x128
  slices_S9x4_o4_0_S1x4 : S9x4.Slices ![4, 0] S1x4
  slices_S130x130_o1_2_S128x128 : S130x130.Slices ![1, 2] S128x128
  slices_S9x4_o5_0_S1x4 : S9x4.Slices ![5, 0] S1x4
  slices_S130x130_o2_0_S128x128 : S130x130.Slices ![2, 0] S128x128
  slices_S9x4_o6_0_S1x4 : S9x4.Slices ![6, 0] S1x4
  slices_S130x130_o2_1_S128x128 : S130x130.Slices ![2, 1] S128x128
  slices_S9x4_o7_0_S1x4 : S9x4.Slices ![7, 0] S1x4
  slices_S130x130_o2_2_S128x128 : S130x130.Slices ![2, 2] S128x128
  slices_S9x4_o8_0_S1x4 : S9x4.Slices ![8, 0] S1x4
  inb_S1x9x256x256_S1x1x256x256_0_0_0_0 : ∀ a, (![0, 0, 0, 0] : Fin 4 → Nat) a + S1x1x256x256.size a ≤ S1x9x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x9x256x256_S1x1x256x256_0_1_0_0 : ∀ a, (![0, 1, 0, 0] : Fin 4 → Nat) a + S1x1x256x256.size a ≤ S1x9x256x256.size a
  inb_S1x9x256x256_S1x1x256x256_0_2_0_0 : ∀ a, (![0, 2, 0, 0] : Fin 4 → Nat) a + S1x1x256x256.size a ≤ S1x9x256x256.size a
  inb_S1x9x256x256_S1x1x256x256_0_3_0_0 : ∀ a, (![0, 3, 0, 0] : Fin 4 → Nat) a + S1x1x256x256.size a ≤ S1x9x256x256.size a
  inb_S1x9x256x256_S1x1x256x256_0_4_0_0 : ∀ a, (![0, 4, 0, 0] : Fin 4 → Nat) a + S1x1x256x256.size a ≤ S1x9x256x256.size a
  inb_S1x9x256x256_S1x1x256x256_0_5_0_0 : ∀ a, (![0, 5, 0, 0] : Fin 4 → Nat) a + S1x1x256x256.size a ≤ S1x9x256x256.size a
  inb_S1x9x256x256_S1x1x256x256_0_6_0_0 : ∀ a, (![0, 6, 0, 0] : Fin 4 → Nat) a + S1x1x256x256.size a ≤ S1x9x256x256.size a
  inb_S1x9x256x256_S1x1x256x256_0_7_0_0 : ∀ a, (![0, 7, 0, 0] : Fin 4 → Nat) a + S1x1x256x256.size a ≤ S1x9x256x256.size a
  inb_S1x9x256x256_S1x1x256x256_0_8_0_0 : ∀ a, (![0, 8, 0, 0] : Fin 4 → Nat) a + S1x1x256x256.size a ≤ S1x9x256x256.size a
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  concatenates_S16x1x128_S16x128x128_S16x129x128_d1 : Shape.Concatenates [S16x1x128, S16x128x128] S16x129x128 1
  concatenates_S16x129x128_S16x1x128_S16x130x128_d1 : Shape.Concatenates [S16x129x128, S16x1x128] S16x130x128 1
  concatenates_S16x130x1_S16x130x128_S16x130x129_d2 : Shape.Concatenates [S16x130x1, S16x130x128] S16x130x129 2
  concatenates_S16x130x129_S16x130x1_S16x130x130_d2 : Shape.Concatenates [S16x130x129, S16x130x1] S16x130x130 2
  slices_S16x130x130_o0_0_0_S16x128x128 : S16x130x130.Slices ![0, 0, 0] S16x128x128
  shapeCasts_S16x128x128_S16x128x1x128x1 : S16x128x128.ShapeCasts S16x128x1x128x1
  shapeCasts_S16x128x1x128x1_S16x128x1x128x1 : S16x128x1x128x1.ShapeCasts S16x128x1x128x1
  broadcasts_S16x128x1x128x1_S16x128x2x128x2 : S16x128x1x128x1.Broadcasts S16x128x2x128x2
  shapeCasts_S16x128x2x128x2_S16x256x256 : S16x128x2x128x2.ShapeCasts S16x256x256
  shapeCasts_S256x256_S1x256x256 : S256x256.ShapeCasts S1x256x256
  broadcasts_S1x256x256_S16x256x256 : S1x256x256.Broadcasts S16x256x256
  slices_S16x130x130_o0_0_1_S16x128x128 : S16x130x130.Slices ![0, 0, 1] S16x128x128
  slices_S16x130x130_o0_0_2_S16x128x128 : S16x130x130.Slices ![0, 0, 2] S16x128x128
  slices_S16x130x130_o0_1_0_S16x128x128 : S16x130x130.Slices ![0, 1, 0] S16x128x128
  slices_S16x130x130_o0_1_1_S16x128x128 : S16x130x130.Slices ![0, 1, 1] S16x128x128
  slices_S16x130x130_o0_1_2_S16x128x128 : S16x130x130.Slices ![0, 1, 2] S16x128x128
  slices_S16x130x130_o0_2_0_S16x128x128 : S16x130x130.Slices ![0, 2, 0] S16x128x128
  slices_S16x130x130_o0_2_1_S16x128x128 : S16x130x130.Slices ![0, 2, 1] S16x128x128
  slices_S16x130x130_o0_2_2_S16x128x128 : S16x130x130.Slices ![0, 2, 2] S16x128x128
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S4x256x128x128.size a
  hwx0_0 : ∀ i : grid0.Coords, EltTy.bits .f32 = 32 ∨ (Rect.block (s := S4x256x128x128) S1x64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x4.size a ≤ S9x4.size a
  hwx0_1 : ∀ i : grid0.Coords, EltTy.bits .f32 = 32 ∨ (Rect.block (s := S9x4) S9x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x256x256.size a ≤ S4x9x256x256.size a
  hwx0_2 : ∀ i : grid0.Coords, EltTy.bits .f32 = 32 ∨ (Rect.block (s := S4x9x256x256) S1x9x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x128.size a ≤ S4x256x128x128.size a
  hwx1_0 : ∀ i : grid1.Coords, EltTy.bits .f32 = 32 ∨ (Rect.block (s := S4x256x128x128) S1x16x128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x9x256x256.size a ≤ S4x9x256x256.size a
  hwx1_1 : ∀ i : grid1.Coords, EltTy.bits .f32 = 32 ∨ (Rect.block (s := S4x9x256x256) S1x9x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S4x256x256x256.size a
  hwx1_2 : ∀ i : grid1.Coords, EltTy.bits .f32 = 32 ∨ (Rect.block (s := S4x256x256x256) S1x16x256x256.size (cc1_transform_2 i) (hinb1_2 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x16x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x9x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256x128x128 : Shape := ⟨4, ![4, 256, 128, 128]⟩
abbrev S9x4 : Shape := ⟨2, ![9, 4]⟩
abbrev S_ : Shape := ⟨0, ![]⟩
abbrev S4x128x128 : Shape := ⟨3, ![4, 128, 128]⟩
abbrev S4x1x128x128 : Shape := ⟨4, ![4, 1, 128, 128]⟩
abbrev S4x1x130x130 : Shape := ⟨4, ![4, 1, 130, 130]⟩
abbrev S4x9x128x128 : Shape := ⟨4, ![4, 9, 128, 128]⟩
abbrev S4x9x1x128x128 : Shape := ⟨5, ![4, 9, 1, 128, 128]⟩
abbrev S1x9x4x1x1 : Shape := ⟨5, ![1, 9, 4, 1, 1]⟩
abbrev S4x9x4x128x128 : Shape := ⟨5, ![4, 9, 4, 128, 128]⟩
abbrev S4x9x1x2x2x128x128 : Shape := ⟨7, ![4, 9, 1, 2, 2, 128, 128]⟩
abbrev S4x9x1x128x2x128x2 : Shape := ⟨7, ![4, 9, 1, 128, 2, 128, 2]⟩
abbrev S4x9x256x256 : Shape := ⟨4, ![4, 9, 256, 256]⟩
abbrev S4x256x256 : Shape := ⟨3, ![4, 256, 256]⟩
abbrev S4x1x256x256 : Shape := ⟨4, ![4, 1, 256, 256]⟩
abbrev S4x256x130x130 : Shape := ⟨4, ![4, 256, 130, 130]⟩
abbrev S4x256x256x256 : Shape := ⟨4, ![4, 256, 256, 256]⟩
abbrev S4x256x128x2x128 : Shape := ⟨5, ![4, 256, 128, 2, 128]⟩
abbrev S4x256x256x128 : Shape := ⟨4, ![4, 256, 256, 128]⟩
abbrev S4x256x256x128x2 : Shape := ⟨5, ![4, 256, 256, 128, 2]⟩

abbrev nBuf : Space → Nat
  | .hbm => 156
  | .vmem => 0
  | .smem => 0
  | _ => 0

abbrev hbmTy0_0 (i : Nat) : BufTy := match i % 128 with
  | 0 => ⟨S4x256x128x128, .f32⟩
  | 1 => ⟨S9x4, .f32⟩
  | 2 => ⟨S_, .f32⟩
  | 3 => ⟨S4x128x128, .f32⟩
  | 4 => ⟨S4x1x128x128, .f32⟩
  | 5 => ⟨S_, .f32⟩
  | 6 => ⟨S4x1x128x128, .f32⟩
  | 7 => ⟨S4x1x128x128, .f32⟩
  | 8 => ⟨S_, .i32⟩
  | 9 => ⟨S_, .f32⟩
  | 10 => ⟨S4x1x130x130, .f32⟩
  | 11 => ⟨S4x1x128x128, .f32⟩
  | 12 => ⟨S4x128x128, .f32⟩
  | 13 => ⟨S4x1x128x128, .f32⟩
  | 14 => ⟨S4x128x128, .f32⟩
  | 15 => ⟨S4x1x128x128, .f32⟩
  | 16 => ⟨S4x128x128, .f32⟩
  | 17 => ⟨S4x1x128x128, .f32⟩
  | 18 => ⟨S4x128x128, .f32⟩
  | 19 => ⟨S4x1x128x128, .f32⟩
  | 20 => ⟨S4x128x128, .f32⟩
  | 21 => ⟨S4x1x128x128, .f32⟩
  | 22 => ⟨S4x128x128, .f32⟩
  | 23 => ⟨S4x1x128x128, .f32⟩
  | 24 => ⟨S4x128x128, .f32⟩
  | 25 => ⟨S4x1x128x128, .f32⟩
  | 26 => ⟨S4x128x128, .f32⟩
  | 27 => ⟨S4x1x128x128, .f32⟩
  | 28 => ⟨S4x128x128, .f32⟩
  | 29 => ⟨S4x1x128x128, .f32⟩
  | 30 => ⟨S4x1x128x128, .f32⟩
  | 31 => ⟨S4x1x128x128, .f32⟩
  | 32 => ⟨S4x1x128x128, .f32⟩
  | 33 => ⟨S4x1x128x128, .f32⟩
  | 34 => ⟨S4x1x128x128, .f32⟩
  | 35 => ⟨S4x1x128x128, .f32⟩
  | 36 => ⟨S4x1x128x128, .f32⟩
  | 37 => ⟨S4x1x128x128, .f32⟩
  | 38 => ⟨S4x9x128x128, .f32⟩
  | 39 => ⟨S4x9x128x128, .f32⟩
  | 40 => ⟨S4x9x128x128, .f32⟩
  | 41 => ⟨S4x9x128x128, .f32⟩
  | 42 => ⟨S_, .f32⟩
  | 43 => ⟨S4x9x128x128, .f32⟩
  | 44 => ⟨S4x9x128x128, .f32⟩
  | 45 => ⟨S_, .f32⟩
  | 46 => ⟨S4x9x128x128, .f32⟩
  | 47 => ⟨S4x9x128x128, .f32⟩
  | 48 => ⟨S4x9x1x128x128, .f32⟩
  | 49 => ⟨S1x9x4x1x1, .f32⟩
  | 50 => ⟨S4x9x4x128x128, .f32⟩
  | 51 => ⟨S4x9x4x128x128, .f32⟩
  | 52 => ⟨S4x9x4x128x128, .f32⟩
  | 53 => ⟨S4x9x1x2x2x128x128, .f32⟩
  | 54 => ⟨S4x9x1x128x2x128x2, .f32⟩
  | 55 => ⟨S4x9x256x256, .f32⟩
  | 56 => ⟨S_, .f32⟩
  | 57 => ⟨S4x256x256, .f32⟩
  | 58 => ⟨S_, .f32⟩
  | 59 => ⟨S4x256x256, .f32⟩
  | 60 => ⟨S4x256x256, .f32⟩
  | 61 => ⟨S4x1x256x256, .f32⟩
  | 62 => ⟨S4x9x256x256, .f32⟩
  | 63 => ⟨S4x9x256x256, .f32⟩
  | 64 => ⟨S4x9x256x256, .f32⟩
  | 65 => ⟨S_, .f32⟩
  | 66 => ⟨S4x256x256, .f32⟩
  | 67 => ⟨S4x1x256x256, .f32⟩
  | 68 => ⟨S4x9x256x256, .f32⟩
  | 69 => ⟨S4x9x256x256, .f32⟩
  | 70 => ⟨S_, .i32⟩
  | 71 => ⟨S_, .f32⟩
  | 72 => ⟨S4x256x130x130, .f32⟩
  | 73 => ⟨S_, .f32⟩
  | 74 => ⟨S4x256x256x256, .f32⟩
  | 75 => ⟨S4x256x128x128, .f32⟩
  | 76 => ⟨S4x256x128x2x128, .f32⟩
  | 77 => ⟨S4x256x256x128, .f32⟩
  | 78 => ⟨S4x256x256x128x2, .f32⟩
  | 79 => ⟨S4x256x256x256, .f32⟩
  | 80 => ⟨S4x1x256x256, .f32⟩
  | 81 => ⟨S4x256x256x256, .f32⟩
  | 82 => ⟨S4x256x256x256, .f32⟩
  | 83 => ⟨S4x256x256x256, .f32⟩
  | 84 => ⟨S4x256x128x128, .f32⟩
  | 85 => ⟨S4x256x128x2x128, .f32⟩
  | 86 => ⟨S4x256x256x128, .f32⟩
  | 87 => ⟨S4x256x256x128x2, .f32⟩
  | 88 => ⟨S4x256x256x256, .f32⟩
  | 89 => ⟨S4x1x256x256, .f32⟩
  | 90 => ⟨S4x256x256x256, .f32⟩
  | 91 => ⟨S4x256x256x256, .f32⟩
  | 92 => ⟨S4x256x256x256, .f32⟩
  | 93 => ⟨S4x256x128x128, .f32⟩
  | 94 => ⟨S4x256x128x2x128, .f32⟩
  | 95 => ⟨S4x256x256x128, .f32⟩
  | 96 => ⟨S4x256x256x128x2, .f32⟩
  | 97 => ⟨S4x256x256x256, .f32⟩
  | 98 => ⟨S4x1x256x256, .f32⟩
  | 99 => ⟨S4x256x256x256, .f32⟩
  | 100 => ⟨S4x256x256x256, .f32⟩
  | 101 => ⟨S4x256x256x256, .f32⟩
  | 102 => ⟨S4x256x128x128, .f32⟩
  | 103 => ⟨S4x256x128x2x128, .f32⟩
  | 104 => ⟨S4x256x256x128, .f32⟩
  | 105 => ⟨S4x256x256x128x2, .f32⟩
  | 106 => ⟨S4x256x256x256, .f32⟩
  | 107 => ⟨S4x1x256x256, .f32⟩
  | 108 => ⟨S4x256x256x256, .f32⟩
  | 109 => ⟨S4x256x256x256, .f32⟩
  | 110 => ⟨S4x256x256x256, .f32⟩
  | 111 => ⟨S4x256x128x128, .f32⟩
  | 112 => ⟨S4x256x128x2x128, .f32⟩
  | 113 => ⟨S4x256x256x128, .f32⟩
  | 114 => ⟨S4x256x256x128x2, .f32⟩
  | 115 => ⟨S4x256x256x256, .f32⟩
  | 116 => ⟨S4x1x256x256, .f32⟩
  | 117 => ⟨S4x256x256x256, .f32⟩
  | 118 => ⟨S4x256x256x256, .f32⟩
  | 119 => ⟨S4x256x256x256, .f32⟩
  | 120 => ⟨S4x256x128x128, .f32⟩
  | 121 => ⟨S4x256x128x2x128, .f32⟩
  | 122 => ⟨S4x256x256x128, .f32⟩
  | 123 => ⟨S4x256x256x128x2, .f32⟩
  | 124 => ⟨S4x256x256x256, .f32⟩
  | 125 => ⟨S4x1x256x256, .f32⟩
  | 126 => ⟨S4x256x256x256, .f32⟩
  | 127 => ⟨S4x256x256x256, .f32⟩
  | _ => ⟨S4x256x128x128, .f32⟩

abbrev hbmTy0_1 (i : Nat) : BufTy := match i % 128 with
  | 0 => ⟨S4x256x256x256, .f32⟩
  | 1 => ⟨S4x256x128x128, .f32⟩
  | 2 => ⟨S4x256x128x2x128, .f32⟩
  | 3 => ⟨S4x256x256x128, .f32⟩
  | 4 => ⟨S4x256x256x128x2, .f32⟩
  | 5 => ⟨S4x256x256x256, .f32⟩
  | 6 => ⟨S4x1x256x256, .f32⟩
  | 7 => ⟨S4x256x256x256, .f32⟩
  | 8 => ⟨S4x256x256x256, .f32⟩
  | 9 => ⟨S4x256x256x256, .f32⟩
  | 10 => ⟨S4x256x128x128, .f32⟩
  | 11 => ⟨S4x256x128x2x128, .f32⟩
  | 12 => ⟨S4x256x256x128, .f32⟩
  | 13 => ⟨S4x256x256x128x2, .f32⟩
  | 14 => ⟨S4x256x256x256, .f32⟩
  | 15 => ⟨S4x1x256x256, .f32⟩
  | 16 => ⟨S4x256x256x256, .f32⟩
  | 17 => ⟨S4x256x256x256, .f32⟩
  | 18 => ⟨S4x256x256x256, .f32⟩
  | 19 => ⟨S4x256x128x128, .f32⟩
  | 20 => ⟨S4x256x128x2x128, .f32⟩
  | 21 => ⟨S4x256x256x128, .f32⟩
  | 22 => ⟨S4x256x256x128x2, .f32⟩
  | 23 => ⟨S4x256x256x256, .f32⟩
  | 24 => ⟨S4x1x256x256, .f32⟩
  | 25 => ⟨S4x256x256x256, .f32⟩
  | 26 => ⟨S4x256x256x256, .f32⟩
  | 27 => ⟨S4x256x256x256, .f32⟩
  | _ => ⟨S4x256x128x128, .f32⟩

abbrev hbmTy (i : Nat) : BufTy := match i / 128 with
  | 0 => hbmTy0_0 i
  | 1 => hbmTy0_1 i
  | _ => ⟨S4x256x128x128, .f32⟩

abbrev bufTy : (tb : Table) → Fin (tcTables nBuf tb) → BufTy
  | .hbm, ⟨i, _⟩ => hbmTy i
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c_6 : Ref sig .tc := ⟨.hbm, 70, rfl⟩
abbrev main_call1_v0 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩

abbrev nD : Nat := 1
abbrev τ : Topo := Topo.v7x

variable {F : FTy → Type} [FloatOps F]

class Facts₀ : Prop where
  reducesTo_S4x256x128x128_S4x128x128_d1 : S4x256x128x128.ReducesTo [1] S4x128x128
  h_S_ : 0 < S_.numel
  bcast_S4x128x128_S4x1x128x128_0_2_3 : S4x128x128.BroadcastsInDim S4x1x128x128 (![0, 2, 3] : Fin 3 → Fin S4x1x128x128.rank)
  bcast_S_S4x1x128x128 : S_.BroadcastsInDim S4x1x128x128 (![] : Fin 0 → Fin S4x1x128x128.rank)
  pads_S4x1x128x128_S4x1x130x130_000_000_110_110 : S4x1x128x128.Pads (![0, 0, 1, 1] : Fin 4 → Nat) ![0, 0, 1, 1] ![0, 0, 0, 0] S4x1x130x130
  slices_S4x1x130x130_S4x1x128x128_0_0_0_0 : S4x1x130x130.Slices ![0, 0, 0, 0] S4x1x128x128
  shapeCasts_S4x1x128x128_S4x128x128 : S4x1x128x128.ShapeCasts S4x128x128
  slices_S4x1x130x130_S4x1x128x128_0_0_0_1 : S4x1x130x130.Slices ![0, 0, 0, 1] S4x1x128x128
  slices_S4x1x130x130_S4x1x128x128_0_0_0_2 : S4x1x130x130.Slices ![0, 0, 0, 2] S4x1x128x128
  slices_S4x1x130x130_S4x1x128x128_0_0_1_0 : S4x1x130x130.Slices ![0, 0, 1, 0] S4x1x128x128
  slices_S4x1x130x130_S4x1x128x128_0_0_1_1 : S4x1x130x130.Slices ![0, 0, 1, 1] S4x1x128x128
  slices_S4x1x130x130_S4x1x128x128_0_0_1_2 : S4x1x130x130.Slices ![0, 0, 1, 2] S4x1x128x128
  slices_S4x1x130x130_S4x1x128x128_0_0_2_0 : S4x1x130x130.Slices ![0, 0, 2, 0] S4x1x128x128
  slices_S4x1x130x130_S4x1x128x128_0_0_2_1 : S4x1x130x130.Slices ![0, 0, 2, 1] S4x1x128x128
  slices_S4x1x130x130_S4x1x128x128_0_0_2_2 : S4x1x130x130.Slices ![0, 0, 2, 2] S4x1x128x128
  concatenates_S4x1x128x128_S4x1x128x128_S4x1x128x128_S4x1x128x128_S4x1x128x128_S4x1x128x128_S4x1x128x128_S4x1x128x128_S4x1x128x128_S4x9x128x128_d1 : Shape.Concatenates [S4x1x128x128, S4x1x128x128, S4x1x128x128, S4x1x128x128, S4x1x128x128, S4x1x128x128, S4x1x128x128, S4x1x128x128, S4x1x128x128] S4x9x128x128 1
  bcast_S4x1x128x128_S4x9x128x128_0_1_2_3 : S4x1x128x128.BroadcastsInDim S4x9x128x128 (![0, 1, 2, 3] : Fin 4 → Fin S4x9x128x128.rank)
  bcast_S_S4x9x128x128 : S_.BroadcastsInDim S4x9x128x128 (![] : Fin 0 → Fin S4x9x128x128.rank)
  bcast_S4x9x128x128_S4x9x1x128x128_0_1_3_4 : S4x9x128x128.BroadcastsInDim S4x9x1x128x128 (![0, 1, 3, 4] : Fin 4 → Fin S4x9x1x128x128.rank)
  bcast_S9x4_S1x9x4x1x1_1_2 : S9x4.BroadcastsInDim S1x9x4x1x1 (![1, 2] : Fin 2 → Fin S1x9x4x1x1.rank)
  bcast_S4x9x1x128x128_S4x9x4x128x128_0_1_2_3_4 : S4x9x1x128x128.BroadcastsInDim S4x9x4x128x128 (![0, 1, 2, 3, 4] : Fin 5 → Fin S4x9x4x128x128.rank)
  bcast_S1x9x4x1x1_S4x9x4x128x128_0_1_2_3_4 : S1x9x4x1x1.BroadcastsInDim S4x9x4x128x128 (![0, 1, 2, 3, 4] : Fin 5 → Fin S4x9x4x128x128.rank)
  shapeCasts_S4x9x4x128x128_S4x9x1x2x2x128x128 : S4x9x4x128x128.ShapeCasts S4x9x1x2x2x128x128
  transposes_S4x9x1x2x2x128x128_S4x9x1x128x2x128x2_0_1_2_5_3_6_4 : S4x9x1x2x2x128x128.Transposes [0, 1, 2, 5, 3, 6, 4] S4x9x1x128x2x128x2
  shapeCasts_S4x9x1x128x2x128x2_S4x9x256x256 : S4x9x1x128x2x128x2.ShapeCasts S4x9x256x256
  reducesTo_S4x9x256x256_S4x256x256_d1 : S4x9x256x256.ReducesTo [1] S4x256x256
  bcast_S_S4x256x256 : S_.BroadcastsInDim S4x256x256 (![] : Fin 0 → Fin S4x256x256.rank)
  bcast_S4x256x256_S4x1x256x256_0_2_3 : S4x256x256.BroadcastsInDim S4x1x256x256 (![0, 2, 3] : Fin 3 → Fin S4x1x256x256.rank)
  bcast_S4x1x256x256_S4x9x256x256_0_1_2_3 : S4x1x256x256.BroadcastsInDim S4x9x256x256 (![0, 1, 2, 3] : Fin 4 → Fin S4x9x256x256.rank)
  pads_S4x256x128x128_S4x256x130x130_000_000_110_110 : S4x256x128x128.Pads (![0, 0, 1, 1] : Fin 4 → Nat) ![0, 0, 1, 1] ![0, 0, 0, 0] S4x256x130x130
  bcast_S_S4x256x256x256 : S_.BroadcastsInDim S4x256x256x256 (![] : Fin 0 → Fin S4x256x256x256.rank)
  slices_S4x256x130x130_S4x256x128x128_0_0_0_0 : S4x256x130x130.Slices ![0, 0, 0, 0] S4x256x128x128
  bcast_S4x256x128x128_S4x256x128x2x128_0_1_2_4 : S4x256x128x128.BroadcastsInDim S4x256x128x2x128 (![0, 1, 2, 4] : Fin 4 → Fin S4x256x128x2x128.rank)
  shapeCasts_S4x256x128x2x128_S4x256x256x128 : S4x256x128x2x128.ShapeCasts S4x256x256x128
  bcast_S4x256x256x128_S4x256x256x128x2_0_1_2_3 : S4x256x256x128.BroadcastsInDim S4x256x256x128x2 (![0, 1, 2, 3] : Fin 4 → Fin S4x256x256x128x2.rank)
  shapeCasts_S4x256x256x128x2_S4x256x256x256 : S4x256x256x128x2.ShapeCasts S4x256x256x256
  slices_S4x9x256x256_S4x1x256x256_0_0_0_0 : S4x9x256x256.Slices ![0, 0, 0, 0] S4x1x256x256
  bcast_S4x1x256x256_S4x256x256x256_0_1_2_3 : S4x1x256x256.BroadcastsInDim S4x256x256x256 (![0, 1, 2, 3] : Fin 4 → Fin S4x256x256x256.rank)
  slices_S4x256x130x130_S4x256x128x128_0_0_0_1 : S4x256x130x130.Slices ![0, 0, 0, 1] S4x256x128x128
  slices_S4x9x256x256_S4x1x256x256_0_1_0_0 : S4x9x256x256.Slices ![0, 1, 0, 0] S4x1x256x256
  slices_S4x256x130x130_S4x256x128x128_0_0_0_2 : S4x256x130x130.Slices ![0, 0, 0, 2] S4x256x128x128
  slices_S4x9x256x256_S4x1x256x256_0_2_0_0 : S4x9x256x256.Slices ![0, 2, 0, 0] S4x1x256x256
  slices_S4x256x130x130_S4x256x128x128_0_0_1_0 : S4x256x130x130.Slices ![0, 0, 1, 0] S4x256x128x128
  slices_S4x9x256x256_S4x1x256x256_0_3_0_0 : S4x9x256x256.Slices ![0, 3, 0, 0] S4x1x256x256
  slices_S4x256x130x130_S4x256x128x128_0_0_1_1 : S4x256x130x130.Slices ![0, 0, 1, 1] S4x256x128x128
  slices_S4x9x256x256_S4x1x256x256_0_4_0_0 : S4x9x256x256.Slices ![0, 4, 0, 0] S4x1x256x256
  slices_S4x256x130x130_S4x256x128x128_0_0_1_2 : S4x256x130x130.Slices ![0, 0, 1, 2] S4x256x128x128
  slices_S4x9x256x256_S4x1x256x256_0_5_0_0 : S4x9x256x256.Slices ![0, 5, 0, 0] S4x1x256x256
  slices_S4x256x130x130_S4x256x128x128_0_0_2_0 : S4x256x130x130.Slices ![0, 0, 2, 0] S4x256x128x128
  slices_S4x9x256x256_S4x1x256x256_0_6_0_0 : S4x9x256x256.Slices ![0, 6, 0, 0] S4x1x256x256
  slices_S4x256x130x130_S4x256x128x128_0_0_2_1 : S4x256x130x130.Slices ![0, 0, 2, 1] S4x256x128x128
  slices_S4x9x256x256_S4x1x256x256_0_7_0_0 : S4x9x256x256.Slices ![0, 7, 0, 0] S4x1x256x256
  slices_S4x256x130x130_S4x256x128x128_0_0_2_2 : S4x256x130x130.Slices ![0, 0, 2, 2] S4x256x128x128
  slices_S4x9x256x256_S4x1x256x256_0_8_0_0 : S4x9x256x256.Slices ![0, 8, 0, 0] S4x1x256x256

variable [Facts₀]

class Facts : Prop extends Facts₀ where

variable [Facts]
-- ==== Proof.FrBaseB.lean ====
/-
  What the two launches' proofs share: a window's block at a grid point read off the array the launch finds; that an
  input's staging buffer holds that block when the body starts, fetched at this point or at an earlier one; the two
  branch conditions of the mask body as functions of the grid point (the channel tile is the point modulo 4: the first
  tile resets the scratch, the last one computes the masks); where the masks' output window is idle (at every tile but
  the last, where it is neither stored into nor written back); and the invariant of the first launch split at its
  scratch, whose contents the proof follows from point to point.
-/
import proofs.«174128_j1090921693816_1_alg».proof.Proof.Gen.Kernel.Launch
import proofs.«174128_j1090921693816_1_alg».proof.Proof.Gen.Kernel.Skeleton
import proofs.«174128_j1090921693816_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first launch (the masks): blocks and input buffers -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the point's 64 channels of the batch entry. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The tap weights' staging buffer holds the whole [9, 4] array at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second launch (the reassembly): blocks and input buffers -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The masks block of the batch entry is fetched at the entry's first channel tile and stays for the other fifteen. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The mask body's two branches, by the grid point -/

/-- "This is the batch entry's first channel tile": the scratch is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the batch entry's last channel tile": the masks are computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the first launch's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last channel tile the masks' window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last channel tile it is stored into. -/
theorem liveAt0_2 : ∀ t : Fin cfg0.N, cond0_1 (grid0.coords t) → cfg0.idle 2 (grid0.coords t) = false := by decide +kernel

/-! ## The staging memrefs the bodies are called with, and the scratch -/

abbrev ms0_0 (t : Fin cfg0.N) : Memref sig .tc .vmem S1x64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x256x256 .f32 := win0_2.stage (cfg0.slots t 2)
abbrev hs0_2 (t : Fin cfg0.N) : (ms0_2 t).IsWhole := hstage0_2 ((cfg0.slots t 2).cast nbuf0_2)
/-- The scratch: the running channel sums, a whole buffer of the kernel's own. -/
abbrev scM : Memref sig .tc .vmem S128x128 .f32 := Memref.whole cc0_scratch0

/-- Every other scoped buffer that is no staging buffer of the first launch (the second launch's staging buffers), at
    some contents each: carried through the first launch unopened. -/
abbrev restBut0 (c : Dev nD) : sProp 𝕄 :=
  Pipeline.scopedRestBut (Ix := Unit) (Name := ℕ) (U := UR sig nD τ) (Lvl := ℕ) (Val := Elt F) spec0 c [cc0_scratch0]

/-- The first launch's class invariant with the scratch split off: the scratch at some contents, the other scoped
    buffers, the generator register at some state. -/
theorem PhiA0_eq (c : Dev nD) :
    (Pipeline.ΦA spec0 c : sProp 𝕄)
      = iprop(((∃ d, owns (c : Thread nD τ) scM fullShare d) ∗ restBut0 (F := F) c) ∗ (∃ r, prngReg c r)) := by
  unfold Pipeline.ΦA
  rw [Pipeline.scopedRest_split_of_list spec0 c [cc0_scratch0] (by decide) (by decide)]
  simp only [scM, owns_whole, bigSepL_singleton]
  try rfl

end Cert.Kernel.Fr

end
-- ==== Proof.FrRun0B.lean ====
/-
  The mask body, run once per control case on whole staging memrefs. The channel tile decides the case:
  at a batch entry's first tile the scratch is reset and the tile's 64 channels are added (case A); at the two middle
  tiles they are added to what the scratch held (case B); at the last tile they are added and then the nine masks are
  computed from the completed sums and the tap weights and stored, one [1, 1, 256, 256] plane per tap (case C).
  Each run states what the body needs and what it hands back; the pieces each written buffer ends with are found by the
  run itself, and the buffers a case never touches stay with the caller.
-/
import proofs.«174128_j1090921693816_1_alg».proof.Proof.Gen.Kernel.Launch
import proofs.«174128_j1090921693816_1_alg».proof.Proof.Gen.Kernel.Skeleton
import proofs.«174128_j1090921693816_1_alg».proof.Proof.Gen.Kernel.Points
import proofs.«174128_j1090921693816_1_alg».proof.Proof.FrBaseB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (a batch entry's first channel tile): the scratch, at anything, ends with the run's pieces written. -/
noncomputable def kernelRun0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : cond0_0 i) (hc1 : ¬cond0_1 i) (x0 : Vec F S1x64x128x128 .f32) :
    { LS0 : List (View.Piece (Elt F) S128x128 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 4000000 in
/-- Case B (a middle channel tile): the scratch, at what the tile before left, ends with the run's pieces written. -/
noncomputable def kernelRun0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : ¬cond0_0 i) (hc1 : ¬cond0_1 i) (x0 : Vec F S1x64x128x128 .f32) (xs0 : Vec F S128x128 .f32) :
    { LS0 : List (View.Piece (Elt F) S128x128 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 8000000 in
/-- Case C (a batch entry's last channel tile): the scratch ends with the run's pieces written, and so does the masks'
    output buffer (handed over at anything), the tap weights' buffer being read and handed back. -/
noncomputable def kernelRun0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : ¬cond0_0 i) (hc1 : cond0_1 i) (x0 : Vec F S1x64x128x128 .f32) (g0 : Vec F S9x4 .f32) (xs0 : Vec F S128x128 .f32) :
    Σ' (L2 : List (View.Piece (Elt F) S1x9x256x256 .f32)), { LS0 : List (View.Piece (Elt F) S128x128 .f32) //
      ∀ (E : Set ℕ) (K : PUnit → sProp 𝕄),
        iprop(owns (c : Thread nD τ) arg2 fullShare x0 ∗ owns (c : Thread nD τ) arg3 fullShare g0 ∗ (∃ d, owns (c : Thread nD τ) arg4 fullShare d) ∗ owns (c : Thread nD τ) arg5 fullShare xs0
            ∗ (iprop(owns (c : Thread nD τ) arg2 fullShare x0 ∗ owns (c : Thread nD τ) arg3 fullShare g0
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, ?_, fun E K => ?run⟩
  case run =>
    simp only [cc0__mask_kernel_eq_skeleton]; unfold cc0__mask_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrR0B.lean ====
/-
  The first launch (the masks), point by point. A grid point is a batch entry b and a channel tile k (point = 4·b + k).
  After point 4·b + k the scratch holds the sums of channels 0 … 64·(k+1) − 1 of entry b; the masks' output buffer is
  stored into only at k = 3, from the completed sums, and is idle (neither stored nor written back) before.
  Stated here, for any entry contents V of the arrays: what each case leaves in the scratch and in the output buffer
  (the run's pieces read back), the accumulation over the points, the invariant that carries the scratch's contents
  from a point to the next, the proof data, and the body obligation at every point.
-/
import proofs.«174128_j1090921693816_1_alg».proof.Proof.Gen.Kernel.Launch
import proofs.«174128_j1090921693816_1_alg».proof.Proof.Gen.Kernel.Skeleton
import proofs.«174128_j1090921693816_1_alg».proof.Proof.Gen.Kernel.Points
import proofs.«174128_j1090921693816_1_alg».proof.Proof.FrRun0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The scratch after case A, and that the case's pieces cover it. -/
def sout0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : cond0_0 i) (hc1 : ¬cond0_1 i) (x0 : Vec F S1x64x128x128 .f32) : Vec F S128x128 .f32 :=
  View.canon (kernelRun0_A c i arg2 harg2 arg3 harg3 arg4 harg4 arg5 harg5 hc0 hc1 x0).1
theorem scover0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : cond0_0 i) (hc1 : ¬cond0_1 i) (x0 : Vec F S1x64x128x128 .f32) (y : S128x128.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S128x128.size (by sl_kernel_rfl) y

/-- The scratch after case B. -/
def sout0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : ¬cond0_1 i) (x0 : Vec F S1x64x128x128 .f32) (xs0 : Vec F S128x128 .f32) : Vec F S128x128 .f32 :=
  View.canon (kernelRun0_B c i arg2 harg2 arg3 harg3 arg4 harg4 arg5 harg5 hc0 hc1 x0 xs0).1
theorem scover0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : ¬cond0_1 i) (x0 : Vec F S1x64x128x128 .f32) (xs0 : Vec F S128x128 .f32) (y : S128x128.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S128x128.size (by sl_kernel_rfl) y

/-- The scratch and the masks' output buffer after case C. -/
def sout0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) : Vec F S128x128 .f32 :=
  View.canon (kernelRun0_C c i arg2 harg2 arg3 harg3 arg4 harg4 arg5 harg5 hc0 hc1 x0 g0 xs0).2.1
theorem scover0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) (y : S128x128.Idx) :
    ∃ pc ∈ (kernelRun0_C c i arg2 harg2 arg3 harg3 arg4 harg4 arg5 harg5 hc0 hc1 x0 g0 xs0).2.1, y ∈ pc.1.set :=
  View.cover_of_tiledL (kernelRun0_C c i arg2 harg2 arg3 harg3 arg4 harg4 arg5 harg5 hc0 hc1 x0 g0 xs0).2.1 S128x128.size (by sl_kernel_rfl) y
def out0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) : Vec F S1x9x256x256 .f32 :=
  View.canon (kernelRun0_C c i arg2 harg2 arg3 harg3 arg4 harg4 arg5 harg5 hc0 hc1 x0 g0 xs0).1
theorem cover0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) (y : S1x9x256x256.Idx) :
    ∃ pc ∈ (kernelRun0_C c i arg2 harg2 arg3 harg3 arg4 harg4 arg5 harg5 hc0 hc1 x0 g0 xs0).1, y ∈ pc.1.set :=
  View.cover_of_tiledL (kernelRun0_C c i arg2 harg2 arg3 harg3 arg4 harg4 arg5 harg5 hc0 hc1 x0 g0 xs0).1 S1x1x256x256.size (by sl_kernel_rfl) y

section Regions
variable (V : (c : Dev nD) → (b : Ref sig .tc) → Buf (Elt F) ((c : Thread nD τ).loc b))

/-! ## The accumulation over the points -/

/-- A placeholder for the output buffer's contents at the points where it is idle: nothing reads it. -/
def idleOut : Vec F S1x9x256x256 .f32 := View.canon []

/-- What point t leaves (the output buffer's contents, the scratch's), by the point's case; `prev` is what the scratch
    held when the point started. -/
def stepA (c : Dev nD) (t : Fin cfg0.N) (h0 : t.val % 4 = 0) : Vec F S1x9x256x256 .f32 × Vec F S128x128 .f32 :=
  (idleOut, sout0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t))
def stepB (c : Dev nD) (t : Fin cfg0.N) (h0 : ¬t.val % 4 = 0) (h1 : ¬t.val % 4 = 3) (prev : Vec F S128x128 .f32) : Vec F S1x9x256x256 .f32 × Vec F S128x128 .f32 :=
  (idleOut, sout0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk0 V c 0 t) prev)
def stepC (c : Dev nD) (t : Fin cfg0.N) (h0 : ¬t.val % 4 = 0) (h1 : t.val % 4 = 3) (prev : Vec F S128x128 .f32) : Vec F S1x9x256x256 .f32 × Vec F S128x128 .f32 :=
  (out0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev,
   sout0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev)

/-- THE ACCUMULATION: what the output buffer and the scratch hold after the body at position n. -/
def outsAt0 (c : Dev nD) : (n : ℕ) → n < cfg0.N → Vec F S1x9x256x256 .f32 × Vec F S128x128 .f32
  | 0, hn => stepA V c ⟨0, hn⟩ (Nat.zero_mod _)
  | n + 1, hn =>
    if h0 : (n + 1) % 4 = 0 then stepA V c ⟨n + 1, hn⟩ h0
    else if h1 : (n + 1) % 4 = 3 then stepC V c ⟨n + 1, hn⟩ h0 h1 (outsAt0 c n (Nat.lt_of_succ_lt hn)).2
    else stepB V c ⟨n + 1, hn⟩ h0 h1 (outsAt0 c n (Nat.lt_of_succ_lt hn)).2

theorem outsAt0_A (c : Dev nD) (t : Fin cfg0.N) (h0 : t.val % 4 = 0) : outsAt0 V c t.val t.isLt = stepA V c t h0 := by
  obtain ⟨n, hn⟩ := t
  cases n with
  | zero => rfl
  | succ n => exact dif_pos h0
theorem outsAt0_B (c : Dev nD) (t : Fin cfg0.N) (h0 : ¬t.val % 4 = 0) (h1 : ¬t.val % 4 = 3) :
    outsAt0 V c t.val t.isLt = stepB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt0_C (c : Dev nD) (t : Fin cfg0.N) (h0 : ¬t.val % 4 = 0) (h1 : t.val % 4 = 3) :
    outsAt0 V c t.val t.isLt = stepC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant: the scratch's contents carried from a point to the next -/

/-- Before the first point the class's invariant (every scoped buffer that is no staging buffer at anything); afterwards
    the scratch at what the point before left in it, the other scoped buffers at anything, the generator register. -/
def PhiS (c : Dev nD) : (n : ℕ) → n ≤ cfg0.N → sProp 𝕄
  | 0, _ => Pipeline.ΦA spec0 c
  | n + 1, hn => iprop((owns (c : Thread nD τ) scM fullShare ((outsAt0 V c n hn).2) ∗ restBut0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare ((outsAt0 V c n hn).2) ∗ restBut0 (F := F) c) ∗ (∃ r, prngReg c r)) := rfl
theorem PhiS_pos (c : Dev nD) (n : ℕ) (h : n ≤ cfg0.N) (hz : n ≠ 0) :
    PhiS V c n h = iprop((owns (c : Thread nD τ) scM fullShare ((outsAt0 V c (n - 1) (by omega)).2) ∗ restBut0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's case by its channel tile; the inputs' buffers hold their blocks; the invariant
    hands the body the scratch at what the point before left (at anything before the first point) and takes it back at
    this point's contents; at the last tile the output buffer comes back at the case's pieces, before it untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 16 := lt_of_lt_of_eq t.isLt (show cfg0.N = 16 from N_0)
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold stepA sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t)).2 Set.univ _)
      isplitl [H0]; · iexact H0
      isplitl [HS0]; · iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_A _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t)).2 Set.univ _)
      isplitl [H0]; · iexact H0
      isplitl [HS0]; · iexists _; iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_A _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC sout0_C out0_C; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_C _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_eq_canon _ _ _ (cover0_C _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_B _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hrest⟩, Hg⟩
  isplitl [HS0 Hrest]
  · isplitl [HS0]
    · iexists _; iexact HS0
    iexact Hrest
  iexact Hg

end Regions

end Cert.Kernel.Fr

end
-- ==== Proof.ChainB.lean ====
/-
  The two kernel bodies as pure functions of what they load, generic in the float instance.

  The mask body (run once per batch entry, at the last channel tile) loads the scratch `s` — by then the sums over all
  256 channels — and the tap weights `gk`, and stores nine [1, 1, 256, 256] pieces, one per tap, into its output block.
  The generated skeleton cuts its arithmetic into payload terms chained through intermediate values; here that chain is
  written out once, so that each stored piece is ONE named function of `s` and `gk`.

  The reassembly body loads its 16-channel block of the input and the nine tap planes of the masks block and stores one
  [1, 16, 256, 256] piece; likewise one named function of the loads.
-/
import proofs.«174128_j1090921693816_1_alg».proof.Proof.Gen.Kernel.Skeleton

noncomputable section

namespace Cert.Kernel.Chain

open Idealize.ShloMosaic Cert.Kernel Cert.Kernel.Gen

variable {F : FTy → Type} [FloatOps F]

/-! ## The accumulation: what the scratch holds after a point -/

/-- The scratch after the reset at a batch entry's first channel tile. -/
def accZero : FVec F S128x128 .f32 := k0_pay1 (F := F)

/-- The scratch after a point: what it held before plus the sums of the point's 64 channels. -/
def accStep (s : Vec F S128x128 .f32) (xb : Vec F S1x64x128x128 .f32) : FVec F S128x128 .f32 := k0_pay2 s xb

/-! ## The mask body -/

section Mask
variable (s : Vec F S128x128 .f32) (gk : Vec F S9x4 .f32)

/-- The mean, the padded mean. -/
def mMean : FVec F S128x128 .f32 := k0_pay5 s
def mPad : FVec F S130x130 .f32 := k0_pay6 s
/-- The nine logit planes (tap 8 first before, then after its last reshape). -/
def mW0 : FVec F S256x256 .f32 := k0_pay7 s gk
def mW1 : FVec F S256x256 .f32 := k0_pay8 s gk
def mV61 : FVec F S128x128 .f32 := k0_pay9 s
def mV62 : FVec F S128x128 .f32 := k0_pay10 (F := F)
def mW2 : FVec F S256x256 .f32 := k0_pay11 gk (mV61 s) (mV62 (F := F))
def mW3 : FVec F S256x256 .f32 := k0_pay12 (mMean s) (mPad s) gk
def mW4 : FVec F S256x256 .f32 := k0_pay13 (mMean s) (mPad s) gk
def mV113 : FVec F S128x128 .f32 := k0_pay14 (mMean s) (mPad s)
def mV115 : FVec F S4 .f32 := k0_pay15 gk
def mW5 : FVec F S256x256 .f32 := k0_pay16 (mV113 s) (mV115 gk)
def mW6 : FVec F S256x256 .f32 := k0_pay17 (mMean s) (mPad s) gk
def mW7 : FVec F S256x256 .f32 := k0_pay18 (mMean s) (mPad s) gk
def mV169 : FVec F S128x2x128x2 .f32 := k0_pay19 (mMean s) (mPad s) gk
def mW8 : FVec F S256x256 .f32 := k0_pay20 (mV169 s gk)
/-- The maximum of the nine planes and the sum of the nine exponentials. -/
def mMax : FVec F S256x256 .f32 :=
  k0_pay21 (mW0 s gk) (mW1 s gk) (mW2 s gk) (mW3 s gk) (mW4 s gk) (mW5 s gk) (mW6 s gk) (mW7 s gk) (mV169 s gk)
def mDen : FVec F S256x256 .f32 :=
  k0_pay22 (mW0 s gk) (mW1 s gk) (mW2 s gk) (mW3 s gk) (mW4 s gk) (mW5 s gk) (mW6 s gk) (mW7 s gk) (mV169 s gk)
def mV251 : FVec F S256x256 .f32 := k0_pay30 (mW7 s gk) (mMax s gk) (mDen s gk)

/-- The nine stored pieces, by tap. -/
def piece0 : FVec F S1x1x256x256 .f32 :=
  k0_pay23 (mW0 s gk) (mW1 s gk) (mW2 s gk) (mW3 s gk) (mW4 s gk) (mW5 s gk) (mW6 s gk) (mW7 s gk) (mV169 s gk)
def piece1 : FVec F S1x1x256x256 .f32 :=
  k0_pay24 (mW0 s gk) (mW1 s gk) (mW2 s gk) (mW3 s gk) (mW4 s gk) (mW5 s gk) (mW6 s gk) (mW7 s gk) (mV169 s gk)
def piece2 : FVec F S1x1x256x256 .f32 := k0_pay25 (mW2 s gk) (mMax s gk) (mDen s gk)
def piece3 : FVec F S1x1x256x256 .f32 := k0_pay26 (mW3 s gk) (mMax s gk) (mDen s gk)
def piece4 : FVec F S1x1x256x256 .f32 := k0_pay27 (mW4 s gk) (mMax s gk) (mDen s gk)
def piece5 : FVec F S1x1x256x256 .f32 := k0_pay28 (mW5 s gk) (mMax s gk) (mDen s gk)
def piece6 : FVec F S1x1x256x256 .f32 := k0_pay29 (mW6 s gk) (mMax s gk) (mDen s gk)
def piece7 : FVec F S1x1x256x256 .f32 := k0_pay3 (mV251 s gk)
def piece8 : FVec F S1x1x256x256 .f32 := k0_pay4 (mW8 s gk) (mMax s gk) (mDen s gk)

/-- The piece of tap n. -/
def piece : Fin 9 → FVec F S1x1x256x256 .f32
  | ⟨0, _⟩ => piece0 s gk | ⟨1, _⟩ => piece1 s gk | ⟨2, _⟩ => piece2 s gk
  | ⟨3, _⟩ => piece3 s gk | ⟨4, _⟩ => piece4 s gk | ⟨5, _⟩ => piece5 s gk
  | ⟨6, _⟩ => piece6 s gk | ⟨7, _⟩ => piece7 s gk | ⟨8, _⟩ => piece8 s gk

end Mask

/-! ## The reassembly body -/

section Carafe
variable (x0 : Vec F S1x16x128x128 .f32) (t0 t1 t2 t3 t4 t5 t6 t7 t8 : Vec F S1x1x256x256 .f32)

/-- The zero-padded block, and the running sum after taps 0–1, 2–5, and all nine (the stored piece). -/
def cPad : FVec F S16x130x130 .f32 := k1_pay2 x0
def cAcc1 : FVec F S16x256x256 .f32 := k1_pay3 x0 t0 t1
def cV38 : FVec F S16x256x256 .f32 := k1_pay4 x0
def cAcc5 : FVec F S16x256x256 .f32 := k1_pay5 (cPad x0) (cAcc1 x0 t0 t1) (cV38 x0) t2 t3 t4 t5
def cV82 : FVec F S16x256x256 .f32 := k1_pay6 (cPad x0)
/-- What the body stores: the weighted sum of the nine taps. -/
def cOut : FVec F S1x16x256x256 .f32 :=
  k1_pay1 (cPad x0) (cAcc5 x0 t0 t1 t2 t3 t4 t5) (cV82 x0) t6 t7 t8

end Carafe

end Cert.Kernel.Chain

end
-- ==== Proof.FrR1B.lean ====
/-
  The second launch (the reassembly), one grid point = one batch entry and one tile of 16 channels. The body loads
  its input block whole, the nine tap planes of the batch entry's masks block one by one, and stores the weighted sum of
  the nine shifted, doubled copies of the zero-padded block over its whole output block. There is one control case.
  Stated here, for any entry contents V of the arrays: what the output's staging buffer holds after the body (as a
  function of the two input blocks), the body's triple, the proof data, and the obligation at every point.
-/
import proofs.«174128_j1090921693816_1_alg».proof.Proof.Gen.Kernel.Launch
import proofs.«174128_j1090921693816_1_alg».proof.Proof.Gen.Kernel.Skeleton
import proofs.«174128_j1090921693816_1_alg».proof.Proof.Gen.Kernel.Points
import proofs.«174128_j1090921693816_1_alg».proof.Proof.FrBaseB
import proofs.«174128_j1090921693816_1_alg».proof.Proof.ChainB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Chain

section Regions
variable (V : (c : Dev nD) → (b : Ref sig .tc) → Buf (Elt F) ((c : Thread nD τ).loc b))

/-! ## The body's accesses -/

abbrev r1x : Rect S1x16x128x128 := Rect.unit (s := S1x16x128x128) ![0, 0, 0, 0] S1x16x128x128.size inb_S1x16x128x128_S1x16x128x128_0_0_0_0
abbrev r1o : Rect S1x16x256x256 := Rect.unit (s := S1x16x256x256) ![0, 0, 0, 0] S1x16x256x256.size inb_S1x16x256x256_S1x16x256x256_0_0_0_0
abbrev r1m0 : Rect S1x9x256x256 := Rect.unit (s := S1x9x256x256) ![0, 0, 0, 0] S1x1x256x256.size inb_S1x9x256x256_S1x1x256x256_0_0_0_0
abbrev r1m1 : Rect S1x9x256x256 := Rect.unit (s := S1x9x256x256) ![0, 1, 0, 0] S1x1x256x256.size inb_S1x9x256x256_S1x1x256x256_0_1_0_0
abbrev r1m2 : Rect S1x9x256x256 := Rect.unit (s := S1x9x256x256) ![0, 2, 0, 0] S1x1x256x256.size inb_S1x9x256x256_S1x1x256x256_0_2_0_0
abbrev r1m3 : Rect S1x9x256x256 := Rect.unit (s := S1x9x256x256) ![0, 3, 0, 0] S1x1x256x256.size inb_S1x9x256x256_S1x1x256x256_0_3_0_0
abbrev r1m4 : Rect S1x9x256x256 := Rect.unit (s := S1x9x256x256) ![0, 4, 0, 0] S1x1x256x256.size inb_S1x9x256x256_S1x1x256x256_0_4_0_0
abbrev r1m5 : Rect S1x9x256x256 := Rect.unit (s := S1x9x256x256) ![0, 5, 0, 0] S1x1x256x256.size inb_S1x9x256x256_S1x1x256x256_0_5_0_0
abbrev r1m6 : Rect S1x9x256x256 := Rect.unit (s := S1x9x256x256) ![0, 6, 0, 0] S1x1x256x256.size inb_S1x9x256x256_S1x1x256x256_0_6_0_0
abbrev r1m7 : Rect S1x9x256x256 := Rect.unit (s := S1x9x256x256) ![0, 7, 0, 0] S1x1x256x256.size inb_S1x9x256x256_S1x1x256x256_0_7_0_0
abbrev r1m8 : Rect S1x9x256x256 := Rect.unit (s := S1x9x256x256) ![0, 8, 0, 0] S1x1x256x256.size inb_S1x9x256x256_S1x1x256x256_0_8_0_0

/-! ## What the body leaves in the output window's buffer -/

/-- The stored value: the reassembly of the block under the nine tap planes read off the masks block. -/
def pay1 (x0 : Vec F S1x16x128x128 .f32) (m0 : Vec F S1x9x256x256 .f32) : FVec F S1x16x256x256 .f32 :=
  cOut (View.ld x0 r1x) (View.ld m0 r1m0) (View.ld m0 r1m1) (View.ld m0 r1m2) (View.ld m0 r1m3) (View.ld m0 r1m4)
    (View.ld m0 r1m5) (View.ld m0 r1m6) (View.ld m0 r1m7) (View.ld m0 r1m8)

/-- The output's staging buffer after the body: its one store, over the whole block. -/
def out1_2 (x0 : Vec F S1x16x128x128 .f32) (m0 : Vec F S1x9x256x256 .f32) : Vec F S1x16x256x256 .f32 :=
  View.canon [⟨r1o, pay1 x0 m0⟩]

theorem cover1_2 (p0 : Vec F S1x16x256x256 .f32) (y : S1x16x256x256.Idx) :
    ∃ pc ∈ ([⟨r1o, p0⟩] : List (View.Piece (Elt F) S1x16x256x256 .f32)), y ∈ pc.1.set :=
  View.cover_of_tiled [⟨r1o, p0⟩] S1x16x256x256.size (by rfl) y

/-! ## The body's triple -/

set_option maxHeartbeats 4000000 in
/-- On whole staging memrefs, the inputs' at contents x0 and m0 and the output's at anything, the body runs to the
    continuation holding the inputs' as they were and the output's at `out1_2 x0 m0`. -/
theorem sound_kernel1 (c : Dev nD) (E : Set ℕ) (i : grid1.Coords) (arg2 : Memref sig .tc .vmem S1x16x128x128 .f32) (harg2 : arg2.IsWhole)
    (arg3 : Memref sig .tc .vmem S1x9x256x256 .f32) (harg3 : arg3.IsWhole) (arg4 : Memref sig .tc .vmem S1x16x256x256 .f32) (harg4 : arg4.IsWhole)
    (x0 : Vec F S1x16x128x128 .f32) (m0 : Vec F S1x9x256x256 .f32) (K : PUnit → sProp 𝕄) :
    iprop(owns (c : Thread nD τ) arg2 fullShare x0 ∗ owns (c : Thread nD τ) arg3 fullShare m0 ∗ (∃ d, owns (c : Thread nD τ) arg4 fullShare d)
        ∗ (iprop(owns (c : Thread nD τ) arg2 fullShare x0 ∗ owns (c : Thread nD τ) arg3 fullShare m0
            ∗ owns (c : Thread nD τ) arg4 fullShare (out1_2 x0 m0)) -∗ K ⟨⟩))
      ⊢ wp frame (wpE (defs₀ (F := F)) Variants.none c none) E (cc1__carafe_kernel i arg2 harg2 arg3 harg3 arg4 harg4) K := by
  simp only [cc1__carafe_kernel_eq_skeleton]; unfold cc1__carafe_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The second launch's proof data on core c: the arrays as the launch finds them; after the body each input's buffer
    at its block and the output's at `out1_2` of the two input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.FrMainB.lean ====
/-
  The whole run of the program: two launches, nothing between them. The buffer contents at the three boundaries are a
  fold from the launch memory: what is there at launch; after the first launch the masks array holds what its
  write-backs leave and every other buffer is as it was; after the second the result array holds what its write-backs
  leave. Each launch is a segment entered from "every unscoped buffer at the boundary's contents" and left at the next
  boundary's; the first one's invariant takes the scratch in at anything and gives it back with its contents forgotten.
  One launch theorem then gives: every weakly fair execution terminates, nothing faults, the result array ends at the
  second launch's folded write-backs, and both argument arrays end as launched.
-/
import proofs.«174128_j1090921693816_1_alg».proof.Proof.Gen.Kernel.Launch
import proofs.«174128_j1090921693816_1_alg».proof.Proof.Gen.Kernel.Skeleton
import proofs.«174128_j1090921693816_1_alg».proof.Proof.Gen.Kernel.Points
import proofs.«174128_j1090921693816_1_alg».proof.Proof.FrR0B
import proofs.«174128_j1090921693816_1_alg».proof.Proof.FrR1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first launch: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: each launch reads them through an input window or bypasses them -/

/-- What the second launch finds in the input array is the launch contents. -/
theorem V2_main_arg0 (c : Dev nD) : V2 m ρ c main_arg0 = m ((c : Thread nD τ).loc main_arg0) :=
  (W2_arr m ρ c 0).trans (((dat0 (V1 m ρ) c).arrAt_in 0 rfl _).trans (A_eq0 (V1 m ρ) c 0))
theorem V2_main_arg1 (c : Dev nD) : V2 m ρ c main_arg1 = m ((c : Thread nD τ).loc main_arg1) :=
  (W2_arr m ρ c 1).trans (((dat0 (V1 m ρ) c).arrAt_in 1 rfl _).trans (A_eq0 (V1 m ρ) c 1))
theorem W4_main_arg0 (c : Dev nD) : W4 m ρ c (Proc.devRef .tc main_arg0) = m ((c : Thread nD τ).loc main_arg0) :=
  (W4_arr m ρ c 0).trans ((((dat1 (V2 m ρ) c).arrAt_in 0 rfl _).trans (A_eq1 (V2 m ρ) c 0)).trans (V2_main_arg0 m ρ c))
theorem W4_main_arg1 (c : Dev nD) : W4 m ρ c (Proc.devRef .tc main_arg1) = m ((c : Thread nD τ).loc main_arg1) :=
  (W4_of_ne m ρ c main_arg1 (by decide)).trans (V2_main_arg1 m ρ c)

/-! ## The proof data family and the thread state -/

abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the core's generator register at some state and its `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting; the result array ends at the second launch's folded write-backs and the two argument
    arrays end as launched. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_arr m ρ c 2),
       (h c _ (mem_uc main_arg0 (by decide))).trans (W4_main_arg0 m ρ c),
       (h c _ (mem_uc main_arg1 (by decide))).trans (W4_main_arg1 m ρ c)⟩)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.FrBaseI.lean ====
/-
  What the two launches' proofs share: a window's block at a grid point read off the array the launch finds; that an
  input's staging buffer holds that block when the body starts, fetched at this point or at an earlier one; the two
  branch conditions of the mask body as functions of the grid point (the channel tile is the point modulo 4: the first
  tile resets the scratch, the last one computes the masks); where the masks' output window is idle (at every tile but
  the last, where it is neither stored into nor written back); and the invariant of the first launch split at its
  scratch, whose contents the proof follows from point to point.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first launch (the masks): blocks and input buffers -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the point's 64 channels of the batch entry. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The tap weights' staging buffer holds the whole [9, 4] array at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second launch (the reassembly): blocks and input buffers -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The masks block of the batch entry is fetched at the entry's first channel tile and stays for the other fifteen. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The mask body's two branches, by the grid point -/

/-- "This is the batch entry's first channel tile": the scratch is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the batch entry's last channel tile": the masks are computed and stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the first launch's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last channel tile the masks' window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last channel tile it is stored into. -/
theorem liveAt0_2 : ∀ t : Fin cfg0.N, cond0_1 (grid0.coords t) → cfg0.idle 2 (grid0.coords t) = false := by decide +kernel

/-! ## The staging memrefs the bodies are called with, and the scratch -/

abbrev ms0_0 (t : Fin cfg0.N) : Memref sig .tc .vmem S1x64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x256x256 .f32 := win0_2.stage (cfg0.slots t 2)
abbrev hs0_2 (t : Fin cfg0.N) : (ms0_2 t).IsWhole := hstage0_2 ((cfg0.slots t 2).cast nbuf0_2)
/-- The scratch: the running channel sums, a whole buffer of the kernel's own. -/
abbrev scM : Memref sig .tc .vmem S128x128 .f32 := Memref.whole cc0_scratch0

/-- Every other scoped buffer that is no staging buffer of the first launch (the second launch's staging buffers), at
    some contents each: carried through the first launch unopened. -/
abbrev restBut0 (c : Dev nD) : sProp 𝕄 :=
  Pipeline.scopedRestBut (Ix := Unit) (Name := ℕ) (U := UR sig nD τ) (Lvl := ℕ) (Val := Elt F) spec0 c [cc0_scratch0]

/-- The first launch's class invariant with the scratch split off: the scratch at some contents, the other scoped
    buffers, the generator register at some state. -/
theorem PhiA0_eq (c : Dev nD) :
    (Pipeline.ΦA spec0 c : sProp 𝕄)
      = iprop(((∃ d, owns (c : Thread nD τ) scM fullShare d) ∗ restBut0 (F := F) c) ∗ (∃ r, prngReg c r)) := by
  unfold Pipeline.ΦA
  rw [Pipeline.scopedRest_split_of_list spec0 c [cc0_scratch0] (by decide) (by decide)]
  simp only [scM, owns_whole, bigSepL_singleton]
  try rfl

end Cert.KernelIdeal.Fr

end
-- ==== Proof.FrRun0I.lean ====
/-
  The mask body, run once per control case on whole staging memrefs. The channel tile decides the case:
  at a batch entry's first tile the scratch is reset and the tile's 64 channels are added (case A); at the two middle
  tiles they are added to what the scratch held (case B); at the last tile they are added and then the nine masks are
  computed from the completed sums and the tap weights and stored, one [1, 1, 256, 256] plane per tap (case C).
  Each run states what the body needs and what it hands back; the pieces each written buffer ends with are found by the
  run itself, and the buffers a case never touches stay with the caller.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrBaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (a batch entry's first channel tile): the scratch, at anything, ends with the run's pieces written. -/
noncomputable def kernelRun0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : cond0_0 i) (hc1 : ¬cond0_1 i) (x0 : Vec F S1x64x128x128 .f32) :
    { LS0 : List (View.Piece (Elt F) S128x128 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 4000000 in
/-- Case B (a middle channel tile): the scratch, at what the tile before left, ends with the run's pieces written. -/
noncomputable def kernelRun0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : ¬cond0_0 i) (hc1 : ¬cond0_1 i) (x0 : Vec F S1x64x128x128 .f32) (xs0 : Vec F S128x128 .f32) :
    { LS0 : List (View.Piece (Elt F) S128x128 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 8000000 in
/-- Case C (a batch entry's last channel tile): the scratch ends with the run's pieces written, and so does the masks'
    output buffer (handed over at anything), the tap weights' buffer being read and handed back. -/
noncomputable def kernelRun0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole)
    (hc0 : ¬cond0_0 i) (hc1 : cond0_1 i) (x0 : Vec F S1x64x128x128 .f32) (g0 : Vec F S9x4 .f32) (xs0 : Vec F S128x128 .f32) :
    Σ' (L2 : List (View.Piece (Elt F) S1x9x256x256 .f32)), { LS0 : List (View.Piece (Elt F) S128x128 .f32) //
      ∀ (E : Set ℕ) (K : PUnit → sProp 𝕄),
        iprop(owns (c : Thread nD τ) arg2 fullShare x0 ∗ owns (c : Thread nD τ) arg3 fullShare g0 ∗ (∃ d, owns (c : Thread nD τ) arg4 fullShare d) ∗ owns (c : Thread nD τ) arg5 fullShare xs0
            ∗ (iprop(owns (c : Thread nD τ) arg2 fullShare x0 ∗ owns (c : Thread nD τ) arg3 fullShare g0
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mask_kernel i arg2 harg2 arg3 harg3 arg4 harg4 arg5 harg5) K } := by
  refine ⟨?_, ?_, fun E K => ?run⟩
  case run =>
    simp only [cc0__mask_kernel_eq_skeleton]; unfold cc0__mask_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrR0I.lean ====
/-
  The first launch (the masks), point by point. A grid point is a batch entry b and a channel tile k (point = 4·b + k).
  After point 4·b + k the scratch holds the sums of channels 0 … 64·(k+1) − 1 of entry b; the masks' output buffer is
  stored into only at k = 3, from the completed sums, and is idle (neither stored nor written back) before.
  Stated here, for any entry contents V of the arrays: what each case leaves in the scratch and in the output buffer
  (the run's pieces read back), the accumulation over the points, the invariant that carries the scratch's contents
  from a point to the next, the proof data, and the body obligation at every point.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrRun0I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The scratch after case A, and that the case's pieces cover it. -/
def sout0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : cond0_0 i) (hc1 : ¬cond0_1 i) (x0 : Vec F S1x64x128x128 .f32) : Vec F S128x128 .f32 :=
  View.canon (kernelRun0_A c i arg2 harg2 arg3 harg3 arg4 harg4 arg5 harg5 hc0 hc1 x0).1
theorem scover0_A (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : cond0_0 i) (hc1 : ¬cond0_1 i) (x0 : Vec F S1x64x128x128 .f32) (y : S128x128.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S128x128.size (by sl_kernel_rfl) y

/-- The scratch after case B. -/
def sout0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : ¬cond0_1 i) (x0 : Vec F S1x64x128x128 .f32) (xs0 : Vec F S128x128 .f32) : Vec F S128x128 .f32 :=
  View.canon (kernelRun0_B c i arg2 harg2 arg3 harg3 arg4 harg4 arg5 harg5 hc0 hc1 x0 xs0).1
theorem scover0_B (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : ¬cond0_1 i) (x0 : Vec F S1x64x128x128 .f32) (xs0 : Vec F S128x128 .f32) (y : S128x128.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S128x128.size (by sl_kernel_rfl) y

/-- The scratch and the masks' output buffer after case C. -/
def sout0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) : Vec F S128x128 .f32 :=
  View.canon (kernelRun0_C c i arg2 harg2 arg3 harg3 arg4 harg4 arg5 harg5 hc0 hc1 x0 g0 xs0).2.1
theorem scover0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) (y : S128x128.Idx) :
    ∃ pc ∈ (kernelRun0_C c i arg2 harg2 arg3 harg3 arg4 harg4 arg5 harg5 hc0 hc1 x0 g0 xs0).2.1, y ∈ pc.1.set :=
  View.cover_of_tiledL (kernelRun0_C c i arg2 harg2 arg3 harg3 arg4 harg4 arg5 harg5 hc0 hc1 x0 g0 xs0).2.1 S128x128.size (by sl_kernel_rfl) y
def out0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) : Vec F S1x9x256x256 .f32 :=
  View.canon (kernelRun0_C c i arg2 harg2 arg3 harg3 arg4 harg4 arg5 harg5 hc0 hc1 x0 g0 xs0).1
theorem cover0_C (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) (y : S1x9x256x256.Idx) :
    ∃ pc ∈ (kernelRun0_C c i arg2 harg2 arg3 harg3 arg4 harg4 arg5 harg5 hc0 hc1 x0 g0 xs0).1, y ∈ pc.1.set :=
  View.cover_of_tiledL (kernelRun0_C c i arg2 harg2 arg3 harg3 arg4 harg4 arg5 harg5 hc0 hc1 x0 g0 xs0).1 S1x1x256x256.size (by sl_kernel_rfl) y

section Regions
variable (V : (c : Dev nD) → (b : Ref sig .tc) → Buf (Elt F) ((c : Thread nD τ).loc b))

/-! ## The accumulation over the points -/

/-- A placeholder for the output buffer's contents at the points where it is idle: nothing reads it. -/
def idleOut : Vec F S1x9x256x256 .f32 := View.canon []

/-- What point t leaves (the output buffer's contents, the scratch's), by the point's case; `prev` is what the scratch
    held when the point started. -/
def stepA (c : Dev nD) (t : Fin cfg0.N) (h0 : t.val % 4 = 0) : Vec F S1x9x256x256 .f32 × Vec F S128x128 .f32 :=
  (idleOut, sout0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t))
def stepB (c : Dev nD) (t : Fin cfg0.N) (h0 : ¬t.val % 4 = 0) (h1 : ¬t.val % 4 = 3) (prev : Vec F S128x128 .f32) : Vec F S1x9x256x256 .f32 × Vec F S128x128 .f32 :=
  (idleOut, sout0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk0 V c 0 t) prev)
def stepC (c : Dev nD) (t : Fin cfg0.N) (h0 : ¬t.val % 4 = 0) (h1 : t.val % 4 = 3) (prev : Vec F S128x128 .f32) : Vec F S1x9x256x256 .f32 × Vec F S128x128 .f32 :=
  (out0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev,
   sout0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev)

/-- THE ACCUMULATION: what the output buffer and the scratch hold after the body at position n. -/
def outsAt0 (c : Dev nD) : (n : ℕ) → n < cfg0.N → Vec F S1x9x256x256 .f32 × Vec F S128x128 .f32
  | 0, hn => stepA V c ⟨0, hn⟩ (Nat.zero_mod _)
  | n + 1, hn =>
    if h0 : (n + 1) % 4 = 0 then stepA V c ⟨n + 1, hn⟩ h0
    else if h1 : (n + 1) % 4 = 3 then stepC V c ⟨n + 1, hn⟩ h0 h1 (outsAt0 c n (Nat.lt_of_succ_lt hn)).2
    else stepB V c ⟨n + 1, hn⟩ h0 h1 (outsAt0 c n (Nat.lt_of_succ_lt hn)).2

theorem outsAt0_A (c : Dev nD) (t : Fin cfg0.N) (h0 : t.val % 4 = 0) : outsAt0 V c t.val t.isLt = stepA V c t h0 := by
  obtain ⟨n, hn⟩ := t
  cases n with
  | zero => rfl
  | succ n => exact dif_pos h0
theorem outsAt0_B (c : Dev nD) (t : Fin cfg0.N) (h0 : ¬t.val % 4 = 0) (h1 : ¬t.val % 4 = 3) :
    outsAt0 V c t.val t.isLt = stepB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt0_C (c : Dev nD) (t : Fin cfg0.N) (h0 : ¬t.val % 4 = 0) (h1 : t.val % 4 = 3) :
    outsAt0 V c t.val t.isLt = stepC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant: the scratch's contents carried from a point to the next -/

/-- Before the first point the class's invariant (every scoped buffer that is no staging buffer at anything); afterwards
    the scratch at what the point before left in it, the other scoped buffers at anything, the generator register. -/
def PhiS (c : Dev nD) : (n : ℕ) → n ≤ cfg0.N → sProp 𝕄
  | 0, _ => Pipeline.ΦA spec0 c
  | n + 1, hn => iprop((owns (c : Thread nD τ) scM fullShare ((outsAt0 V c n hn).2) ∗ restBut0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare ((outsAt0 V c n hn).2) ∗ restBut0 (F := F) c) ∗ (∃ r, prngReg c r)) := rfl
theorem PhiS_pos (c : Dev nD) (n : ℕ) (h : n ≤ cfg0.N) (hz : n ≠ 0) :
    PhiS V c n h = iprop((owns (c : Thread nD τ) scM fullShare ((outsAt0 V c (n - 1) (by omega)).2) ∗ restBut0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's case by its channel tile; the inputs' buffers hold their blocks; the invariant
    hands the body the scratch at what the point before left (at anything before the first point) and takes it back at
    this point's contents; at the last tile the output buffer comes back at the case's pieces, before it untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 16 := lt_of_lt_of_eq t.isLt (show cfg0.N = 16 from N_0)
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold stepA sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t)).2 Set.univ _)
      isplitl [H0]; · iexact H0
      isplitl [HS0]; · iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_A _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t)).2 Set.univ _)
      isplitl [H0]; · iexact H0
      isplitl [HS0]; · iexists _; iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_A _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC sout0_C out0_C; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_C _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_eq_canon _ _ _ (cover0_C _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk0 V c 0 t) _).2 Set.univ _)
      isplitl [H0]; · iexact H0
      isplitl [HS0]; · iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_eq_canon _ _ _ (scover0_B _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hrest⟩, Hg⟩
  isplitl [HS0 Hrest]
  · isplitl [HS0]
    · iexists _; iexact HS0
    iexact Hrest
  iexact Hg

end Regions

end Cert.KernelIdeal.Fr

end
-- ==== Proof.ChainI.lean ====
/-
  The two kernel bodies as pure functions of what they load, generic in the float instance.

  The mask body (run once per batch entry, at the last channel tile) loads the scratch `s` — by then the sums over all
  256 channels — and the tap weights `gk`, and stores nine [1, 1, 256, 256] pieces, one per tap, into its output block.
  The generated skeleton cuts its arithmetic into payload terms chained through intermediate values; here that chain is
  written out once, so that each stored piece is ONE named function of `s` and `gk`.

  The reassembly body loads its 16-channel block of the input and the nine tap planes of the masks block and stores one
  [1, 16, 256, 256] piece; likewise one named function of the loads.
-/
import proofs.«174128_j1090921693816_1_alg».proof.Proof.Gen.KernelIdeal.Skeleton

noncomputable section

namespace Cert.KernelIdeal.Chain

open Idealize.ShloMosaic Cert.KernelIdeal Cert.KernelIdeal.Gen

variable {F : FTy → Type} [FloatOps F]

/-! ## The accumulation: what the scratch holds after a point -/

/-- The scratch after the reset at a batch entry's first channel tile. -/
def accZero : FVec F S128x128 .f32 := k0_pay1 (F := F)

/-- The scratch after a point: what it held before plus the sums of the point's 64 channels. -/
def accStep (s : Vec F S128x128 .f32) (xb : Vec F S1x64x128x128 .f32) : FVec F S128x128 .f32 := k0_pay2 s xb

/-! ## The mask body -/

section Mask
variable (s : Vec F S128x128 .f32) (gk : Vec F S9x4 .f32)

/-- The mean, the padded mean. -/
def mMean : FVec F S128x128 .f32 := k0_pay5 s
def mPad : FVec F S130x130 .f32 := k0_pay6 s
/-- The nine logit planes (tap 8 first before, then after its last reshape). -/
def mW0 : FVec F S256x256 .f32 := k0_pay7 s gk
def mW1 : FVec F S256x256 .f32 := k0_pay8 s gk
def mV61 : FVec F S128x128 .f32 := k0_pay9 s
def mV62 : FVec F S128x128 .f32 := k0_pay10 (F := F)
def mW2 : FVec F S256x256 .f32 := k0_pay11 gk (mV61 s) (mV62 (F := F))
def mW3 : FVec F S256x256 .f32 := k0_pay12 (mMean s) (mPad s) gk
def mW4 : FVec F S256x256 .f32 := k0_pay13 (mMean s) (mPad s) gk
def mV113 : FVec F S128x128 .f32 := k0_pay14 (mMean s) (mPad s)
def mV115 : FVec F S4 .f32 := k0_pay15 gk
def mW5 : FVec F S256x256 .f32 := k0_pay16 (mV113 s) (mV115 gk)
def mW6 : FVec F S256x256 .f32 := k0_pay17 (mMean s) (mPad s) gk
def mW7 : FVec F S256x256 .f32 := k0_pay18 (mMean s) (mPad s) gk
def mV169 : FVec F S128x2x128x2 .f32 := k0_pay19 (mMean s) (mPad s) gk
def mW8 : FVec F S256x256 .f32 := k0_pay20 (mV169 s gk)
/-- The maximum of the nine planes and the sum of the nine exponentials. -/
def mMax : FVec F S256x256 .f32 :=
  k0_pay21 (mW0 s gk) (mW1 s gk) (mW2 s gk) (mW3 s gk) (mW4 s gk) (mW5 s gk) (mW6 s gk) (mW7 s gk) (mV169 s gk)
def mDen : FVec F S256x256 .f32 :=
  k0_pay22 (mW0 s gk) (mW1 s gk) (mW2 s gk) (mW3 s gk) (mW4 s gk) (mW5 s gk) (mW6 s gk) (mW7 s gk) (mV169 s gk)
def mV251 : FVec F S256x256 .f32 := k0_pay30 (mW7 s gk) (mMax s gk) (mDen s gk)

/-- The nine stored pieces, by tap. -/
def piece0 : FVec F S1x1x256x256 .f32 :=
  k0_pay23 (mW0 s gk) (mW1 s gk) (mW2 s gk) (mW3 s gk) (mW4 s gk) (mW5 s gk) (mW6 s gk) (mW7 s gk) (mV169 s gk)
def piece1 : FVec F S1x1x256x256 .f32 :=
  k0_pay24 (mW0 s gk) (mW1 s gk) (mW2 s gk) (mW3 s gk) (mW4 s gk) (mW5 s gk) (mW6 s gk) (mW7 s gk) (mV169 s gk)
def piece2 : FVec F S1x1x256x256 .f32 := k0_pay25 (mW2 s gk) (mMax s gk) (mDen s gk)
def piece3 : FVec F S1x1x256x256 .f32 := k0_pay26 (mW3 s gk) (mMax s gk) (mDen s gk)
def piece4 : FVec F S1x1x256x256 .f32 := k0_pay27 (mW4 s gk) (mMax s gk) (mDen s gk)
def piece5 : FVec F S1x1x256x256 .f32 := k0_pay28 (mW5 s gk) (mMax s gk) (mDen s gk)
def piece6 : FVec F S1x1x256x256 .f32 := k0_pay29 (mW6 s gk) (mMax s gk) (mDen s gk)
def piece7 : FVec F S1x1x256x256 .f32 := k0_pay3 (mV251 s gk)
def piece8 : FVec F S1x1x256x256 .f32 := k0_pay4 (mW8 s gk) (mMax s gk) (mDen s gk)

/-- The piece of tap n. -/
def piece : Fin 9 → FVec F S1x1x256x256 .f32
  | ⟨0, _⟩ => piece0 s gk | ⟨1, _⟩ => piece1 s gk | ⟨2, _⟩ => piece2 s gk
  | ⟨3, _⟩ => piece3 s gk | ⟨4, _⟩ => piece4 s gk | ⟨5, _⟩ => piece5 s gk
  | ⟨6, _⟩ => piece6 s gk | ⟨7, _⟩ => piece7 s gk | ⟨8, _⟩ => piece8 s gk

end Mask

/-! ## The reassembly body -/

section Carafe
variable (x0 : Vec F S1x16x128x128 .f32) (t0 t1 t2 t3 t4 t5 t6 t7 t8 : Vec F S1x1x256x256 .f32)

/-- The zero-padded block, and the running sum after taps 0–1, 2–5, and all nine (the stored piece). -/
def cPad : FVec F S16x130x130 .f32 := k1_pay2 x0
def cAcc1 : FVec F S16x256x256 .f32 := k1_pay3 x0 t0 t1
def cV38 : FVec F S16x256x256 .f32 := k1_pay4 x0
def cAcc5 : FVec F S16x256x256 .f32 := k1_pay5 (cPad x0) (cAcc1 x0 t0 t1) (cV38 x0) t2 t3 t4 t5
def cV82 : FVec F S16x256x256 .f32 := k1_pay6 (cPad x0)
/-- What the body stores: the weighted sum of the nine taps. -/
def cOut : FVec F S1x16x256x256 .f32 :=
  k1_pay1 (cPad x0) (cAcc5 x0 t0 t1 t2 t3 t4 t5) (cV82 x0) t6 t7 t8

end Carafe

end Cert.KernelIdeal.Chain

end
-- ==== Proof.FrR1I.lean ====
/-
  The second launch (the reassembly), one grid point = one batch entry and one tile of 16 channels. The body loads
  its input block whole, the nine tap planes of the batch entry's masks block one by one, and stores the weighted sum of
  the nine shifted, doubled copies of the zero-padded block over its whole output block. There is one control case.
  Stated here, for any entry contents V of the arrays: what the output's staging buffer holds after the body (as a
  function of the two input blocks), the body's triple, the proof data, and the obligation at every point.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrBaseI
import proofs.«174128_j1090921693816_1_alg».proof.Proof.ChainI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Chain

section Regions
variable (V : (c : Dev nD) → (b : Ref sig .tc) → Buf (Elt F) ((c : Thread nD τ).loc b))

/-! ## The body's accesses -/

abbrev r1x : Rect S1x16x128x128 := Rect.unit (s := S1x16x128x128) ![0, 0, 0, 0] S1x16x128x128.size inb_S1x16x128x128_S1x16x128x128_0_0_0_0
abbrev r1o : Rect S1x16x256x256 := Rect.unit (s := S1x16x256x256) ![0, 0, 0, 0] S1x16x256x256.size inb_S1x16x256x256_S1x16x256x256_0_0_0_0
abbrev r1m0 : Rect S1x9x256x256 := Rect.unit (s := S1x9x256x256) ![0, 0, 0, 0] S1x1x256x256.size inb_S1x9x256x256_S1x1x256x256_0_0_0_0
abbrev r1m1 : Rect S1x9x256x256 := Rect.unit (s := S1x9x256x256) ![0, 1, 0, 0] S1x1x256x256.size inb_S1x9x256x256_S1x1x256x256_0_1_0_0
abbrev r1m2 : Rect S1x9x256x256 := Rect.unit (s := S1x9x256x256) ![0, 2, 0, 0] S1x1x256x256.size inb_S1x9x256x256_S1x1x256x256_0_2_0_0
abbrev r1m3 : Rect S1x9x256x256 := Rect.unit (s := S1x9x256x256) ![0, 3, 0, 0] S1x1x256x256.size inb_S1x9x256x256_S1x1x256x256_0_3_0_0
abbrev r1m4 : Rect S1x9x256x256 := Rect.unit (s := S1x9x256x256) ![0, 4, 0, 0] S1x1x256x256.size inb_S1x9x256x256_S1x1x256x256_0_4_0_0
abbrev r1m5 : Rect S1x9x256x256 := Rect.unit (s := S1x9x256x256) ![0, 5, 0, 0] S1x1x256x256.size inb_S1x9x256x256_S1x1x256x256_0_5_0_0
abbrev r1m6 : Rect S1x9x256x256 := Rect.unit (s := S1x9x256x256) ![0, 6, 0, 0] S1x1x256x256.size inb_S1x9x256x256_S1x1x256x256_0_6_0_0
abbrev r1m7 : Rect S1x9x256x256 := Rect.unit (s := S1x9x256x256) ![0, 7, 0, 0] S1x1x256x256.size inb_S1x9x256x256_S1x1x256x256_0_7_0_0
abbrev r1m8 : Rect S1x9x256x256 := Rect.unit (s := S1x9x256x256) ![0, 8, 0, 0] S1x1x256x256.size inb_S1x9x256x256_S1x1x256x256_0_8_0_0

/-! ## What the body leaves in the output window's buffer -/

/-- The stored value: the reassembly of the block under the nine tap planes read off the masks block. -/
def pay1 (x0 : Vec F S1x16x128x128 .f32) (m0 : Vec F S1x9x256x256 .f32) : FVec F S1x16x256x256 .f32 :=
  cOut (View.ld x0 r1x) (View.ld m0 r1m0) (View.ld m0 r1m1) (View.ld m0 r1m2) (View.ld m0 r1m3) (View.ld m0 r1m4)
    (View.ld m0 r1m5) (View.ld m0 r1m6) (View.ld m0 r1m7) (View.ld m0 r1m8)

/-- The output's staging buffer after the body: its one store, over the whole block. -/
def out1_2 (x0 : Vec F S1x16x128x128 .f32) (m0 : Vec F S1x9x256x256 .f32) : Vec F S1x16x256x256 .f32 :=
  View.canon [⟨r1o, pay1 x0 m0⟩]

theorem cover1_2 (p0 : Vec F S1x16x256x256 .f32) (y : S1x16x256x256.Idx) :
    ∃ pc ∈ ([⟨r1o, p0⟩] : List (View.Piece (Elt F) S1x16x256x256 .f32)), y ∈ pc.1.set :=
  View.cover_of_tiled [⟨r1o, p0⟩] S1x16x256x256.size (by rfl) y

/-! ## The body's triple -/

set_option maxHeartbeats 4000000 in
/-- On whole staging memrefs, the inputs' at contents x0 and m0 and the output's at anything, the body runs to the
    continuation holding the inputs' as they were and the output's at `out1_2 x0 m0`. -/
theorem sound_kernel1 (c : Dev nD) (E : Set ℕ) (i : grid1.Coords) (arg2 : Memref sig .tc .vmem S1x16x128x128 .f32) (harg2 : arg2.IsWhole)
    (arg3 : Memref sig .tc .vmem S1x9x256x256 .f32) (harg3 : arg3.IsWhole) (arg4 : Memref sig .tc .vmem S1x16x256x256 .f32) (harg4 : arg4.IsWhole)
    (x0 : Vec F S1x16x128x128 .f32) (m0 : Vec F S1x9x256x256 .f32) (K : PUnit → sProp 𝕄) :
    iprop(owns (c : Thread nD τ) arg2 fullShare x0 ∗ owns (c : Thread nD τ) arg3 fullShare m0 ∗ (∃ d, owns (c : Thread nD τ) arg4 fullShare d)
        ∗ (iprop(owns (c : Thread nD τ) arg2 fullShare x0 ∗ owns (c : Thread nD τ) arg3 fullShare m0
            ∗ owns (c : Thread nD τ) arg4 fullShare (out1_2 x0 m0)) -∗ K ⟨⟩))
      ⊢ wp frame (wpE (defs₀ (F := F)) Variants.none c none) E (cc1__carafe_kernel i arg2 harg2 arg3 harg3 arg4 harg4) K := by
  simp only [cc1__carafe_kernel_eq_skeleton]; unfold cc1__carafe_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The second launch's proof data on core c: the arrays as the launch finds them; after the body each input's buffer
    at its block and the output's at `out1_2` of the two input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.FrMainI.lean ====
/-
  The whole run of the program: two launches, nothing between them. The buffer contents at the three boundaries are a
  fold from the launch memory: what is there at launch; after the first launch the masks array holds what its
  write-backs leave and every other buffer is as it was; after the second the result array holds what its write-backs
  leave. Each launch is a segment entered from "every unscoped buffer at the boundary's contents" and left at the next
  boundary's; the first one's invariant takes the scratch in at anything and gives it back with its contents forgotten.
  One launch theorem then gives: every weakly fair execution terminates, nothing faults, the result array ends at the
  second launch's folded write-backs, and both argument arrays end as launched.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrR0I
import proofs.«174128_j1090921693816_1_alg».proof.Proof.FrR1I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first launch: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: each launch reads them through an input window or bypasses them -/

/-- What the second launch finds in the input array is the launch contents. -/
theorem V2_main_arg0 (c : Dev nD) : V2 m ρ c main_arg0 = m ((c : Thread nD τ).loc main_arg0) :=
  (W2_arr m ρ c 0).trans (((dat0 (V1 m ρ) c).arrAt_in 0 rfl _).trans (A_eq0 (V1 m ρ) c 0))
theorem V2_main_arg1 (c : Dev nD) : V2 m ρ c main_arg1 = m ((c : Thread nD τ).loc main_arg1) :=
  (W2_arr m ρ c 1).trans (((dat0 (V1 m ρ) c).arrAt_in 1 rfl _).trans (A_eq0 (V1 m ρ) c 1))
theorem W4_main_arg0 (c : Dev nD) : W4 m ρ c (Proc.devRef .tc main_arg0) = m ((c : Thread nD τ).loc main_arg0) :=
  (W4_arr m ρ c 0).trans ((((dat1 (V2 m ρ) c).arrAt_in 0 rfl _).trans (A_eq1 (V2 m ρ) c 0)).trans (V2_main_arg0 m ρ c))
theorem W4_main_arg1 (c : Dev nD) : W4 m ρ c (Proc.devRef .tc main_arg1) = m ((c : Thread nD τ).loc main_arg1) :=
  (W4_of_ne m ρ c main_arg1 (by decide)).trans (V2_main_arg1 m ρ c)

/-! ## The proof data family and the thread state -/

abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the core's generator register at some state and its `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting; the result array ends at the second launch's folded write-backs and the two argument
    arrays end as launched. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_arr m ρ c 2),
       (h c _ (mem_uc main_arg0 (by decide))).trans (W4_main_arg0 m ρ c),
       (h c _ (mem_uc main_arg1 (by decide))).trans (W4_main_arg1 m ρ c)⟩)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.Spec.lean ====
/-
  The result both programs compute, written once as a function of the two argument arrays over the extended
  reals, index by index.

  With x of shape [4, 256, 128, 128] and g of shape [9, 4]:
  * the channel sums  S b h w = ∑ c, x b c h w  and the channel mean  S / 256;
  * the mean's zero-padded copy (one ring of zeros round each 128 × 128 plane), read at padded coordinates;
  * for tap n = 3·i + j (i, j ∈ {0,1,2}) the weight  grad n h w = 1 / ((pad (h+i) (w+j) − mean h w)² + 1);
  * the logit at the doubled resolution  logit n I J = grad n (I/2) (J/2) · g n (2·(I%2) + J%2);
  * the softmax over the nine taps, with the maximum subtracted:  mask n I J = exp (logit − max) / ∑ exp (logit − max);
  * the reassembly  out b c I J = ∑ n, mask b n I J · xpad b c (I/2 + i) (J/2 + j),  xpad the zero-padded x.
  Everything that depends on one batch entry only is first stated for one plane of channel sums (the names ending in P),
  because that is what one block of either program's work sees. Float words that occur on both sides (1.0 and 256.0) are
  kept as the words they are printed as.
-/
import Idealize.ShloMosaic.PureOps.Ideal
import Idealize.ShloMosaic.Lib.ValueIdx

noncomputable section

open scoped BigOperators

namespace Cert.Proof.Spec

open Idealize.ShloMosaic Idealize.ShloMosaic.ValueIdx

/-- The arrays' types: the input, the tap weights, the masks, the result. -/
abbrev XArr : Type := FVec Ideal (⟨4, ![4, 256, 128, 128]⟩ : Shape) .f32
abbrev GArr : Type := FVec Ideal (⟨2, ![9, 4]⟩ : Shape) .f32
abbrev MArr : Type := FVec Ideal (⟨4, ![4, 9, 256, 256]⟩ : Shape) .f32
abbrev OArr : Type := FVec Ideal (⟨4, ![4, 256, 256, 256]⟩ : Shape) .f32

/-- A 128 × 128 plane of extended reals. -/
abbrev Plane : Type := Fin 128 → Fin 128 → EReal

/-- The float 1.0, as printed. -/
abbrev one : EReal := Ideal.ofBits .f32 0x3F800000#32
/-- The float 256.0, as printed. -/
abbrev c256 : EReal := Ideal.ofBits .f32 0x43800000#32

/-- A plane with one ring of zeros round it, read at padded coordinates (0 … 129 each). -/
def padRead (p : Plane) (i j : ℕ) : EReal :=
  if h : (1 ≤ i ∧ i ≤ 128) ∧ (1 ≤ j ∧ j ≤ 128) then p ⟨i - 1, by omega⟩ ⟨j - 1, by omega⟩ else 0

/-! ## One batch entry: from the plane of channel sums to the nine masks -/

/-- The channel mean, from the channel sums. -/
def meanP (S : Plane) : Plane := fun h w => Ideal.div (S h w) c256

/-- Tap n's weight at a pixel: 1 / ((the padded mean at the tap's offset − the mean)² + 1). -/
def gradP (S : Plane) (n : Fin 9) (h w : Fin 128) : EReal :=
  Ideal.div one
    ((padRead (meanP S) (h.val + n.val / 3) (w.val + n.val % 3) - meanP S h w)
      * (padRead (meanP S) (h.val + n.val / 3) (w.val + n.val % 3) - meanP S h w) + one)

/-- Tap n's logit at a pixel of the doubled resolution. -/
def logitP (S : Plane) (g : GArr) (n : Fin 9) (I J : Fin 256) : EReal :=
  gradP S n ⟨I.val / 2, by omega⟩ ⟨J.val / 2, by omega⟩ * g (ix2 n ⟨2 * (I.val % 2) + J.val % 2, by omega⟩)

/-- The largest of the nine logits at a pixel. -/
def lmaxP (S : Plane) (g : GArr) (I J : Fin 256) : EReal :=
  Finset.univ.sup fun n : Fin 9 => logitP S g n I J

/-- exp (logit − the largest logit). -/
def lexpP (S : Plane) (g : GArr) (n : Fin 9) (I J : Fin 256) : EReal :=
  Ideal.exp (logitP S g n I J - lmaxP S g I J)

/-- The softmax's denominator. -/
def ldenP (S : Plane) (g : GArr) (I J : Fin 256) : EReal := ∑ n : Fin 9, lexpP S g n I J

/-- The mask of tap n at a pixel: the softmax over the nine taps. -/
def maskP (S : Plane) (g : GArr) (n : Fin 9) (I J : Fin 256) : EReal :=
  Ideal.div (lexpP S g n I J) (ldenP S g I J)

/-- The reassembly at a pixel from one channel's plane and the nine masks of its batch entry. -/
def outP (xc : Plane) (M : Fin 9 → Fin 256 → Fin 256 → EReal) (I J : Fin 256) : EReal :=
  ∑ n : Fin 9, M n I J * padRead xc (I.val / 2 + n.val / 3) (J.val / 2 + n.val % 3)

/-! ## The arrays -/

/-- The sums of the 256 channels of batch entry b. -/
def chanSum (x : XArr) (b : Fin 4) : Plane := fun h w => ∑ c : Fin 256, x (ix4 b c h w)

/-- The masks as an array of shape [4, 9, 256, 256]. -/
def mask (x : XArr) (g : GArr) : MArr := fun i => maskP (chanSum x (i 0)) g (i 1) (i 2) (i 3)

/-- The result array of shape [4, 256, 256, 256] from the input and ANY mask array. -/
def outOf (x : XArr) (M : MArr) : OArr := fun i =>
  outP (fun h w => x (ix4 (i 0) (i 1) h w)) (fun n I J => M (ix4 (i 0) n I J)) (i 2) (i 3)

/-- THE RESULT: the reassembly under the softmax masks. -/
def out (x : XArr) (g : GArr) : OArr := outOf x (mask x g)

end Cert.Proof.Spec

end
-- ==== Proof.CarafePad.lean ====
/-
  The zero ring round a block of 16 planes, read index by index over the extended reals.

  The block [1, 16, 128, 128] is cast to [16, 128, 128] and padded by four concatenations with zero slabs: a row of zeros
  above (axis 1), one below, a column of zeros on the left (axis 2), one on the right. At (c, i, j), 0 ≤ i, j ≤ 129, the
  result is plane c of the block at (i − 1, j − 1) when 1 ≤ i, j ≤ 128 and 0 otherwise: the plane read at padded
  coordinates.
-/
import proofs.«174128_j1090921693816_1_alg».proof.Proof.ChainI
import proofs.«174128_j1090921693816_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.CarafeValue

open Idealize.ShloMosaic Idealize.ShloMosaic.ValueIdx Cert.KernelIdeal Cert.KernelIdeal.Gen

/-! ## A two-piece concatenation of rank-3 arrays along axis 1 or axis 2, read at coordinates -/

section Concat3
variable {α : Type}

/-- Along axis 1, a row below the first piece's extent reads the first piece. -/
theorem concat3_axis1_left {n0 p q m n2 : ℕ} (x₁ : (⟨3, ![n0, p, n2]⟩ : Shape).Idx → α)
    (x₂ : (⟨3, ![n0, q, n2]⟩ : Shape).Idx → α)
    (h : Shape.Concatenates [⟨3, ![n0, p, n2]⟩, ⟨3, ![n0, q, n2]⟩] ⟨3, ![n0, m, n2]⟩ 1)
    (c : Fin n0) (i : Fin m) (j : Fin n2) (hi : i.val < p) :
    concatenate ⟨3, ![n0, m, n2]⟩ 1 [⟨⟨3, ![n0, p, n2]⟩, x₁⟩, ⟨⟨3, ![n0, q, n2]⟩, x₂⟩] h (ix3 c i j)
      = x₁ (ix3 c ⟨i.val, hi⟩ j) :=
  concatenate_pair_apply_left _ x₁ x₂ h _ rfl _ fun b =>
    match b with | ⟨0, _⟩ => rfl | ⟨1, _⟩ => rfl | ⟨2, _⟩ => rfl

/-- Along axis 1, a row at or past the first piece's extent reads the second piece, that extent less. -/
theorem concat3_axis1_right {n0 p q m n2 : ℕ} (x₁ : (⟨3, ![n0, p, n2]⟩ : Shape).Idx → α)
    (x₂ : (⟨3, ![n0, q, n2]⟩ : Shape).Idx → α)
    (h : Shape.Concatenates [⟨3, ![n0, p, n2]⟩, ⟨3, ![n0, q, n2]⟩] ⟨3, ![n0, m, n2]⟩ 1)
    (c : Fin n0) (i : Fin m) (j : Fin n2) (hi : p ≤ i.val) (hq : i.val - p < q) :
    concatenate ⟨3, ![n0, m, n2]⟩ 1 [⟨⟨3, ![n0, p, n2]⟩, x₁⟩, ⟨⟨3, ![n0, q, n2]⟩, x₂⟩] h (ix3 c i j)
      = x₂ (ix3 c ⟨i.val - p, hq⟩ j) :=
  concatenate_pair_apply_right _ x₁ x₂ h _ rfl rfl _
    (fun b => match b with
      | ⟨0, _⟩ => fun _ => rfl
      | ⟨1, _⟩ => fun hb => absurd rfl hb
      | ⟨2, _⟩ => fun _ => rfl)
    (by show (i.val - p) + p = i.val; omega)

/-- Along axis 2, a column below the first piece's extent reads the first piece. -/
theorem concat3_axis2_left {n0 n1 p q m : ℕ} (x₁ : (⟨3, ![n0, n1, p]⟩ : Shape).Idx → α)
    (x₂ : (⟨3, ![n0, n1, q]⟩ : Shape).Idx → α)
    (h : Shape.Concatenates [⟨3, ![n0, n1, p]⟩, ⟨3, ![n0, n1, q]⟩] ⟨3, ![n0, n1, m]⟩ 2)
    (c : Fin n0) (i : Fin n1) (j : Fin m) (hj : j.val < p) :
    concatenate ⟨3, ![n0, n1, m]⟩ 2 [⟨⟨3, ![n0, n1, p]⟩, x₁⟩, ⟨⟨3, ![n0, n1, q]⟩, x₂⟩] h (ix3 c i j)
      = x₁ (ix3 c i ⟨j.val, hj⟩) :=
  concatenate_pair_apply_left _ x₁ x₂ h _ rfl _ fun b =>
    match b with | ⟨0, _⟩ => rfl | ⟨1, _⟩ => rfl | ⟨2, _⟩ => rfl

/-- Along axis 2, a column at or past the first piece's extent reads the second piece, that extent less. -/
theorem concat3_axis2_right {n0 n1 p q m : ℕ} (x₁ : (⟨3, ![n0, n1, p]⟩ : Shape).Idx → α)
    (x₂ : (⟨3, ![n0, n1, q]⟩ : Shape).Idx → α)
    (h : Shape.Concatenates [⟨3, ![n0, n1, p]⟩, ⟨3, ![n0, n1, q]⟩] ⟨3, ![n0, n1, m]⟩ 2)
    (c : Fin n0) (i : Fin n1) (j : Fin m) (hj : p ≤ j.val) (hq : j.val - p < q) :
    concatenate ⟨3, ![n0, n1, m]⟩ 2 [⟨⟨3, ![n0, n1, p]⟩, x₁⟩, ⟨⟨3, ![n0, n1, q]⟩, x₂⟩] h (ix3 c i j)
      = x₂ (ix3 c i ⟨j.val - p, hq⟩) :=
  concatenate_pair_apply_right _ x₁ x₂ h _ rfl rfl _
    (fun b => match b with
      | ⟨0, _⟩ => fun _ => rfl
      | ⟨1, _⟩ => fun _ => rfl
      | ⟨2, _⟩ => fun hb => absurd rfl hb)
    (by show (j.val - p) + p = j.val; omega)

end Concat3

/-! ## The padded block -/

/-- The integer 0 converted to a float is the extended real 0. -/
theorem sitofp_zero_eq : (Scalar.sitofp (F := Ideal) .f32 (0#32) : EReal) = 0 := by
  rw [Ideal.scalar_sitofp_def]; simp

/-- The padded block at (c, i, j) is plane c of the block read at the padded coordinates (i, j). -/
theorem cPad_apply (x0 : Vec Ideal S1x16x128x128 .f32) (c : Fin 16) (i j : Fin 130) :
    Cert.KernelIdeal.Chain.cPad (F := Ideal) x0 (ix3 c i j)
      = Cert.Proof.Spec.padRead (fun h w => x0 (ix4 (0 : Fin 1) c h w)) i.val j.val := by
  unfold Cert.KernelIdeal.Chain.cPad k1_pay2 Cert.Proof.Spec.padRead
  have hi130 := i.isLt
  have hj130 := j.isLt
  by_cases hj : j.val < 129
  · refine (concat3_axis2_left _ _ concatenates_S16x130x129_S16x130x1_S16x130x130_d2 c i j hj).trans ?_
    by_cases hj0 : 1 ≤ j.val
    · refine (concat3_axis2_right _ _ concatenates_S16x130x1_S16x130x128_S16x130x129_d2 c i ⟨j.val, hj⟩ hj0
        (by show j.val - 1 < 128; omega)).trans ?_
      by_cases hi : i.val < 129
      · refine (concat3_axis1_left _ _ concatenates_S16x129x128_S16x1x128_S16x130x128_d1 c i ⟨j.val - 1, _⟩ hi).trans ?_
        by_cases hi0 : 1 ≤ i.val
        · refine (concat3_axis1_right _ _ concatenates_S16x1x128_S16x128x128_S16x129x128_d1 c ⟨i.val, hi⟩ ⟨j.val - 1, _⟩ hi0
            (by show i.val - 1 < 128; omega)).trans ?_
          rw [dif_pos ⟨⟨hi0, by omega⟩, ⟨hj0, by omega⟩⟩]
          exact shapeCast_1abc_abc_apply x0 shapeCasts_S1x16x128x128_S16x128x128 c _ _
        · refine (concat3_axis1_left _ _ concatenates_S16x1x128_S16x128x128_S16x129x128_d1 c ⟨i.val, hi⟩ ⟨j.val - 1, _⟩
            (by show i.val < 1; omega)).trans ?_
          rw [dif_neg (by omega)]
          exact sitofp_zero_eq
      · refine (concat3_axis1_right _ _ concatenates_S16x129x128_S16x1x128_S16x130x128_d1 c i ⟨j.val - 1, _⟩
          (by show 129 ≤ i.val; omega) (by show i.val - 129 < 1; omega)).trans ?_
        rw [dif_neg (by omega)]
        exact sitofp_zero_eq
    · refine (concat3_axis2_left _ _ concatenates_S16x130x1_S16x130x128_S16x130x129_d2 c i ⟨j.val, hj⟩
        (by show j.val < 1; omega)).trans ?_
      rw [dif_neg (by omega)]
      exact sitofp_zero_eq
  · refine (concat3_axis2_right _ _ concatenates_S16x130x129_S16x130x1_S16x130x130_d2 c i j
      (by show 129 ≤ j.val; omega) (by show j.val - 129 < 1; omega)).trans ?_
    rw [dif_neg (by omega)]
    exact sitofp_zero_eq

end Cert.Proof.CarafeValue

end
-- ==== Proof.CarafeUp.lean ====
/-
  The two layout chains of the reassembly, read index by index.

  (1) A tap's window of the padded block, upsampled 2× by nearest neighbour: the slice [16, 128, 128] of the padded block
      [16, 130, 130] at offsets (0, a, b), cast to [16, 128, 1, 128, 1], broadcast to [16, 128, 2, 128, 2] and cast to
      [16, 256, 256]. At (c, I, J) it is the padded block at (c, a + I/2, b + J/2): the row-major position
      (c·256 + I)·256 + J is that of (c, I/2, I%2, J/2, J%2) in the five-axis shape, the broadcast forgets the two
      remainders, and the slice shifts by its offsets.
  (2) A tap's mask plane [1, 1, 256, 256] cast to [256, 256], to [1, 256, 256] and broadcast over the 16 channels: at
      (c, I, J) it is the plane at (0, 0, I, J).
-/
import proofs.«174128_j1090921693816_1_alg».proof.Proof.ChainI
import Idealize.ShloMosaic.Lib.ValueIdx
import Idealize.ShloMosaic.Lib.ValueLayout
import Idealize.ShloMosaic.Lib.Pipeline.Value

noncomputable section

open scoped BigOperators

namespace Cert.Proof.CarafeValue

open Idealize.ShloMosaic Idealize.ShloMosaic.ValueIdx Cert.KernelIdeal Cert.KernelIdeal.Gen

/-- The upsampled window at (c, I, J) is the padded block at the index k whose coordinates are the offsets plus
    (c, I/2, J/2). -/
theorem upSlice_apply {α : Type} (P : S16x130x130.Idx → α) (off : Fin 3 → ℕ)
    (hs : S16x130x130.Slices off S16x128x128)
    (h1 : S16x128x128.ShapeCasts S16x128x1x128x1) (h2 : S16x128x1x128x1.ShapeCasts S16x128x1x128x1)
    (h3 : S16x128x1x128x1.Broadcasts S16x128x2x128x2) (h4 : S16x128x2x128x2.ShapeCasts S16x256x256)
    (c : Fin 16) (I J : Fin 256) (k : S16x130x130.Idx)
    (hk0 : (k 0).val = off 0 + c.val) (hk1 : (k 1).val = off 1 + I.val / 2) (hk2 : (k 2).val = off 2 + J.val / 2) :
    shapeCast S16x256x256 (broadcastTo S16x128x2x128x2 (shapeCast S16x128x1x128x1
      (shapeCast S16x128x1x128x1 (extractStridedSlice S16x128x128 off P hs) h1) h2) h3) h4 (ix3 c I J) = P k := by
  have hI := I.isLt
  have hJ := J.isLt
  refine (shapeCast_apply _ h4 (ix3 c I J)
    (ix5 c (⟨I.val / 2, by omega⟩ : Fin 128) (⟨I.val % 2, by omega⟩ : Fin 2)
      (⟨J.val / 2, by omega⟩ : Fin 128) (⟨J.val % 2, by omega⟩ : Fin 2)) ?_).trans ?_
  · rw [Shape.rowMajor_val_five, Shape.rowMajor_val_three]
    show ((((c.val * 128 + I.val / 2) * 2 + I.val % 2) * 128 + J.val / 2) * 2 + J.val % 2)
      = (c.val * 256 + I.val) * 256 + J.val
    omega
  refine (broadcastTo_apply _ h3 _
    (ix5 c (⟨I.val / 2, by omega⟩ : Fin 128) (0 : Fin 1) (⟨J.val / 2, by omega⟩ : Fin 128) (0 : Fin 1)) ?_).trans ?_
  · intro a
    match a with
    | ⟨0, _⟩ => rfl
    | ⟨1, _⟩ => rfl
    | ⟨2, _⟩ => rfl
    | ⟨3, _⟩ => rfl
    | ⟨4, _⟩ => rfl
  rw [shapeCast_self]
  refine (shapeCast_apply _ h1 _ (ix3 c (⟨I.val / 2, by omega⟩ : Fin 128) (⟨J.val / 2, by omega⟩ : Fin 128)) ?_).trans ?_
  · rw [Shape.rowMajor_val_five, Shape.rowMajor_val_three]
    show (c.val * 128 + I.val / 2) * 128 + J.val / 2
      = ((((c.val * 128 + I.val / 2) * 1 + 0) * 128 + J.val / 2) * 1 + 0)
    omega
  refine extractStridedSlice_apply off P hs _ k ?_
  intro a
  match a with
  | ⟨0, _⟩ => exact hk0
  | ⟨1, _⟩ => exact hk1
  | ⟨2, _⟩ => exact hk2

/-- A mask plane broadcast over the 16 channels reads, at (c, I, J), the plane at (0, 0, I, J). -/
theorem maskB_apply {α : Type} (t : S1x1x256x256.Idx → α) (h1 : S1x1x256x256.ShapeCasts S256x256)
    (h2 : S256x256.ShapeCasts S1x256x256) (h3 : S1x256x256.Broadcasts S16x256x256) (c : Fin 16) (I J : Fin 256) :
    broadcastTo S16x256x256 (shapeCast S1x256x256 (shapeCast S256x256 t h1) h2) h3 (ix3 c I J)
      = t (ix4 (0 : Fin 1) (0 : Fin 1) I J) := by
  refine (broadcastTo_apply _ h3 _ (ix3 (0 : Fin 1) I J) ?_).trans ?_
  · intro a
    match a with
    | ⟨0, _⟩ => rfl
    | ⟨1, _⟩ => rfl
    | ⟨2, _⟩ => rfl
  refine (shapeCast_ab_1ab_apply _ h2 0 I J).trans ?_
  refine shapeCast_apply t h1 _ _ ?_
  rw [Shape.rowMajor_val_four, Shape.rowMajor_val_two]
  show ((0 * 1 + 0) * 256 + I.val) * 256 + J.val = I.val * 256 + J.val
  omega

end Cert.Proof.CarafeValue

end
-- ==== Proof.CarafeValue.lean ====
/-
  The reassembly body over the extended reals, index by index.

  For the 16-channel block x0 and the nine mask planes t 0 … t 8, the body stores, at channel c and pixel (I, J) of the
  doubled resolution,
      ∑ n, t n (I, J) · xpad c (I/2 + n/3, J/2 + n%3),
  xpad the block with one ring of zeros round each plane. The body computes it as a running sum from a zero constant:
  for tap n = 3a + b it takes the window of the padded block at offsets (a, b), upsamples it 2× by nearest neighbour,
  multiplies by the tap's mask plane broadcast over the channels, and adds. Read at (c, I, J) each step adds
  xpad c (I/2 + a, J/2 + b) · t n (I, J); the nine products are then re-ordered (the product commutes, 0 + a = a) into
  the sum above.
-/
import proofs.«174128_j1090921693816_1_alg».proof.Proof.ChainI
import proofs.«174128_j1090921693816_1_alg».proof.Proof.Spec
import proofs.«174128_j1090921693816_1_alg».proof.Proof.CarafePad
import proofs.«174128_j1090921693816_1_alg».proof.Proof.CarafeUp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.CarafeValue

open Idealize.ShloMosaic Idealize.ShloMosaic.ValueIdx Cert.KernelIdeal Cert.KernelIdeal.Gen

/-! ## One tap read at a pixel -/

/-- The padded block's index under tap (a, b) at channel c and pixel (I, J) of the doubled resolution. -/
abbrev tapIx (c : Fin 16) (I J : Fin 256) (a b : ℕ) (ha : a ≤ 2) (hb : b ≤ 2) : S16x130x130.Idx :=
  ix3 c (⟨I.val / 2 + a, by have := I.isLt; omega⟩ : Fin 130) (⟨J.val / 2 + b, by have := J.isLt; omega⟩ : Fin 130)

/-- The upsampled window of tap (a, b) at (c, I, J) is the padded block at (c, I/2 + a, J/2 + b). -/
theorem up_apply {α : Type} (P : S16x130x130.Idx → α) (a b : ℕ) (ha : a ≤ 2) (hb : b ≤ 2)
    (hs : S16x130x130.Slices ![0, a, b] S16x128x128)
    (h1 : S16x128x128.ShapeCasts S16x128x1x128x1) (h2 : S16x128x1x128x1.ShapeCasts S16x128x1x128x1)
    (h3 : S16x128x1x128x1.Broadcasts S16x128x2x128x2) (h4 : S16x128x2x128x2.ShapeCasts S16x256x256)
    (c : Fin 16) (I J : Fin 256) :
    (shapeCast S16x256x256 (broadcastTo S16x128x2x128x2 (shapeCast S16x128x1x128x1 (shapeCast S16x128x1x128x1
          (extractStridedSlice S16x128x128 ![0, a, b] P hs) h1) h2) h3) h4) (ix3 c I J) = P (tapIx c I J a b ha hb) :=
  upSlice_apply P _ hs h1 h2 h3 h4 c I J _
    (by show c.val = 0 + c.val; omega)
    (by show I.val / 2 + a = a + I.val / 2; omega)
    (by show J.val / 2 + b = b + J.val / 2; omega)

/-- Adding one tap to a running sum, the tap's window taken from the padded block P. -/
theorem accTap_eq (A : FVec Ideal S16x256x256 .f32) (P : FVec Ideal S16x130x130 .f32) (t : Vec Ideal S1x1x256x256 .f32)
    (a b : ℕ) (ha : a ≤ 2) (hb : b ≤ 2) (hs : S16x130x130.Slices ![0, a, b] S16x128x128)
    (h1 : S16x128x128.ShapeCasts S16x128x1x128x1) (h2 : S16x128x1x128x1.ShapeCasts S16x128x1x128x1)
    (h3 : S16x128x1x128x1.Broadcasts S16x128x2x128x2) (h4 : S16x128x2x128x2.ShapeCasts S16x256x256)
    (g1 : S1x1x256x256.ShapeCasts S256x256) (g2 : S256x256.ShapeCasts S1x256x256)
    (g3 : S1x256x256.Broadcasts S16x256x256) (c : Fin 16) (I J : Fin 256) (v : EReal) (hA : A (ix3 c I J) = v) :
    addf A (mulf (shapeCast S16x256x256 (broadcastTo S16x128x2x128x2 (shapeCast S16x128x1x128x1 (shapeCast S16x128x1x128x1
          (extractStridedSlice S16x128x128 ![0, a, b] P hs) h1) h2) h3) h4)
        (broadcastTo S16x256x256 (shapeCast S1x256x256 (shapeCast S256x256 t g1) g2) g3)) (ix3 c I J)
      = v + P (tapIx c I J a b ha hb) * t (ix4 (0 : Fin 1) (0 : Fin 1) I J) := by
  subst hA
  refine (addf_apply _ _ _).trans ?_
  refine congrArg (A (ix3 c I J) + ·) ?_
  refine (mulf_apply _ _ _).trans ?_
  exact congrArg₂ (· * ·) (up_apply P a b ha hb hs h1 h2 h3 h4 c I J) (maskB_apply t g1 g2 g3 c I J)

/-- Adding one tap to a running sum, the tap's upsampled window V given. -/
theorem accWin_eq (A V : FVec Ideal S16x256x256 .f32) (t : Vec Ideal S1x1x256x256 .f32)
    (g1 : S1x1x256x256.ShapeCasts S256x256) (g2 : S256x256.ShapeCasts S1x256x256)
    (g3 : S1x256x256.Broadcasts S16x256x256) (c : Fin 16) (I J : Fin 256) (v w : EReal)
    (hA : A (ix3 c I J) = v) (hV : V (ix3 c I J) = w) :
    addf A (mulf V (broadcastTo S16x256x256 (shapeCast S1x256x256 (shapeCast S256x256 t g1) g2) g3)) (ix3 c I J) = v + w * t (ix4 (0 : Fin 1) (0 : Fin 1) I J) := by
  subst hA
  subst hV
  refine (addf_apply _ _ _).trans ?_
  refine congrArg (A (ix3 c I J) + ·) ?_
  refine (mulf_apply _ _ _).trans ?_
  exact congrArg (V (ix3 c I J) * ·) (maskB_apply t g1 g2 g3 c I J)

/-! ## The payloads at a pixel -/

section Payloads
variable (x0 : Vec Ideal S1x16x128x128 .f32) (P : FVec Ideal S16x130x130 .f32) (A V : FVec Ideal S16x256x256 .f32)
  (t0 t1 t2 t3 t4 t5 t6 t7 t8 : Vec Ideal S1x1x256x256 .f32) (c : Fin 16) (I J : Fin 256)

/-- After taps 0 and 1. -/
theorem cAcc1_apply :
    Cert.KernelIdeal.Chain.cAcc1 (F := Ideal) x0 t0 t1 (ix3 c I J)
      = 0 + Cert.KernelIdeal.Chain.cPad (F := Ideal) x0 (tapIx c I J 0 0 (by omega) (by omega)) * t0 (ix4 (0 : Fin 1) (0 : Fin 1) I J)
          + Cert.KernelIdeal.Chain.cPad (F := Ideal) x0 (tapIx c I J 0 1 (by omega) (by omega)) * t1 (ix4 (0 : Fin 1) (0 : Fin 1) I J) := by
  unfold Cert.KernelIdeal.Chain.cAcc1 Cert.KernelIdeal.Chain.cPad k1_pay3
  refine accTap_eq _ (k1_pay2 x0) t1 0 1 (by omega) (by omega) _ _ _ _ _ _ _ _ c I J _ ?_
  refine accTap_eq _ (k1_pay2 x0) t0 0 0 (by omega) (by omega) _ _ _ _ _ _ _ _ c I J _ ?_
  exact Ideal.ofBits_zero_f32

/-- Tap 2's upsampled window. -/
theorem cV38_apply :
    Cert.KernelIdeal.Chain.cV38 (F := Ideal) x0 (ix3 c I J)
      = Cert.KernelIdeal.Chain.cPad (F := Ideal) x0 (tapIx c I J 0 2 (by omega) (by omega)) := by
  unfold Cert.KernelIdeal.Chain.cV38 Cert.KernelIdeal.Chain.cPad k1_pay4
  exact up_apply (k1_pay2 x0) 0 2 (by omega) (by omega) _ _ _ _ _ c I J

/-- Taps 2 to 5 added to the running sum A, tap 2's window V given. -/
theorem pay5_apply :
    k1_pay5 (F := Ideal) P A V t2 t3 t4 t5 (ix3 c I J)
      = A (ix3 c I J) + V (ix3 c I J) * t2 (ix4 (0 : Fin 1) (0 : Fin 1) I J)
          + P (tapIx c I J 1 0 (by omega) (by omega)) * t3 (ix4 (0 : Fin 1) (0 : Fin 1) I J)
          + P (tapIx c I J 1 1 (by omega) (by omega)) * t4 (ix4 (0 : Fin 1) (0 : Fin 1) I J)
          + P (tapIx c I J 1 2 (by omega) (by omega)) * t5 (ix4 (0 : Fin 1) (0 : Fin 1) I J) := by
  unfold k1_pay5
  refine accTap_eq _ P t5 1 2 (by omega) (by omega) _ _ _ _ _ _ _ _ c I J _ ?_
  refine accTap_eq _ P t4 1 1 (by omega) (by omega) _ _ _ _ _ _ _ _ c I J _ ?_
  refine accTap_eq _ P t3 1 0 (by omega) (by omega) _ _ _ _ _ _ _ _ c I J _ ?_
  exact accWin_eq A V t2 _ _ _ c I J _ _ rfl rfl

/-- Tap 6's upsampled window. -/
theorem pay6_apply :
    k1_pay6 (F := Ideal) P (ix3 c I J) = P (tapIx c I J 2 0 (by omega) (by omega)) := by
  unfold k1_pay6
  exact up_apply P 2 0 (by omega) (by omega) _ _ _ _ _ c I J

/-- Taps 6 to 8 added to the running sum A, tap 6's window V given; the result cast to [1, 16, 256, 256]. -/
theorem pay1_apply :
    k1_pay1 (F := Ideal) P A V t6 t7 t8 (ix4 (0 : Fin 1) c I J)
      = A (ix3 c I J) + V (ix3 c I J) * t6 (ix4 (0 : Fin 1) (0 : Fin 1) I J)
          + P (tapIx c I J 2 1 (by omega) (by omega)) * t7 (ix4 (0 : Fin 1) (0 : Fin 1) I J)
          + P (tapIx c I J 2 2 (by omega) (by omega)) * t8 (ix4 (0 : Fin 1) (0 : Fin 1) I J) := by
  unfold k1_pay1
  refine (shapeCast_abc_1abc_apply _ shapeCasts_S16x256x256_S1x16x256x256 (0 : Fin 1) c I J).trans ?_
  refine accTap_eq _ P t8 2 2 (by omega) (by omega) _ _ _ _ _ _ _ _ c I J _ ?_
  refine accTap_eq _ P t7 2 1 (by omega) (by omega) _ _ _ _ _ _ _ _ c I J _ ?_
  exact accWin_eq A V t6 _ _ _ c I J _ _ rfl rfl

/-- What the body stores, as the running sum of the nine taps over the padded block. -/
theorem cOut_kernel :
    Cert.KernelIdeal.Chain.cOut (F := Ideal) x0 t0 t1 t2 t3 t4 t5 t6 t7 t8 (ix4 (0 : Fin 1) c I J)
      = 0 + Cert.KernelIdeal.Chain.cPad (F := Ideal) x0 (tapIx c I J 0 0 (by omega) (by omega)) * t0 (ix4 (0 : Fin 1) (0 : Fin 1) I J)
          + Cert.KernelIdeal.Chain.cPad (F := Ideal) x0 (tapIx c I J 0 1 (by omega) (by omega)) * t1 (ix4 (0 : Fin 1) (0 : Fin 1) I J)
          + Cert.KernelIdeal.Chain.cPad (F := Ideal) x0 (tapIx c I J 0 2 (by omega) (by omega)) * t2 (ix4 (0 : Fin 1) (0 : Fin 1) I J)
          + Cert.KernelIdeal.Chain.cPad (F := Ideal) x0 (tapIx c I J 1 0 (by omega) (by omega)) * t3 (ix4 (0 : Fin 1) (0 : Fin 1) I J)
          + Cert.KernelIdeal.Chain.cPad (F := Ideal) x0 (tapIx c I J 1 1 (by omega) (by omega)) * t4 (ix4 (0 : Fin 1) (0 : Fin 1) I J)
          + Cert.KernelIdeal.Chain.cPad (F := Ideal) x0 (tapIx c I J 1 2 (by omega) (by omega)) * t5 (ix4 (0 : Fin 1) (0 : Fin 1) I J)
          + Cert.KernelIdeal.Chain.cPad (F := Ideal) x0 (tapIx c I J 2 0 (by omega) (by omega)) * t6 (ix4 (0 : Fin 1) (0 : Fin 1) I J)
          + Cert.KernelIdeal.Chain.cPad (F := Ideal) x0 (tapIx c I J 2 1 (by omega) (by omega)) * t7 (ix4 (0 : Fin 1) (0 : Fin 1) I J)
          + Cert.KernelIdeal.Chain.cPad (F := Ideal) x0 (tapIx c I J 2 2 (by omega) (by omega)) * t8 (ix4 (0 : Fin 1) (0 : Fin 1) I J) := by
  unfold Cert.KernelIdeal.Chain.cOut
  refine (pay1_apply _ _ _ t6 t7 t8 c I J).trans ?_
  unfold Cert.KernelIdeal.Chain.cAcc5 Cert.KernelIdeal.Chain.cV82
  rw [pay5_apply, pay6_apply, cAcc1_apply, cV38_apply]

end Payloads

/-! ## The nine-term sum -/

/-- A running sum of nine products from 0, each product's factors swapped, is the sum over the nine taps. -/
theorem nine_sum (r m : Fin 9 → EReal) :
    0 + r 0 * m 0 + r 1 * m 1 + r 2 * m 2 + r 3 * m 3 + r 4 * m 4 + r 5 * m 5 + r 6 * m 6 + r 7 * m 7 + r 8 * m 8
      = ∑ n : Fin 9, m n * r n := by
  rw [Fin.sum_univ_castSucc, Fin.sum_univ_eight, zero_add, mul_comm (r 0), mul_comm (r 1), mul_comm (r 2),
    mul_comm (r 3), mul_comm (r 4), mul_comm (r 5), mul_comm (r 6), mul_comm (r 7), mul_comm (r 8)]
  rfl

/-- THE REASSEMBLY BODY AT A PIXEL: the sum over the nine taps of mask times the zero-padded plane at the tap's offset. -/
theorem cOut_apply (x0 : Vec Ideal Cert.KernelIdeal.S1x16x128x128 .f32) (t : Fin 9 → Vec Ideal Cert.KernelIdeal.S1x1x256x256 .f32)
    (c : Fin 16) (I J : Fin 256) :
    Cert.KernelIdeal.Chain.cOut (F := Ideal) x0 (t 0) (t 1) (t 2) (t 3) (t 4) (t 5) (t 6) (t 7) (t 8) (ix4 (0 : Fin 1) c I J)
      = Cert.Proof.Spec.outP (fun h w => x0 (ix4 (0 : Fin 1) c h w)) (fun n I J => t n (ix4 (0 : Fin 1) (0 : Fin 1) I J)) I J := by
  refine (cOut_kernel x0 (t 0) (t 1) (t 2) (t 3) (t 4) (t 5) (t 6) (t 7) (t 8) c I J).trans ?_
  simp only [cPad_apply]
  exact nine_sum
    (fun n => Cert.Proof.Spec.padRead (fun h w => x0 (ix4 (0 : Fin 1) c h w)) (I.val / 2 + n.val / 3) (J.val / 2 + n.val % 3))
    (fun n => t n (ix4 (0 : Fin 1) (0 : Fin 1) I J))

end Cert.Proof.CarafeValue

end
-- ==== Proof.CarafeBlk.lean ====
/-
  The reassembly body's stored block as a function of the two blocks it loads, at a pixel.

  The body loads its 16-channel input block whole and, of the masks block [1, 9, 256, 256], the nine tap planes
  [1, 1, 256, 256] at offsets (0, n, 0, 0). A plane loaded at offset (0, n, 0, 0) reads, at (0, 0, I, J), the masks block
  at (0, n, I, J); the whole-block load reads the block itself. So the stored block at channel c and pixel (I, J) is the
  reassembly of plane c of the input block under the nine planes of the masks block.
-/
import proofs.«174128_j1090921693816_1_alg».proof.Proof.ChainI
import proofs.«174128_j1090921693816_1_alg».proof.Proof.Spec
import proofs.«174128_j1090921693816_1_alg».proof.Proof.CarafeValue
import Idealize.ShloMosaic.Lib.ValueIdx
import Idealize.ShloMosaic.Lib.Pipeline.Value

noncomputable section

open scoped BigOperators

namespace Cert.Proof.CarafeValue

open Idealize.ShloMosaic Idealize.ShloMosaic.ValueIdx Cert.KernelIdeal Cert.KernelIdeal.Gen

/-- The four zero offsets are the zero function. -/
theorem hz4 : (![0, 0, 0, 0] : Fin 4 → Nat) = fun _ => 0 := funext fun a => by fin_cases a <;> rfl

/-- A [1, 1, 256, 256] plane loaded from the masks block at offsets (0, n, 0, 0) reads, at (0, 0, I, J), the block at
    (0, n, I, J). -/
theorem tapLoad_apply (m0 : Vec Ideal S1x9x256x256 .f32) (off : Fin 4 → ℕ)
    (inb : ∀ a, off a + S1x1x256x256.size a ≤ S1x9x256x256.size a) (n : Fin 9)
    (h0 : off 0 = 0) (h1 : off 1 = n.val) (h2 : off 2 = 0) (h3 : off 3 = 0) (I J : Fin 256) :
    View.ld (Val := Elt Ideal) (e' := .f32) m0 (Rect.unit (s := S1x9x256x256) off S1x1x256x256.size inb)
        (ix4 (0 : Fin 1) (0 : Fin 1) I J)
      = m0 (ix4 (0 : Fin 1) n I J) := by
  show m0 _ = m0 _
  congr 1
  funext a
  apply Fin.ext
  match a with
  | ⟨0, _⟩ => show off 0 + 1 * 0 = 0; omega
  | ⟨1, _⟩ => show off 1 + 1 * 0 = n.val; omega
  | ⟨2, _⟩ => show off 2 + 1 * I.val = I.val; omega
  | ⟨3, _⟩ => show off 3 + 1 * J.val = J.val; omega

/-- The stored block at channel c and pixel (I, J), from the loaded blocks. -/
theorem cOutLd_point (x0 : Vec Ideal S1x16x128x128 .f32) (m0 : Vec Ideal S1x9x256x256 .f32)
    (gx : ∀ a, (![0, 0, 0, 0] : Fin 4 → ℕ) a + S1x16x128x128.size a ≤ S1x16x128x128.size a)
    (g0 : ∀ a, (![0, 0, 0, 0] : Fin 4 → ℕ) a + S1x1x256x256.size a ≤ S1x9x256x256.size a)
    (g1 : ∀ a, (![0, 1, 0, 0] : Fin 4 → ℕ) a + S1x1x256x256.size a ≤ S1x9x256x256.size a)
    (g2 : ∀ a, (![0, 2, 0, 0] : Fin 4 → ℕ) a + S1x1x256x256.size a ≤ S1x9x256x256.size a)
    (g3 : ∀ a, (![0, 3, 0, 0] : Fin 4 → ℕ) a + S1x1x256x256.size a ≤ S1x9x256x256.size a)
    (g4 : ∀ a, (![0, 4, 0, 0] : Fin 4 → ℕ) a + S1x1x256x256.size a ≤ S1x9x256x256.size a)
    (g5 : ∀ a, (![0, 5, 0, 0] : Fin 4 → ℕ) a + S1x1x256x256.size a ≤ S1x9x256x256.size a)
    (g6 : ∀ a, (![0, 6, 0, 0] : Fin 4 → ℕ) a + S1x1x256x256.size a ≤ S1x9x256x256.size a)
    (g7 : ∀ a, (![0, 7, 0, 0] : Fin 4 → ℕ) a + S1x1x256x256.size a ≤ S1x9x256x256.size a)
    (g8 : ∀ a, (![0, 8, 0, 0] : Fin 4 → ℕ) a + S1x1x256x256.size a ≤ S1x9x256x256.size a)
    (c : Fin 16) (I J : Fin 256) :
    Cert.KernelIdeal.Chain.cOut (F := Ideal)
        (View.ld (Val := Elt Ideal) (e' := .f32) x0 (Rect.unit (s := S1x16x128x128) ![0, 0, 0, 0] S1x16x128x128.size gx))
        (View.ld (Val := Elt Ideal) (e' := .f32) m0 (Rect.unit (s := S1x9x256x256) ![0, 0, 0, 0] S1x1x256x256.size g0))
        (View.ld (Val := Elt Ideal) (e' := .f32) m0 (Rect.unit (s := S1x9x256x256) ![0, 1, 0, 0] S1x1x256x256.size g1))
        (View.ld (Val := Elt Ideal) (e' := .f32) m0 (Rect.unit (s := S1x9x256x256) ![0, 2, 0, 0] S1x1x256x256.size g2))
        (View.ld (Val := Elt Ideal) (e' := .f32) m0 (Rect.unit (s := S1x9x256x256) ![0, 3, 0, 0] S1x1x256x256.size g3))
        (View.ld (Val := Elt Ideal) (e' := .f32) m0 (Rect.unit (s := S1x9x256x256) ![0, 4, 0, 0] S1x1x256x256.size g4))
        (View.ld (Val := Elt Ideal) (e' := .f32) m0 (Rect.unit (s := S1x9x256x256) ![0, 5, 0, 0] S1x1x256x256.size g5))
        (View.ld (Val := Elt Ideal) (e' := .f32) m0 (Rect.unit (s := S1x9x256x256) ![0, 6, 0, 0] S1x1x256x256.size g6))
        (View.ld (Val := Elt Ideal) (e' := .f32) m0 (Rect.unit (s := S1x9x256x256) ![0, 7, 0, 0] S1x1x256x256.size g7))
        (View.ld (Val := Elt Ideal) (e' := .f32) m0 (Rect.unit (s := S1x9x256x256) ![0, 8, 0, 0] S1x1x256x256.size g8))
        (ix4 (0 : Fin 1) c I J)
      = Cert.Proof.Spec.outP (fun h w => x0 (ix4 (0 : Fin 1) c h w)) (fun n I J => m0 (ix4 (0 : Fin 1) n I J)) I J := by
  rw [View.ld_unit_zero (S := S1x16x128x128) hz4]
  refine (cOut_apply x0 (fun n : Fin 9 => match n with
    | ⟨0, _⟩ => (View.ld (Val := Elt Ideal) (e' := .f32) m0 (Rect.unit (s := S1x9x256x256) ![0, 0, 0, 0] S1x1x256x256.size g0))
    | ⟨1, _⟩ => (View.ld (Val := Elt Ideal) (e' := .f32) m0 (Rect.unit (s := S1x9x256x256) ![0, 1, 0, 0] S1x1x256x256.size g1))
    | ⟨2, _⟩ => (View.ld (Val := Elt Ideal) (e' := .f32) m0 (Rect.unit (s := S1x9x256x256) ![0, 2, 0, 0] S1x1x256x256.size g2))
    | ⟨3, _⟩ => (View.ld (Val := Elt Ideal) (e' := .f32) m0 (Rect.unit (s := S1x9x256x256) ![0, 3, 0, 0] S1x1x256x256.size g3))
    | ⟨4, _⟩ => (View.ld (Val := Elt Ideal) (e' := .f32) m0 (Rect.unit (s := S1x9x256x256) ![0, 4, 0, 0] S1x1x256x256.size g4))
    | ⟨5, _⟩ => (View.ld (Val := Elt Ideal) (e' := .f32) m0 (Rect.unit (s := S1x9x256x256) ![0, 5, 0, 0] S1x1x256x256.size g5))
    | ⟨6, _⟩ => (View.ld (Val := Elt Ideal) (e' := .f32) m0 (Rect.unit (s := S1x9x256x256) ![0, 6, 0, 0] S1x1x256x256.size g6))
    | ⟨7, _⟩ => (View.ld (Val := Elt Ideal) (e' := .f32) m0 (Rect.unit (s := S1x9x256x256) ![0, 7, 0, 0] S1x1x256x256.size g7))
    | ⟨8, _⟩ => (View.ld (Val := Elt Ideal) (e' := .f32) m0 (Rect.unit (s := S1x9x256x256) ![0, 8, 0, 0] S1x1x256x256.size g8))) c I J).trans ?_
  unfold Cert.Proof.Spec.outP
  refine Finset.sum_congr rfl fun n _ => ?_
  refine congrArg (· * _) ?_
  match n with
  | ⟨0, _⟩ => exact tapLoad_apply m0 _ g0 0 rfl rfl rfl rfl I J
  | ⟨1, _⟩ => exact tapLoad_apply m0 _ g1 1 rfl rfl rfl rfl I J
  | ⟨2, _⟩ => exact tapLoad_apply m0 _ g2 2 rfl rfl rfl rfl I J
  | ⟨3, _⟩ => exact tapLoad_apply m0 _ g3 3 rfl rfl rfl rfl I J
  | ⟨4, _⟩ => exact tapLoad_apply m0 _ g4 4 rfl rfl rfl rfl I J
  | ⟨5, _⟩ => exact tapLoad_apply m0 _ g5 5 rfl rfl rfl rfl I J
  | ⟨6, _⟩ => exact tapLoad_apply m0 _ g6 6 rfl rfl rfl rfl I J
  | ⟨7, _⟩ => exact tapLoad_apply m0 _ g7 7 rfl rfl rfl rfl I J
  | ⟨8, _⟩ => exact tapLoad_apply m0 _ g8 8 rfl rfl rfl rfl I J

end Cert.Proof.CarafeValue

end
-- ==== Proof.CarafeArr.lean ====
/-
  The reassembly launch: from the blocks its grid points write back to the whole result array.

  The grid is [4, 16]: point t = 16·b + k is batch entry b and channel tile k. At t the input window's block is
  x[b, 16k … 16k + 15, :, :], the masks window's block is masks[b, :, :, :], and the output window's block, written back
  at every point, is out[b, 16k … 16k + 15, :, :]. The body leaves in the output block, at channel c and pixel (I, J), the
  reassembly of plane c of its input block under the nine planes of its masks block — which is the result array's own
  formula at (b, 16k + c, I, J). Every index (b, ch, I, J) of the result lies in the block of the point 16·b + ch/16, so
  after the launch the whole array is that formula of the input and the masks arrays as the launch found them.
-/
import proofs.«174128_j1090921693816_1_alg».proof.Proof.FrR1I
import proofs.«174128_j1090921693816_1_alg».proof.Proof.Spec
import proofs.«174128_j1090921693816_1_alg».proof.Proof.CarafeBlk
import Idealize.ShloMosaic.Lib.ValueIdx
import Idealize.ShloMosaic.Lib.Pipeline.Value

set_option maxRecDepth 16384

noncomputable section

open scoped BigOperators

namespace Cert.Proof.CarafeValue

open Idealize.ShloMosaic Idealize.ShloMosaic.TcCoe Idealize.ShloMosaic.ValueIdx Idealize.SL.Sem
open Idealize.ShloMosaic.Pipeline (Dat)
open Cert.KernelIdeal Cert.KernelIdeal.Gen

/-! ## The index maps over the grid -/

/-- The three windows' block indices at point t: batch entry t / 16 on axis 0; channel tile t % 16 on axis 1 for the input
    and the output, 0 for the masks; 0 on the two pixel axes. -/
theorem idx_facts1 : ∀ t : Fin cfg1.N,
    win1_0.index t (0 : Fin 4) = t.val / 16 ∧ win1_0.index t (1 : Fin 4) = t.val % 16
    ∧ win1_0.index t (2 : Fin 4) = 0 ∧ win1_0.index t (3 : Fin 4) = 0
    ∧ win1_1.index t (0 : Fin 4) = t.val / 16 ∧ win1_1.index t (1 : Fin 4) = 0
    ∧ win1_1.index t (2 : Fin 4) = 0 ∧ win1_1.index t (3 : Fin 4) = 0
    ∧ win1_2.index t (0 : Fin 4) = t.val / 16 ∧ win1_2.index t (1 : Fin 4) = t.val % 16
    ∧ win1_2.index t (2 : Fin 4) = 0 ∧ win1_2.index t (3 : Fin 4) = 0 :=
  (by decide +kernel : ∀ t : Fin grid1.N, _)

section Blocks
variable (V : (c : Dev nD) → (b : Ref sig .tc) → Buf (Elt Ideal) ((c : Thread nD τ).loc b))

/-! ## The two input blocks at a point, read off the arrays -/

/-- The input block at point t, at (0, cc, h, w), is the input array at (t / 16, 16·(t % 16) + cc, h, w). -/
theorem xblk_apply (c : Dev nD) (t : Fin cfg1.N) (u : Fin 1) (cc : Fin 16) (h w : Fin 128) (k : S4x256x128x128.Idx)
    (hk0 : (k 0).val = t.val / 16) (hk1 : (k 1).val = 16 * (t.val % 16) + cc.val)
    (hk2 : (k 2).val = h.val) (hk3 : (k 3).val = w.val) :
    (Fr.iblk1 V c 0 t : Vec Ideal S1x16x128x128 .f32) (ix4 u cc h w)
      = (V c main_arg0 : S4x256x128x128.Idx → Elt Ideal .f32) k := by
  obtain ⟨e0, e1, e2, e3, -⟩ := idx_facts1 t
  unfold Fr.iblk1
  rw [View.read_apply]
  show V c main_arg0 _ = V c main_arg0 _
  congr 1
  funext a
  apply Fin.ext
  match a with
  | ⟨0, _⟩ => show win1_0.index t (0 : Fin 4) * 1 + 1 * u.val = (k 0).val; rw [e0, hk0]; omega
  | ⟨1, _⟩ => show win1_0.index t (1 : Fin 4) * 16 + 1 * cc.val = (k 1).val; rw [e1, hk1]; omega
  | ⟨2, _⟩ => show win1_0.index t (2 : Fin 4) * 128 + 1 * h.val = (k 2).val; rw [e2, hk2]; omega
  | ⟨3, _⟩ => show win1_0.index t (3 : Fin 4) * 128 + 1 * w.val = (k 3).val; rw [e3, hk3]; omega

/-- The masks block at point t, at (0, n, I, J), is the masks array at (t / 16, n, I, J). -/
theorem mblk_apply (c : Dev nD) (t : Fin cfg1.N) (u : Fin 1) (n : Fin 9) (I J : Fin 256) (k : S4x9x256x256.Idx)
    (hk0 : (k 0).val = t.val / 16) (hk1 : (k 1).val = n.val) (hk2 : (k 2).val = I.val) (hk3 : (k 3).val = J.val) :
    (Fr.iblk1 V c 1 t : Vec Ideal S1x9x256x256 .f32) (ix4 u n I J)
      = (V c main_v0 : S4x9x256x256.Idx → Elt Ideal .f32) k := by
  obtain ⟨-, -, -, -, e0, e1, e2, e3, -⟩ := idx_facts1 t
  unfold Fr.iblk1
  rw [View.read_apply]
  show V c main_v0 _ = V c main_v0 _
  congr 1
  funext a
  apply Fin.ext
  match a with
  | ⟨0, _⟩ => show win1_1.index t (0 : Fin 4) * 1 + 1 * u.val = (k 0).val; rw [e0, hk0]; omega
  | ⟨1, _⟩ => show win1_1.index t (1 : Fin 4) * 9 + 1 * n.val = (k 1).val; rw [e1, hk1]; omega
  | ⟨2, _⟩ => show win1_1.index t (2 : Fin 4) * 256 + 1 * I.val = (k 2).val; rw [e2, hk2]; omega
  | ⟨3, _⟩ => show win1_1.index t (3 : Fin 4) * 256 + 1 * J.val = (k 3).val; rw [e3, hk3]; omega

end Blocks

/-! ## What a point stores, against the result's formula -/

/-- If the loaded input block is channels 16q … 16q + 15 of batch entry b of X and the loaded masks block is batch entry b
    of M, the stored block at j is the result's formula of X and M at the index i that j names in the array. -/
theorem point_eq (X : Cert.Proof.Spec.XArr) (M : Cert.Proof.Spec.MArr) (x0 : Vec Ideal S1x16x128x128 .f32)
    (m0 : Vec Ideal S1x9x256x256 .f32) (b : Fin 4) (q : Fin 16)
    (hx : ∀ (cc : Fin 16) (h w : Fin 128),
      x0 (ix4 (0 : Fin 1) cc h w) = X (ix4 b (⟨16 * q.val + cc.val, by omega⟩ : Fin 256) h w))
    (hm : ∀ (n : Fin 9) (I J : Fin 256), m0 (ix4 (0 : Fin 1) n I J) = M (ix4 b n I J))
    (j : S1x16x256x256.Idx) (i : S4x256x256x256.Idx)
    (hi0 : (i 0).val = b.val) (hi1 : (i 1).val = 16 * q.val + (j 1).val)
    (hi2 : (i 2).val = (j 2).val) (hi3 : (i 3).val = (j 3).val) :
    Cert.KernelIdeal.Fr.pay1 (F := Ideal) x0 m0 j = Cert.Proof.Spec.outOf X M i := by
  obtain ⟨u, c, I, J, rfl⟩ : ∃ u c I J, j = ix4 u c I J := ⟨j 0, j 1, j 2, j 3, eq_ix4 j⟩
  obtain rfl : u = 0 := Subsingleton.elim _ _
  have hi : i = ix4 b (⟨16 * q.val + c.val, by omega⟩ : Fin 256) I J := by
    funext a
    match a with
    | ⟨0, _⟩ => exact Fin.ext hi0
    | ⟨1, _⟩ => exact Fin.ext hi1
    | ⟨2, _⟩ => exact Fin.ext hi2
    | ⟨3, _⟩ => exact Fin.ext hi3
  rw [hi]
  unfold Cert.KernelIdeal.Fr.pay1
  refine (cOutLd_point x0 m0 _ _ _ _ _ _ _ _ _ _ c I J).trans ?_
  show Cert.Proof.Spec.outP (fun h w => x0 (ix4 (0 : Fin 1) c h w)) (fun n I J => m0 (ix4 (0 : Fin 1) n I J)) I J
    = Cert.Proof.Spec.outP (fun h w => X (ix4 b (⟨16 * q.val + c.val, by omega⟩ : Fin 256) h w))
        (fun n I J => M (ix4 b n I J)) I J
  congr 1
  · funext h w; exact hx c h w
  · funext n I J; exact hm n I J

section Array
variable (V : (c : Dev nD) → (b : Ref sig .tc) → Buf (Elt Ideal) ((c : Thread nD τ).loc b))

/-! ## What a point writes back is its block of the result's formula -/

theorem flushed1_eq (c : Dev nD) (t : Fin cfg1.N) :
    (Cert.KernelIdeal.Fr.dat1 (F := Ideal) V c).flushed 2 t
      = ((cfg1.win 2).blk t).view.read (Elt Ideal) (Cert.Proof.Spec.outOf (V c main_arg0) (V c main_v0)) := by
  show (cfg1.win 2).cut (grid1.coords t) ((Cert.KernelIdeal.Fr.dat1 V c).after 2 t) = _
  rw [Cert.KernelIdeal.Fr.after1_2]
  unfold Cert.KernelIdeal.Fr.out1_2
  rw [View.canon_unit_zero hz4]
  obtain ⟨-, -, -, -, -, -, -, -, g0, g1, g2, g3⟩ := idx_facts1 t
  have ht : t.val < 64 := t.isLt
  funext j
  have hj0 : (j 0).val < 1 := (j 0).isLt
  have hj1 : (j 1).val < 16 := (j 1).isLt
  refine point_eq (V c main_arg0) (V c main_v0) (Cert.KernelIdeal.Fr.iblk1 V c 0 t) (Cert.KernelIdeal.Fr.iblk1 V c 1 t)
    (⟨t.val / 16, by omega⟩ : Fin 4) (⟨t.val % 16, by omega⟩ : Fin 16) ?_ ?_ _ _ ?_ ?_ ?_ ?_
  · intro cc h w
    exact xblk_apply V c t 0 cc h w _ rfl rfl rfl rfl
  · intro n I J
    exact mblk_apply V c t 0 n I J _ rfl rfl rfl rfl
  · show win1_2.index t (0 : Fin 4) * 1 + 1 * (j 0).val = t.val / 16
    rw [g0]; omega
  · show win1_2.index t (1 : Fin 4) * 16 + 1 * (j 1).val = 16 * (t.val % 16) + (j 1).val
    rw [g1]; omega
  · show win1_2.index t (2 : Fin 4) * 256 + 1 * (j 2).val = (j 2).val
    rw [g2]; omega
  · show win1_2.index t (3 : Fin 4) * 256 + 1 * (j 3).val = (j 3).val
    rw [g3]; omega

/-! ## The blocks cover the array -/

/-- An index of the result array is in point t's block iff each coordinate is in the block's range on its axis. -/
theorem mem_blk1 (t : Fin cfg1.N) (i : S4x256x256x256.Idx) :
    i ∈ ((cfg1.win 2).blk t).view.set ↔ ∀ a : Fin 4, win1_2.index t a * S1x16x256x256.size a ≤ (i a).val
      ∧ (i a).val < win1_2.index t a * S1x16x256x256.size a + S1x16x256x256.size a := by
  show i ∈ ((View.whole main_v1).slice (win1_2.rect t)).set ↔ _
  rw [View.set_slice_whole, Rect.mem_set_unit]
  exact Iff.rfl

/-- Every index (b, ch, I, J) of the result array is in the block of the point 16·b + ch / 16, which writes back. -/
theorem cover1 (i : S4x256x256x256.Idx) :
    ∃ t : Fin cfg1.N, (cfg1.win 2).flush t = true ∧ i ∈ ((cfg1.win 2).blk t).view.set := by
  have h0 : (i 0).val < 4 := (i 0).isLt
  have h1 : (i 1).val < 256 := (i 1).isLt
  have h2 : (i 2).val < 256 := (i 2).isLt
  have h3 : (i 3).val < 256 := (i 3).isLt
  obtain ⟨t, ht⟩ : ∃ t : Fin cfg1.N, t.val = 16 * (i 0).val + (i 1).val / 16 :=
    ⟨⟨16 * (i 0).val + (i 1).val / 16, by show 16 * (i 0).val + (i 1).val / 16 < 64; omega⟩, rfl⟩
  obtain ⟨-, -, -, -, -, -, -, -, g0, g1, g2, g3⟩ := idx_facts1 t
  refine ⟨t, flush1_2 t, ?_⟩
  rw [mem_blk1]
  intro a
  match a with
  | ⟨0, _⟩ =>
    show win1_2.index t (0 : Fin 4) * 1 ≤ (i 0).val ∧ (i 0).val < win1_2.index t (0 : Fin 4) * 1 + 1
    rw [g0]; omega
  | ⟨1, _⟩ =>
    show win1_2.index t (1 : Fin 4) * 16 ≤ (i 1).val ∧ (i 1).val < win1_2.index t (1 : Fin 4) * 16 + 16
    rw [g1]; omega
  | ⟨2, _⟩ =>
    show win1_2.index t (2 : Fin 4) * 256 ≤ (i 2).val ∧ (i 2).val < win1_2.index t (2 : Fin 4) * 256 + 256
    rw [g2]; omega
  | ⟨3, _⟩ =>
    show win1_2.index t (3 : Fin 4) * 256 ≤ (i 3).val ∧ (i 3).val < win1_2.index t (3 : Fin 4) * 256 + 256
    rw [g3]; omega

/-! ## The result array after the launch -/

/-- THE RESULT ARRAY after the reassembly launch is the result's formula of the input array and the masks array as the
    launch found them. -/
theorem final1 (c : Dev nD) :
    (Cert.KernelIdeal.Fr.dat1 (F := Ideal) V c).arrAt 2 cfg1.N
      = Cert.Proof.Spec.outOf (V c main_arg0) (V c main_v0) :=
  (Cert.KernelIdeal.Fr.dat1 (F := Ideal) V c).arrAt_eq_of_cover 2 (Cert.Proof.Spec.outOf (V c main_arg0) (V c main_v0))
    (fun t _ => flushed1_eq V c t) (fun i => cover1 i)

end Array

end Cert.Proof.CarafeValue

end
-- ==== Proof.MaskArrRun.lean ====
/-
  What each case of the mask body leaves, as values. At a batch entry's first channel tile the scratch ends at the zero
  plane plus the tile's channel sums; at a later tile at what it held plus the tile's channel sums; at the last tile the
  masks' output buffer ends with nine stored planes, one per tap, each the tap's piece computed from the completed sums
  and the tap weights.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrR0I
import proofs.«174128_j1090921693816_1_alg».proof.Proof.ChainI
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.Proof.MaskValue

open Cert.KernelIdeal Cert.KernelIdeal.Gen Cert.KernelIdeal.Fr Cert.KernelIdeal.Chain
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The zero offsets of a rank-2 and of a rank-4 buffer. -/
theorem off2_zero : (![0, 0] : Fin 2 → Nat) = fun _ => 0 := by funext a; fin_cases a <;> rfl
theorem off4_zero : (![0, 0, 0, 0] : Fin 4 → Nat) = fun _ => 0 := by funext a; fin_cases a <;> rfl

/-- The nine stored planes of the masks' output buffer, last store first, from the completed sums and the tap weights. -/
def maskPieces (S : Vec F S128x128 .f32) (g : Vec F S9x4 .f32) : List (View.Piece (Elt F) S1x9x256x256 .f32) :=
  [⟨Rect.unit (s := S1x9x256x256) ![0, 8, 0, 0] S1x1x256x256.size Facts₀.inb_S1x9x256x256_S1x1x256x256_0_8_0_0, piece8 S g⟩,
   ⟨Rect.unit (s := S1x9x256x256) ![0, 7, 0, 0] S1x1x256x256.size Facts₀.inb_S1x9x256x256_S1x1x256x256_0_7_0_0, piece7 S g⟩,
   ⟨Rect.unit (s := S1x9x256x256) ![0, 6, 0, 0] S1x1x256x256.size Facts₀.inb_S1x9x256x256_S1x1x256x256_0_6_0_0, piece6 S g⟩,
   ⟨Rect.unit (s := S1x9x256x256) ![0, 5, 0, 0] S1x1x256x256.size Facts₀.inb_S1x9x256x256_S1x1x256x256_0_5_0_0, piece5 S g⟩,
   ⟨Rect.unit (s := S1x9x256x256) ![0, 4, 0, 0] S1x1x256x256.size Facts₀.inb_S1x9x256x256_S1x1x256x256_0_4_0_0, piece4 S g⟩,
   ⟨Rect.unit (s := S1x9x256x256) ![0, 3, 0, 0] S1x1x256x256.size Facts₀.inb_S1x9x256x256_S1x1x256x256_0_3_0_0, piece3 S g⟩,
   ⟨Rect.unit (s := S1x9x256x256) ![0, 2, 0, 0] S1x1x256x256.size Facts₀.inb_S1x9x256x256_S1x1x256x256_0_2_0_0, piece2 S g⟩,
   ⟨Rect.unit (s := S1x9x256x256) ![0, 1, 0, 0] S1x1x256x256.size Facts₀.inb_S1x9x256x256_S1x1x256x256_0_1_0_0, piece1 S g⟩,
   ⟨Rect.unit (s := S1x9x256x256) ![0, 0, 0, 0] S1x1x256x256.size Facts₀.inb_S1x9x256x256_S1x1x256x256_0_0_0_0, piece0 S g⟩]

/-- First tile: the zero plane plus the tile's channel sums. -/
theorem sout0_A_eq (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : cond0_0 i) (hc1 : ¬cond0_1 i) (x0 : Vec F S1x64x128x128 .f32) :
    sout0_A c i arg2 harg2 arg3 harg3 arg4 harg4 arg5 harg5 hc0 hc1 x0 = accStep (accZero (F := F)) x0 := by
  unfold sout0_A kernelRun0_A
  dsimp only
  sl_unfold_words
  rw [View.canon_cons_unit_zero off2_zero, View.readCov_unit_zero _ off2_zero]
  simp only [View.readAt_eq_ld, harg2.read_unread, View.ld_unit_zero (S := S1x64x128x128) off4_zero]
  rfl

/-- A middle tile: what the scratch held plus the tile's channel sums. -/
theorem sout0_B_eq (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : ¬cond0_1 i) (x0 : Vec F S1x64x128x128 .f32) (xs0 : Vec F S128x128 .f32) :
    sout0_B c i arg2 harg2 arg3 harg3 arg4 harg4 arg5 harg5 hc0 hc1 x0 xs0 = accStep xs0 x0 := by
  unfold sout0_B kernelRun0_B
  dsimp only
  sl_unfold_words
  rw [View.canon_unit_zero off2_zero]
  simp only [View.readAt_eq_ld, harg2.read_unread, harg5.read_unread, View.ld_unit_zero (S := S128x128) off2_zero, View.ld_unit_zero (S := S1x64x128x128) off4_zero]
  rfl

/-- The last tile, the scratch: what it held plus the tile's channel sums. -/
theorem sout0_C_eq (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) :
    sout0_C c i arg2 harg2 arg3 harg3 arg4 harg4 arg5 harg5 hc0 hc1 x0 g0 xs0 = accStep xs0 x0 := by
  unfold sout0_C kernelRun0_C
  dsimp only
  sl_unfold_words
  rw [View.canon_unit_zero off2_zero]
  simp only [View.readAt_eq_ld, harg2.read_unread, harg5.read_unread, View.ld_unit_zero (S := S128x128) off2_zero, View.ld_unit_zero (S := S1x64x128x128) off4_zero]
  rfl

end Cert.Proof.MaskValue

end
-- ==== Proof.MaskArrOut.lean ====
/-
  The masks' output buffer after a batch entry's last channel tile, as a value: the nine stored planes read back, each
  the tap's piece computed from the completed channel sums and the tap weights.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrR0I
import proofs.«174128_j1090921693816_1_alg».proof.Proof.ChainI
import proofs.«174128_j1090921693816_1_alg».proof.Proof.MaskArrRun
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.Proof.MaskValue

open Cert.KernelIdeal Cert.KernelIdeal.Gen Cert.KernelIdeal.Fr Cert.KernelIdeal.Chain
open Idealize.ShloMosaic Idealize.ShloMosaic.TcCoe Idealize.ShloMosaic.Tactic
open Idealize.SL Idealize.SL.Sem
open Idealize.ShloMosaic.Pipeline (Dat Cfg Window)

variable {F : FTy → Type} [FloatOps F]

set_option maxHeartbeats 4000000 in
/-- The last tile, the masks' output buffer: the nine stored planes read back. -/
theorem out0_C_eq (c : Dev nD) (i : grid0.Coords) (arg2 : Memref sig .tc .vmem S1x64x128x128 .f32) (harg2 : arg2.IsWhole) (arg3 : Memref sig .tc .vmem S9x4 .f32) (harg3 : arg3.IsWhole) (arg4 : Memref sig .tc .vmem S1x9x256x256 .f32) (harg4 : arg4.IsWhole) (arg5 : Memref sig .tc .vmem S128x128 .f32) (harg5 : arg5.IsWhole) (hc0 : ¬cond0_0 i) (hc1 : cond0_1 i) (x0 : Vec F S1x64x128x128 .f32) (g0 : Vec F S9x4 .f32) (xs0 : Vec F S128x128 .f32) :
    out0_C c i arg2 harg2 arg3 harg3 arg4 harg4 arg5 harg5 hc0 hc1 x0 g0 xs0 = View.canon (maskPieces (accStep xs0 x0) g0) := by
  unfold out0_C kernelRun0_C
  dsimp only
  sl_unfold_words
  simp only [View.readCov_unit_zero (S := S128x128) arg5.view off2_zero, View.readAt_eq_ld, harg2.read_unread, harg3.read_unread, harg5.read_unread,
    View.ld_unit_zero (S := S128x128) off2_zero, View.ld_unit_zero (S := S1x64x128x128) off4_zero, View.ld_unit_zero (S := S9x4) off2_zero]
  rfl

end Cert.Proof.MaskValue

end
-- ==== Proof.MaskConsts.lean ====
/-
  The float words the mask body spells, as the extended reals they denote, and the one law the mean needs:
  dividing by 256 is multiplying by 2⁻⁸, on all of the extended reals.
-/
import Idealize.ShloMosaic.PureOps.Ideal

noncomputable section

namespace Cert.Proof.MaskValue

open Idealize.ShloMosaic

/-- The word of +0.0 denotes 0. -/
theorem ofBits_zero : Ideal.ofBits .f32 0x00000000#32 = 0 := by
  simp [Ideal.ofBits, Ideal.ieee]

/-- The word of 256.0 denotes the real 256. -/
theorem ofBits_256 : Ideal.ofBits .f32 0x43800000#32 = ((256 : ℝ) : EReal) := by
  simp [Ideal.ofBits, Ideal.ieee, -EReal.coe_mul]; norm_num

/-- The word of 2⁻⁸ denotes the real 1/256. -/
theorem ofBits_inv256 : Ideal.ofBits .f32 0x3B800000#32 = ((1 / 256 : ℝ) : EReal) := by
  simp [Ideal.ofBits, Ideal.ieee, -EReal.coe_mul]; norm_num

/-- a / 256 = a · 2⁻⁸ for every extended real a. -/
theorem div_256 (a : EReal) :
    Ideal.div a (Ideal.ofBits .f32 0x43800000#32) = a * Ideal.ofBits .f32 0x3B800000#32 := by
  rw [ofBits_256, ofBits_inv256]
  exact Ideal.div_coe (by norm_num) a

/-- The integer 0 converted to a float is 0. -/
theorem sitofp_zero : Scalar.sitofp (F := Ideal) .f32 0#32 = (0 : EReal) := by
  rw [Ideal.scalar_sitofp_def]; simp

end Cert.Proof.MaskValue

end
-- ==== Proof.MaskPad.lean ====
/-
  The mean and its zero-padded copy, read at an index.

  The mean plane is the plane of channel sums times 2⁻⁸, which is the sums divided by 256. The padded plane is built by four
  concatenations — a zero row above, a zero row below, a zero column left, a zero column right — so at padded coordinates
  (i, j) it reads the mean at (i − 1, j − 1) inside the ring and 0 on it.
-/
import proofs.«174128_j1090921693816_1_alg».proof.Proof.ChainI
import proofs.«174128_j1090921693816_1_alg».proof.Proof.Spec
import proofs.«174128_j1090921693816_1_alg».proof.Proof.MaskConsts
import Idealize.ShloMosaic.Lib.Pipeline.Value

noncomputable section

namespace Cert.Proof.MaskValue

open Idealize.ShloMosaic Idealize.ShloMosaic.ValueIdx Cert.KernelIdeal Cert.KernelIdeal.Gen Cert.KernelIdeal.Chain

/-- The plane of channel sums as a function of its two coordinates. -/
abbrev planeOf (s : Vec Ideal S128x128 .f32) : Spec.Plane := fun h w => s (ix2 h w)

/-- The mean at a pixel: the channel sum divided by 256. -/
theorem mMean_apply (s : Vec Ideal S128x128 .f32) (h w : Fin 128) :
    mMean (F := Ideal) s (ix2 h w) = Spec.meanP (planeOf s) h w := by
  unfold mMean k0_pay5
  show s (ix2 h w) * Ideal.ofBits .f32 0x3B800000#32 = Ideal.div (s (ix2 h w)) (Ideal.ofBits .f32 0x43800000#32)
  exact (div_256 _).symm

/-- A row on top of a 128 × 128 plane: row 0 is the new row, row i ≥ 1 is the plane's row i − 1. -/
theorem rowAbove_apply (z : FVec Ideal S1x128 .f32) (m : FVec Ideal S128x128 .f32) (i : Fin 129) (j : Fin 128) :
    concatenate S129x128 0 [⟨S1x128, z⟩, ⟨S128x128, m⟩] Facts₀.concatenates_S1x128_S128x128_S129x128_d0 (ix2 i j)
      = if h : 1 ≤ i.val then m (ix2 ⟨i.val - 1, by omega⟩ j) else z (ix2 0 j) := by
  by_cases h : 1 ≤ i.val
  · rw [dif_pos h]
    exact concatenate_pair_apply_right 0 z m _ (ix2 i j) rfl rfl (ix2 ⟨i.val - 1, by omega⟩ j)
      (fun b hb => match b, hb with
        | ⟨0, _⟩, hb => absurd rfl hb
        | ⟨1, _⟩, _ => rfl)
      (by show i.val - 1 + 1 = i.val; omega)
  · rw [dif_neg h]
    exact concatenate_pair_apply_left 0 z m _ (ix2 i j) rfl (ix2 0 j)
      (fun b => match b with
        | ⟨0, _⟩ => by show 0 = i.val; omega
        | ⟨1, _⟩ => rfl)

/-- A row under a 129 × 128 plane: rows below 129 are the plane's, row 129 is the new row. -/
theorem rowBelow_apply (u : FVec Ideal S129x128 .f32) (z : FVec Ideal S1x128 .f32) (i : Fin 130) (j : Fin 128) :
    concatenate S130x128 0 [⟨S129x128, u⟩, ⟨S1x128, z⟩] Facts₀.concatenates_S129x128_S1x128_S130x128_d0 (ix2 i j)
      = if h : i.val < 129 then u (ix2 ⟨i.val, h⟩ j) else z (ix2 0 j) := by
  by_cases h : i.val < 129
  · rw [dif_pos h]
    exact concatenate_pair_apply_left 0 u z _ (ix2 i j) rfl (ix2 ⟨i.val, h⟩ j)
      (fun b => match b with
        | ⟨0, _⟩ => rfl
        | ⟨1, _⟩ => rfl)
  · rw [dif_neg h]
    exact concatenate_pair_apply_right 0 u z _ (ix2 i j) rfl rfl (ix2 0 j)
      (fun b hb => match b, hb with
        | ⟨0, _⟩, hb => absurd rfl hb
        | ⟨1, _⟩, _ => rfl)
      (by have := i.isLt; show 0 + 129 = i.val; omega)

/-- A column left of a 130 × 128 plane: column 0 is the new column, column j ≥ 1 is the plane's column j − 1. -/
theorem colLeft_apply (z : FVec Ideal S130x1 .f32) (u : FVec Ideal S130x128 .f32) (i : Fin 130) (j : Fin 129) :
    concatenate S130x129 1 [⟨S130x1, z⟩, ⟨S130x128, u⟩] Facts₀.concatenates_S130x1_S130x128_S130x129_d1 (ix2 i j)
      = if h : 1 ≤ j.val then u (ix2 i ⟨j.val - 1, by omega⟩) else z (ix2 i 0) := by
  by_cases h : 1 ≤ j.val
  · rw [dif_pos h]
    exact concatenate_pair_apply_right 1 z u _ (ix2 i j) rfl rfl (ix2 i ⟨j.val - 1, by omega⟩)
      (fun b hb => match b, hb with
        | ⟨0, _⟩, _ => rfl
        | ⟨1, _⟩, hb => absurd rfl hb)
      (by show j.val - 1 + 1 = j.val; omega)
  · rw [dif_neg h]
    exact concatenate_pair_apply_left 1 z u _ (ix2 i j) rfl (ix2 i 0)
      (fun b => match b with
        | ⟨0, _⟩ => rfl
        | ⟨1, _⟩ => by show 0 = j.val; omega)

/-- A column right of a 130 × 129 plane: columns below 129 are the plane's, column 129 is the new column. -/
theorem colRight_apply (u : FVec Ideal S130x129 .f32) (z : FVec Ideal S130x1 .f32) (i j : Fin 130) :
    concatenate S130x130 1 [⟨S130x129, u⟩, ⟨S130x1, z⟩] Facts₀.concatenates_S130x129_S130x1_S130x130_d1 (ix2 i j)
      = if h : j.val < 129 then u (ix2 i ⟨j.val, h⟩) else z (ix2 i 0) := by
  by_cases h : j.val < 129
  · rw [dif_pos h]
    exact concatenate_pair_apply_left 1 u z _ (ix2 i j) rfl (ix2 i ⟨j.val, h⟩)
      (fun b => match b with
        | ⟨0, _⟩ => rfl
        | ⟨1, _⟩ => rfl)
  · rw [dif_neg h]
    exact concatenate_pair_apply_right 1 u z _ (ix2 i j) rfl rfl (ix2 i 0)
      (fun b hb => match b, hb with
        | ⟨0, _⟩, _ => rfl
        | ⟨1, _⟩, hb => absurd rfl hb)
      (by have := j.isLt; show 0 + 129 = j.val; omega)

/-- The padded mean at padded coordinates (i, j): the mean at (i − 1, j − 1) inside the ring of zeros, 0 on it. -/
theorem mPad_apply (s : Vec Ideal S128x128 .f32) (i j : Fin 130) :
    mPad (F := Ideal) s (ix2 i j) = Spec.padRead (Spec.meanP (planeOf s)) i.val j.val := by
  unfold mPad k0_pay6 Spec.padRead
  simp only [colRight_apply, colLeft_apply, rowBelow_apply, rowAbove_apply, broadcast_apply, Fin.val_mk]
  split_ifs <;> first | exact sitofp_zero | exact mMean_apply s _ _ | (exfalso; omega)

end Cert.Proof.MaskValue

end
-- ==== Proof.MaskOps.lean ====
/-
  The layout operations of one logit plane, read at an index.

  A tap's window of the padded plane is a slice at the tap's offset; a row of the tap weights is a slice of the [9, 4] array
  reshaped; the doubling of the resolution is a product of two broadcasts over [128, 2, 128, 2] reshaped to [256, 256], so
  pixel (I, J) of the doubled plane reads the coarse plane at (I / 2, J / 2) and the 2 × 2 weights at (I % 2, J % 2),
  which is entry 2·(I % 2) + J % 2 of the row.
-/
import proofs.«174128_j1090921693816_1_alg».proof.Proof.ChainI
import Idealize.ShloMosaic.Lib.Pipeline.Value
import Idealize.ShloMosaic.Lib.ValueIdx

noncomputable section

namespace Cert.Proof.MaskValue

open Idealize.ShloMosaic Idealize.ShloMosaic.ValueIdx Cert.KernelIdeal

/-- The 128 × 128 window of the padded plane at offset (di, dj), read at (p, q): the padded plane at (p + di, q + dj). -/
theorem window_apply (pad : FVec Ideal S130x130 .f32) (di dj : Nat) (hdi : di ≤ 2) (hdj : dj ≤ 2)
    (hs : S130x130.Slices ![di, dj] S128x128) (p q : Fin 128) :
    extractStridedSlice S128x128 ![di, dj] pad hs (ix2 p q)
      = pad (ix2 ⟨p.val + di, by omega⟩ ⟨q.val + dj, by omega⟩) :=
  extractStridedSlice_apply _ _ hs _ _ (fun a => match a with
    | ⟨0, _⟩ => by show p.val + di = di + p.val; omega
    | ⟨1, _⟩ => by show q.val + dj = dj + q.val; omega)

/-- Row n of the tap weights as a vector of four, read at c: the weights at (n, c). -/
theorem row_apply (gk : Vec Ideal S9x4 .f32) (n : Nat) (hn : n < 9) (hs : S9x4.Slices ![n, 0] S1x4) (c : Fin 4) :
    shapeCast S4 (extractStridedSlice S1x4 ![n, 0] gk hs) Facts₀.shapeCasts_S1x4_S4 (ix1 c) = gk (ix2 ⟨n, hn⟩ c) := by
  refine (shapeCast_apply _ _ (ix1 c) (ix2 (0 : Fin 1) c) (by
    rw [Shape.rowMajor_val_two, Shape.rowMajor_val_one]
    show 0 * 4 + c.val = c.val
    omega)).trans ?_
  exact extractStridedSlice_apply _ _ hs _ _ (fun a => match a with
    | ⟨0, _⟩ => by show n = n + 0; omega
    | ⟨1, _⟩ => by show c.val = 0 + c.val; omega)

/-- The reshape [128, 2, 128, 2] → [256, 256] read at (I, J): the operand at (I / 2, I % 2, J / 2, J % 2). -/
theorem cast256_apply (v : FVec Ideal S128x2x128x2 .f32) (I J : Fin 256) :
    shapeCast S256x256 v Facts₀.shapeCasts_S128x2x128x2_S256x256 (ix2 I J)
      = v (ix4 (⟨I.val / 2, by omega⟩ : Fin 128) (⟨I.val % 2, by omega⟩ : Fin 2)
            (⟨J.val / 2, by omega⟩ : Fin 128) (⟨J.val % 2, by omega⟩ : Fin 2)) :=
  shapeCast_apply _ _ _ _ (by
    rw [Shape.rowMajor_val_four, Shape.rowMajor_val_two]
    show (((I.val / 2) * 2 + I.val % 2) * 128 + J.val / 2) * 2 + J.val % 2 = I.val * 256 + J.val
    omega)

/-- The coarse plane spread over [128, 2, 128, 2], read at (a, b, c, d): the plane at (a, c). -/
theorem spreadPlane_apply (g : FVec Ideal S128x128 .f32) (a : Fin 128) (b : Fin 2) (c : Fin 128) (d : Fin 2) :
    broadcastTo S128x2x128x2 (shapeCast S128x1x128x1 g Facts₀.shapeCasts_S128x128_S128x1x128x1)
        Facts₀.broadcasts_S128x1x128x1_S128x2x128x2 (ix4 a b c d)
      = g (ix2 a c) := by
  refine (broadcastTo_apply _ _ _ (ix4 a (0 : Fin 1) c (0 : Fin 1)) (fun e => match e with
    | ⟨0, _⟩ => rfl
    | ⟨1, _⟩ => rfl
    | ⟨2, _⟩ => rfl
    | ⟨3, _⟩ => rfl)).trans ?_
  exact shapeCast_apply _ _ _ _ (by
    rw [Shape.rowMajor_val_two, Shape.rowMajor_val_four]
    show a.val * 128 + c.val = ((a.val * 1 + 0) * 128 + c.val) * 1 + 0
    omega)

/-- A vector of four as 2 × 2 weights spread over [128, 2, 128, 2], read at (a, b, c, d): entry 2·b + d. -/
theorem spreadRow_apply (r : FVec Ideal S4 .f32) (a : Fin 128) (b : Fin 2) (c : Fin 128) (d : Fin 2) :
    broadcastTo S128x2x128x2
        (shapeCast S1x2x1x2 (shapeCast S2x2 r Facts₀.shapeCasts_S4_S2x2) Facts₀.shapeCasts_S2x2_S1x2x1x2)
        Facts₀.broadcasts_S1x2x1x2_S128x2x128x2 (ix4 a b c d)
      = r (ix1 (⟨2 * b.val + d.val, by omega⟩ : Fin 4)) := by
  refine (broadcastTo_apply _ _ _ (ix4 (0 : Fin 1) b (0 : Fin 1) d) (fun e => match e with
    | ⟨0, _⟩ => rfl
    | ⟨1, _⟩ => rfl
    | ⟨2, _⟩ => rfl
    | ⟨3, _⟩ => rfl)).trans ?_
  refine (shapeCast_apply _ _ _ (ix2 b d) (by
    rw [Shape.rowMajor_val_two, Shape.rowMajor_val_four]
    show b.val * 2 + d.val = ((0 * 2 + b.val) * 1 + 0) * 2 + d.val
    omega)).trans ?_
  exact shapeCast_apply _ _ _ _ (by
    rw [Shape.rowMajor_val_one, Shape.rowMajor_val_two]
    show 2 * b.val + d.val = b.val * 2 + d.val
    omega)

end Cert.Proof.MaskValue

end
-- ==== Proof.MaskLogit.lean ====
/-
  The nine logit planes, read at an index.

  Every tap's plane is the same expression of the mean, the padded mean and the tap weights, at the tap's own window
  offset (n / 3, n % 3) and its own row n of the weights: the weight plane 1 / ((window − mean)² + 1) at the coarse
  resolution, spread to the doubled resolution and multiplied by the tap's 2 × 2 weights. That expression is named once
  (weightPlane, doubled, weightRow); each of the nine planes of the chain is it by unfolding, and at pixel (I, J) it is the
  logit of the result's definition.
-/
import proofs.«174128_j1090921693816_1_alg».proof.Proof.MaskPad
import proofs.«174128_j1090921693816_1_alg».proof.Proof.MaskOps

noncomputable section

namespace Cert.Proof.MaskValue

open Idealize.ShloMosaic Idealize.ShloMosaic.ValueIdx Cert.KernelIdeal Cert.KernelIdeal.Gen Cert.KernelIdeal.Chain

/-- The weight plane of the tap at window offset (di, dj): 1 / ((window − mean)² + 1). -/
def weightPlane (mean : FVec Ideal S128x128 .f32) (pad : FVec Ideal S130x130 .f32) (di dj : Nat)
    (hs : S130x130.Slices ![di, dj] S128x128) : FVec Ideal S128x128 .f32 :=
  divf (broadcast S128x128 (Scalar.ofBits (F := Ideal) .f32 0x3F800000#32))
    (addf
      (mulf (subf (extractStridedSlice S128x128 ![di, dj] pad hs) mean)
        (subf (extractStridedSlice S128x128 ![di, dj] pad hs) mean))
      (broadcast S128x128 (Scalar.ofBits (F := Ideal) .f32 0x3F800000#32)))

/-- Row n of the tap weights as a vector of four. -/
def weightRow (gk : Vec Ideal S9x4 .f32) (n : Nat) (hs : S9x4.Slices ![n, 0] S1x4) : FVec Ideal S4 .f32 :=
  shapeCast S4 (extractStridedSlice S1x4 ![n, 0] gk hs) Facts₀.shapeCasts_S1x4_S4

/-- A coarse plane at the doubled resolution, times the 2 × 2 weights a vector of four spells. -/
def doubled (g : FVec Ideal S128x128 .f32) (r : FVec Ideal S4 .f32) : FVec Ideal S256x256 .f32 :=
  shapeCast S256x256
    (mulf
      (broadcastTo S128x2x128x2 (shapeCast S128x1x128x1 g Facts₀.shapeCasts_S128x128_S128x1x128x1)
        Facts₀.broadcasts_S128x1x128x1_S128x2x128x2)
      (broadcastTo S128x2x128x2
        (shapeCast S1x2x1x2 (shapeCast S2x2 r Facts₀.shapeCasts_S4_S2x2) Facts₀.shapeCasts_S2x2_S1x2x1x2)
        Facts₀.broadcasts_S1x2x1x2_S128x2x128x2))
    Facts₀.shapeCasts_S128x2x128x2_S256x256

/-- The weight plane at (p, q). -/
theorem weightPlane_apply (mean : FVec Ideal S128x128 .f32) (pad : FVec Ideal S130x130 .f32) (di dj : Nat)
    (hdi : di ≤ 2) (hdj : dj ≤ 2) (hs : S130x130.Slices ![di, dj] S128x128) (p q : Fin 128) :
    weightPlane mean pad di dj hs (ix2 p q)
      = Ideal.div Spec.one
          ((pad (ix2 ⟨p.val + di, by omega⟩ ⟨q.val + dj, by omega⟩) - mean (ix2 p q))
            * (pad (ix2 ⟨p.val + di, by omega⟩ ⟨q.val + dj, by omega⟩) - mean (ix2 p q)) + Spec.one) := by
  unfold weightPlane
  show Ideal.div Spec.one
      ((extractStridedSlice S128x128 ![di, dj] pad hs (ix2 p q) - mean (ix2 p q))
        * (extractStridedSlice S128x128 ![di, dj] pad hs (ix2 p q) - mean (ix2 p q)) + Spec.one) = _
  rw [window_apply pad di dj hdi hdj hs p q]

/-- The doubled plane at (I, J): the coarse plane at (I / 2, J / 2) times entry 2·(I % 2) + J % 2 of the four. -/
theorem doubled_apply (g : FVec Ideal S128x128 .f32) (r : FVec Ideal S4 .f32) (I J : Fin 256) :
    doubled g r (ix2 I J)
      = g (ix2 (⟨I.val / 2, by omega⟩ : Fin 128) (⟨J.val / 2, by omega⟩ : Fin 128))
          * r (ix1 (⟨2 * (I.val % 2) + J.val % 2, by omega⟩ : Fin 4)) := by
  unfold doubled
  rw [cast256_apply]
  show broadcastTo S128x2x128x2 _ _ _ * broadcastTo S128x2x128x2 _ _ _ = _
  rw [spreadPlane_apply, spreadRow_apply]

/-- The plane of tap n at pixel (I, J) is the logit of tap n there. -/
theorem logit_apply (s : Vec Ideal S128x128 .f32) (gk : Vec Ideal S9x4 .f32) (n : Fin 9) (di dj : Nat)
    (hdi : n.val / 3 = di) (hdj : n.val % 3 = dj)
    (hs : S130x130.Slices ![di, dj] S128x128) (hr : S9x4.Slices ![n.val, 0] S1x4) (I J : Fin 256) :
    doubled (weightPlane (mMean (F := Ideal) s) (mPad (F := Ideal) s) di dj hs) (weightRow gk n.val hr) (ix2 I J)
      = Spec.logitP (planeOf s) gk n I J := by
  have h1 : di ≤ 2 := by have := n.isLt; omega
  have h2 : dj ≤ 2 := by omega
  rw [doubled_apply, weightPlane_apply _ _ _ _ h1 h2, mPad_apply, mMean_apply]
  unfold weightRow
  rw [row_apply gk n.val n.isLt]
  subst hdi hdj
  rfl

section Planes
variable (s : Vec Ideal S128x128 .f32) (gk : Vec Ideal S9x4 .f32)

/-- The nine planes of the chain, by tap. -/
def mW : Fin 9 → FVec Ideal S256x256 .f32
  | ⟨0, _⟩ => mW0 (F := Ideal) s gk
  | ⟨1, _⟩ => mW1 (F := Ideal) s gk
  | ⟨2, _⟩ => mW2 (F := Ideal) s gk
  | ⟨3, _⟩ => mW3 (F := Ideal) s gk
  | ⟨4, _⟩ => mW4 (F := Ideal) s gk
  | ⟨5, _⟩ => mW5 (F := Ideal) s gk
  | ⟨6, _⟩ => mW6 (F := Ideal) s gk
  | ⟨7, _⟩ => mW7 (F := Ideal) s gk
  | ⟨8, _⟩ => mW8 (F := Ideal) s gk

/-! Each plane of the chain is the named expression at its tap's offset and row, by unfolding. -/
theorem mW0_eq : mW0 (F := Ideal) s gk
    = doubled (weightPlane (mMean (F := Ideal) s) (mPad (F := Ideal) s) 0 0 Facts₀.slices_S130x130_o0_0_S128x128)
        (weightRow gk 0 Facts₀.slices_S9x4_o0_0_S1x4) := rfl
theorem mW1_eq : mW1 (F := Ideal) s gk
    = doubled (weightPlane (mMean (F := Ideal) s) (mPad (F := Ideal) s) 0 1 Facts₀.slices_S130x130_o0_1_S128x128)
        (weightRow gk 1 Facts₀.slices_S9x4_o1_0_S1x4) := rfl
theorem mW2_eq : mW2 (F := Ideal) s gk
    = doubled (weightPlane (mMean (F := Ideal) s) (mPad (F := Ideal) s) 0 2 Facts₀.slices_S130x130_o0_2_S128x128)
        (weightRow gk 2 Facts₀.slices_S9x4_o2_0_S1x4) := rfl
theorem mW3_eq : mW3 (F := Ideal) s gk
    = doubled (weightPlane (mMean (F := Ideal) s) (mPad (F := Ideal) s) 1 0 Facts₀.slices_S130x130_o1_0_S128x128)
        (weightRow gk 3 Facts₀.slices_S9x4_o3_0_S1x4) := rfl
theorem mW4_eq : mW4 (F := Ideal) s gk
    = doubled (weightPlane (mMean (F := Ideal) s) (mPad (F := Ideal) s) 1 1 Facts₀.slices_S130x130_o1_1_S128x128)
        (weightRow gk 4 Facts₀.slices_S9x4_o4_0_S1x4) := rfl
theorem mW5_eq : mW5 (F := Ideal) s gk
    = doubled (weightPlane (mMean (F := Ideal) s) (mPad (F := Ideal) s) 1 2 Facts₀.slices_S130x130_o1_2_S128x128)
        (weightRow gk 5 Facts₀.slices_S9x4_o5_0_S1x4) := rfl
theorem mW6_eq : mW6 (F := Ideal) s gk
    = doubled (weightPlane (mMean (F := Ideal) s) (mPad (F := Ideal) s) 2 0 Facts₀.slices_S130x130_o2_0_S128x128)
        (weightRow gk 6 Facts₀.slices_S9x4_o6_0_S1x4) := rfl
theorem mW7_eq : mW7 (F := Ideal) s gk
    = doubled (weightPlane (mMean (F := Ideal) s) (mPad (F := Ideal) s) 2 1 Facts₀.slices_S130x130_o2_1_S128x128)
        (weightRow gk 7 Facts₀.slices_S9x4_o7_0_S1x4) := rfl
theorem mW8_eq : mW8 (F := Ideal) s gk
    = doubled (weightPlane (mMean (F := Ideal) s) (mPad (F := Ideal) s) 2 2 Facts₀.slices_S130x130_o2_2_S128x128)
        (weightRow gk 8 Facts₀.slices_S9x4_o8_0_S1x4) := rfl

/-- The plane of tap n at pixel (I, J) is the logit of tap n there. -/
theorem mW_apply (n : Fin 9) (I J : Fin 256) : mW s gk n (ix2 I J) = Spec.logitP (planeOf s) gk n I J := by
  match n with
  | ⟨0, hn⟩ =>
    exact (congrFun (mW0_eq s gk) (ix2 I J)).trans
      (logit_apply s gk ⟨0, hn⟩ 0 0 (show (0 : ℕ) / 3 = 0 from rfl) (show (0 : ℕ) % 3 = 0 from rfl) Facts₀.slices_S130x130_o0_0_S128x128 Facts₀.slices_S9x4_o0_0_S1x4 I J)
  | ⟨1, hn⟩ =>
    exact (congrFun (mW1_eq s gk) (ix2 I J)).trans
      (logit_apply s gk ⟨1, hn⟩ 0 1 (show (1 : ℕ) / 3 = 0 from rfl) (show (1 : ℕ) % 3 = 1 from rfl) Facts₀.slices_S130x130_o0_1_S128x128 Facts₀.slices_S9x4_o1_0_S1x4 I J)
  | ⟨2, hn⟩ =>
    exact (congrFun (mW2_eq s gk) (ix2 I J)).trans
      (logit_apply s gk ⟨2, hn⟩ 0 2 (show (2 : ℕ) / 3 = 0 from rfl) (show (2 : ℕ) % 3 = 2 from rfl) Facts₀.slices_S130x130_o0_2_S128x128 Facts₀.slices_S9x4_o2_0_S1x4 I J)
  | ⟨3, hn⟩ =>
    exact (congrFun (mW3_eq s gk) (ix2 I J)).trans
      (logit_apply s gk ⟨3, hn⟩ 1 0 (show (3 : ℕ) / 3 = 1 from rfl) (show (3 : ℕ) % 3 = 0 from rfl) Facts₀.slices_S130x130_o1_0_S128x128 Facts₀.slices_S9x4_o3_0_S1x4 I J)
  | ⟨4, hn⟩ =>
    exact (congrFun (mW4_eq s gk) (ix2 I J)).trans
      (logit_apply s gk ⟨4, hn⟩ 1 1 (show (4 : ℕ) / 3 = 1 from rfl) (show (4 : ℕ) % 3 = 1 from rfl) Facts₀.slices_S130x130_o1_1_S128x128 Facts₀.slices_S9x4_o4_0_S1x4 I J)
  | ⟨5, hn⟩ =>
    exact (congrFun (mW5_eq s gk) (ix2 I J)).trans
      (logit_apply s gk ⟨5, hn⟩ 1 2 (show (5 : ℕ) / 3 = 1 from rfl) (show (5 : ℕ) % 3 = 2 from rfl) Facts₀.slices_S130x130_o1_2_S128x128 Facts₀.slices_S9x4_o5_0_S1x4 I J)
  | ⟨6, hn⟩ =>
    exact (congrFun (mW6_eq s gk) (ix2 I J)).trans
      (logit_apply s gk ⟨6, hn⟩ 2 0 (show (6 : ℕ) / 3 = 2 from rfl) (show (6 : ℕ) % 3 = 0 from rfl) Facts₀.slices_S130x130_o2_0_S128x128 Facts₀.slices_S9x4_o6_0_S1x4 I J)
  | ⟨7, hn⟩ =>
    exact (congrFun (mW7_eq s gk) (ix2 I J)).trans
      (logit_apply s gk ⟨7, hn⟩ 2 1 (show (7 : ℕ) / 3 = 2 from rfl) (show (7 : ℕ) % 3 = 1 from rfl) Facts₀.slices_S130x130_o2_1_S128x128 Facts₀.slices_S9x4_o7_0_S1x4 I J)
  | ⟨8, hn⟩ =>
    exact (congrFun (mW8_eq s gk) (ix2 I J)).trans
      (logit_apply s gk ⟨8, hn⟩ 2 2 (show (8 : ℕ) / 3 = 2 from rfl) (show (8 : ℕ) % 3 = 2 from rfl) Facts₀.slices_S130x130_o2_2_S128x128 Facts₀.slices_S9x4_o8_0_S1x4 I J)

end Planes

end Cert.Proof.MaskValue

end
-- ==== Proof.MaskSoft.lean ====
/-
  The softmax's maximum and denominator, read at an index.

  The chain takes the maximum of the nine planes one after another, and adds the nine exponentials one after another
  onto a zero plane; at a pixel these are the supremum over the nine taps and the sum over the nine taps.
-/
import proofs.«174128_j1090921693816_1_alg».proof.Proof.MaskLogit

noncomputable section

open scoped BigOperators

namespace Cert.Proof.MaskValue

open Idealize.ShloMosaic Idealize.ShloMosaic.ValueIdx Cert.KernelIdeal Cert.KernelIdeal.Gen Cert.KernelIdeal.Chain

/-- The supremum over nine taps is the maximum of the nine values taken one after another. -/
theorem sup_nine (f : Fin 9 → EReal) :
    Finset.univ.sup f = max (max (max (max (max (max (max (max (f 0) (f 1)) (f 2)) (f 3)) (f 4)) (f 5)) (f 6)) (f 7)) (f 8) := by
  apply le_antisymm
  · refine Finset.sup_le fun n _ => ?_
    match n with
    | ⟨0, _⟩ => show f 0 ≤ _; simp only [le_max_iff, le_refl, true_or, or_true]
    | ⟨1, _⟩ => show f 1 ≤ _; simp only [le_max_iff, le_refl, true_or, or_true]
    | ⟨2, _⟩ => show f 2 ≤ _; simp only [le_max_iff, le_refl, true_or, or_true]
    | ⟨3, _⟩ => show f 3 ≤ _; simp only [le_max_iff, le_refl, true_or, or_true]
    | ⟨4, _⟩ => show f 4 ≤ _; simp only [le_max_iff, le_refl, true_or, or_true]
    | ⟨5, _⟩ => show f 5 ≤ _; simp only [le_max_iff, le_refl, true_or, or_true]
    | ⟨6, _⟩ => show f 6 ≤ _; simp only [le_max_iff, le_refl, true_or, or_true]
    | ⟨7, _⟩ => show f 7 ≤ _; simp only [le_max_iff, le_refl, true_or, or_true]
    | ⟨8, _⟩ => show f 8 ≤ _; simp only [le_max_iff, le_refl, true_or, or_true]
  · refine max_le (max_le (max_le (max_le (max_le (max_le (max_le (max_le ?_ ?_) ?_) ?_) ?_) ?_) ?_) ?_) ?_ <;>
      exact Finset.le_sup (f := f) (Finset.mem_univ _)

/-- The sum over nine taps is the nine values added one after another onto zero. -/
theorem sum_nine (f : Fin 9 → EReal) :
    ∑ n, f n = 0 + f 0 + f 1 + f 2 + f 3 + f 4 + f 5 + f 6 + f 7 + f 8 := by
  rw [Fin.sum_univ_castSucc, Fin.sum_univ_eight, zero_add]
  rfl

section Planes
variable (s : Vec Ideal S128x128 .f32) (gk : Vec Ideal S9x4 .f32)

/-- The largest of the nine planes at pixel (I, J) is the largest logit there. -/
theorem mMax_apply (I J : Fin 256) : mMax (F := Ideal) s gk (ix2 I J) = Spec.lmaxP (planeOf s) gk I J := by
  have h : mMax (F := Ideal) s gk (ix2 I J)
      = max (max (max (max (max (max (max (max (mW s gk 0 (ix2 I J)) (mW s gk 1 (ix2 I J))) (mW s gk 2 (ix2 I J))) (mW s gk 3 (ix2 I J))) (mW s gk 4 (ix2 I J))) (mW s gk 5 (ix2 I J))) (mW s gk 6 (ix2 I J))) (mW s gk 7 (ix2 I J))) (mW s gk 8 (ix2 I J)) := rfl
  rw [h]
  simp only [mW_apply]
  unfold Spec.lmaxP
  rw [sup_nine]

/-- The sum of the nine exponentials at pixel (I, J) is the softmax's denominator there. -/
theorem mDen_apply (I J : Fin 256) : mDen (F := Ideal) s gk (ix2 I J) = Spec.ldenP (planeOf s) gk I J := by
  have h : mDen (F := Ideal) s gk (ix2 I J)
      = Ideal.ofBits .f32 0x00000000#32 + Ideal.exp (mW s gk 0 (ix2 I J) - mMax (F := Ideal) s gk (ix2 I J)) + Ideal.exp (mW s gk 1 (ix2 I J) - mMax (F := Ideal) s gk (ix2 I J)) + Ideal.exp (mW s gk 2 (ix2 I J) - mMax (F := Ideal) s gk (ix2 I J)) + Ideal.exp (mW s gk 3 (ix2 I J) - mMax (F := Ideal) s gk (ix2 I J)) + Ideal.exp (mW s gk 4 (ix2 I J) - mMax (F := Ideal) s gk (ix2 I J)) + Ideal.exp (mW s gk 5 (ix2 I J) - mMax (F := Ideal) s gk (ix2 I J)) + Ideal.exp (mW s gk 6 (ix2 I J) - mMax (F := Ideal) s gk (ix2 I J)) + Ideal.exp (mW s gk 7 (ix2 I J) - mMax (F := Ideal) s gk (ix2 I J)) + Ideal.exp (mW s gk 8 (ix2 I J) - mMax (F := Ideal) s gk (ix2 I J)) := rfl
  rw [h, ofBits_zero]
  simp only [mW_apply, mMax_apply]
  unfold Spec.ldenP Spec.lexpP
  rw [sum_nine]

end Planes

end Cert.Proof.MaskValue

end
-- ==== Proof.MaskValue.lean ====
/-
  The nine stored pieces of the mask body, read at an index: piece n at (0, 0, I, J) is the softmax mask of tap n at
  pixel (I, J).

  Every piece is exp (its plane − the maximum) / the denominator, stored with two leading unit axes; the planes, the
  maximum and the denominator at a pixel are the logits, their supremum and the sum of the exponentials.
-/
import proofs.«174128_j1090921693816_1_alg».proof.Proof.MaskSoft

noncomputable section

namespace Cert.Proof.MaskValue

open Idealize.ShloMosaic Idealize.ShloMosaic.ValueIdx Cert.KernelIdeal Cert.KernelIdeal.Gen Cert.KernelIdeal.Chain

/-- A piece from its plane, the maximum and the denominator. -/
def pieceOf (W M D : FVec Ideal S256x256 .f32) : FVec Ideal S1x1x256x256 .f32 :=
  shapeCast S1x1x256x256 (divf (exp (subf W M)) D) Facts₀.shapeCasts_S256x256_S1x1x256x256

/-- A piece at (0, 0, I, J): exp (plane − maximum) / denominator at (I, J). -/
theorem pieceOf_apply (W M D : FVec Ideal S256x256 .f32) (I J : Fin 256) :
    pieceOf W M D (ix4 (0 : Fin 1) (0 : Fin 1) I J)
      = Ideal.div (Ideal.exp (W (ix2 I J) - M (ix2 I J))) (D (ix2 I J)) := by
  unfold pieceOf
  exact shapeCast_apply _ _ _ (ix2 I J) (by
    rw [Shape.rowMajor_val_two, Shape.rowMajor_val_four]
    show I.val * 256 + J.val = ((0 * 1 + 0) * 256 + I.val) * 256 + J.val
    omega)

section Pieces
variable (s : Vec Ideal S128x128 .f32) (gk : Vec Ideal S9x4 .f32)

/-- Each stored piece of the chain is that expression of its tap's plane, by unfolding. -/
theorem piece_eq (n : Fin 9) :
    piece (F := Ideal) s gk n = pieceOf (mW s gk n) (mMax (F := Ideal) s gk) (mDen (F := Ideal) s gk) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

end Pieces

/-- THE MASK BODY'S VALUE: piece n at (0, 0, I, J) is the mask of tap n at pixel (I, J). -/
theorem piece_apply (s : Vec Ideal Cert.KernelIdeal.S128x128 .f32) (gk : Vec Ideal Cert.KernelIdeal.S9x4 .f32)
    (n : Fin 9) (I J : Fin 256) :
    Cert.KernelIdeal.Chain.piece (F := Ideal) s gk n (ix4 (0 : Fin 1) (0 : Fin 1) I J)
      = Cert.Proof.Spec.maskP (fun h w => s (ix2 h w)) gk n I J := by
  rw [piece_eq, pieceOf_apply, mW_apply, mMax_apply, mDen_apply]
  rfl

end Cert.Proof.MaskValue

end
-- ==== Proof.MaskArrCanon.lean ====
/-
  The masks' output buffer after a batch entry's last channel tile, as ONE function of its index: at (0, n, I, J) the
  softmax mask of tap n at pixel (I, J), computed from the plane of completed channel sums. Each of the nine stored planes
  is that function on the plane's own rectangle (plane n sits at offset n on the tap axis), and the nine rectangles tile
  the buffer.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrR0I
import proofs.«174128_j1090921693816_1_alg».proof.Proof.ChainI
import proofs.«174128_j1090921693816_1_alg».proof.Proof.MaskArrRun
import proofs.«174128_j1090921693816_1_alg».proof.Proof.MaskValue
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.Proof.MaskValue

open Cert.KernelIdeal Cert.KernelIdeal.Gen Cert.KernelIdeal.Fr Cert.KernelIdeal.Chain
open Idealize.ShloMosaic Idealize.ShloMosaic.TcCoe Idealize.ShloMosaic.Tactic
open Idealize.SL Idealize.SL.Sem
open Idealize.ShloMosaic.Pipeline (Dat Cfg Window)
open Idealize.ShloMosaic.ValueIdx

/-- What the buffer holds: at (0, n, I, J) the mask of tap n at pixel (I, J). -/
def maskBlock (S : Vec Ideal S128x128 .f32) (g : Vec Ideal S9x4 .f32) : S1x9x256x256.Idx → EReal :=
  fun y => Spec.maskP (planeOf S) g (y 1) (y 2) (y 3)

/-- The stored plane of tap n is that function on the plane's rectangle. -/
theorem piece_block (S : Vec Ideal S128x128 .f32) (g : Vec Ideal S9x4 .f32) (n : Fin 9)
    (inb : ∀ a, (![0, n.val, 0, 0] : Fin 4 → Nat) a + S1x1x256x256.size a ≤ S1x9x256x256.size a)
    (x : S1x1x256x256.Idx) :
    piece (F := Ideal) S g n x
      = maskBlock S g ((Rect.unit (s := S1x9x256x256) ![0, n.val, 0, 0] S1x1x256x256.size inb).emb x) := by
  obtain ⟨a, b, I, J, rfl⟩ : ∃ (a b : Fin 1) (I J : Fin 256), x = ix4 a b I J := ⟨x 0, x 1, x 2, x 3, eq_ix4 x⟩
  obtain rfl : a = 0 := Subsingleton.elim _ _
  obtain rfl : b = 0 := Subsingleton.elim _ _
  refine (piece_apply S g n I J).trans ?_
  unfold maskBlock
  have e1 : ((Rect.unit (s := S1x9x256x256) ![0, n.val, 0, 0] S1x1x256x256.size inb).emb (ix4 (0 : Fin 1) (0 : Fin 1) I J)) 1 = n :=
    Fin.ext (by show n.val + 1 * 0 = n.val; omega)
  have e2 : ((Rect.unit (s := S1x9x256x256) ![0, n.val, 0, 0] S1x1x256x256.size inb).emb (ix4 (0 : Fin 1) (0 : Fin 1) I J)) 2 = I :=
    Fin.ext (by show 0 + 1 * I.val = I.val; omega)
  have e3 : ((Rect.unit (s := S1x9x256x256) ![0, n.val, 0, 0] S1x1x256x256.size inb).emb (ix4 (0 : Fin 1) (0 : Fin 1) I J)) 3 = J :=
    Fin.ext (by show 0 + 1 * J.val = J.val; omega)
  rw [e1, e2, e3]

/-- The nine stored planes read back as that one function. -/
theorem canon_maskPieces (S : Vec Ideal S128x128 .f32) (g : Vec Ideal S9x4 .f32) (y : S1x9x256x256.Idx) :
    View.canon (maskPieces (F := Ideal) S g) y = maskBlock S g y := by
  refine View.canon_apply_of_pieces (maskBlock S g) (maskPieces (F := Ideal) S g) ?_ y
    (View.cover_of_tiledL (maskPieces (F := Ideal) S g) S1x1x256x256.size (by unfold maskPieces; sl_kernel_rfl) y)
  intro p hp x
  unfold maskPieces at hp
  rcases List.mem_cons.mp hp with rfl | hp
  · exact piece_block S g 8 Facts₀.inb_S1x9x256x256_S1x1x256x256_0_8_0_0 x
  rcases List.mem_cons.mp hp with rfl | hp
  · exact piece_block S g 7 Facts₀.inb_S1x9x256x256_S1x1x256x256_0_7_0_0 x
  rcases List.mem_cons.mp hp with rfl | hp
  · exact piece_block S g 6 Facts₀.inb_S1x9x256x256_S1x1x256x256_0_6_0_0 x
  rcases List.mem_cons.mp hp with rfl | hp
  · exact piece_block S g 5 Facts₀.inb_S1x9x256x256_S1x1x256x256_0_5_0_0 x
  rcases List.mem_cons.mp hp with rfl | hp
  · exact piece_block S g 4 Facts₀.inb_S1x9x256x256_S1x1x256x256_0_4_0_0 x
  rcases List.mem_cons.mp hp with rfl | hp
  · exact piece_block S g 3 Facts₀.inb_S1x9x256x256_S1x1x256x256_0_3_0_0 x
  rcases List.mem_cons.mp hp with rfl | hp
  · exact piece_block S g 2 Facts₀.inb_S1x9x256x256_S1x1x256x256_0_2_0_0 x
  rcases List.mem_cons.mp hp with rfl | hp
  · exact piece_block S g 1 Facts₀.inb_S1x9x256x256_S1x1x256x256_0_1_0_0 x
  rcases List.mem_cons.mp hp with rfl | hp
  · exact piece_block S g 0 Facts₀.inb_S1x9x256x256_S1x1x256x256_0_0_0_0 x
  nomatch hp

end Cert.Proof.MaskValue

end
-- ==== Proof.MaskArrSum.lean ====
/-
  The channel sums as running sums. The sum over the 256 channels of a batch entry at a pixel is reached in four
  stretches of 64; with the channels listed by a natural number (0 past the last one), the sum of the first 64·k channels
  plus the next 64 is the sum of the first 64·(k+1), and the sum of the first 256 is the sum over all channels.
-/
import proofs.«174128_j1090921693816_1_alg».proof.Proof.Spec

noncomputable section

open scoped BigOperators

namespace Cert.Proof.MaskValue

open Idealize.ShloMosaic Idealize.ShloMosaic.ValueIdx

/-- Channel ch of batch entry b at pixel (h, w), listed by natural numbers: 0 outside the array. -/
def chanAt (x : Spec.XArr) (b : ℕ) (h w : Fin 128) (ch : ℕ) : EReal :=
  if hb : b < 4 then (if hc : ch < 256 then x (ix4 (⟨b, hb⟩ : Fin 4) (⟨ch, hc⟩ : Fin 256) h w) else 0) else 0

/-- The sum over all 256 channels is the sum of the first 256 of that list. -/
theorem chanSum_eq (x : Spec.XArr) (b : Fin 4) (h w : Fin 128) :
    Spec.chanSum x b h w = ∑ ch ∈ Finset.range 256, chanAt x b.val h w ch := by
  unfold Spec.chanSum
  rw [← Fin.sum_univ_eq_sum_range (chanAt x b.val h w) 256]
  refine Finset.sum_congr rfl fun c _ => ?_
  unfold chanAt
  rw [dif_pos b.isLt, dif_pos c.isLt]

/-- The first 64·k terms plus the next 64 are the first 64·(k+1). -/
theorem sum_next64 (f : ℕ → EReal) (k : ℕ) :
    ∑ ch ∈ Finset.range (64 * k), f ch + ∑ c : Fin 64, f (64 * k + c.val)
      = ∑ ch ∈ Finset.range (64 * (k + 1)), f ch := by
  have e : ∑ c : Fin 64, f (64 * k + c.val) = ∑ c ∈ Finset.range 64, f (64 * k + c) :=
    Fin.sum_univ_eq_sum_range (fun c => f (64 * k + c)) 64
  rw [e, mul_add, mul_one, Finset.sum_range_add]

/-- From nothing: 0 plus the first 64 terms. -/
theorem sum_first64 (f : ℕ → EReal) :
    0 + ∑ c : Fin 64, f (64 * 0 + c.val) = ∑ ch ∈ Finset.range (64 * (0 + 1)), f ch := by
  have := sum_next64 f 0
  rwa [Nat.mul_zero, Finset.range_zero, Finset.sum_empty] at this

end Cert.Proof.MaskValue

end
-- ==== Proof.AccValue.lean ====
/-
  The accumulation of the channel sums over the extended reals, read index by index.

  The scratch plane starts as the zero plane; each step adds to it, at every pixel (h, w), the sum over the 64 channels of
  the block it has loaded:  accStep s xb (h, w) = s (h, w) + ∑ c, xb (0, c, h, w).
  The block [1, 64, 128, 128] is first cast to [64, 128, 128] (same row-major position: the leading unit axis drops), then
  summed over its axis 0, a sum over one axis read as the sum over that axis's 64 coordinates.
-/
import proofs.«174128_j1090921693816_1_alg».proof.Proof.ChainI
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.CarafeValue

open Idealize.ShloMosaic Idealize.ShloMosaic.ValueIdx Cert.KernelIdeal Cert.KernelIdeal.Gen

/-- The zero plane reads 0 at every pixel: a splat of the word of +0.0, cast to its own shape. -/
theorem accZero_apply (j : Cert.KernelIdeal.S128x128.Idx) : Cert.KernelIdeal.Chain.accZero (F := Ideal) j = 0 := by
  unfold Cert.KernelIdeal.Chain.accZero k0_pay1
  rw [shapeCast_self]
  exact Ideal.ofBits_zero_f32

/-- The sum over axis 0 of a [64, 128, 128] array at (h, w): the sum over the 64 coordinates c of the array at (c, h, w). -/
theorem sumAxis0_apply (v : FVec Ideal S64x128x128 .f32) (hφ : FKind.Formats .f32)
    (hacc : (0x00000000#32 : BitVec 32) = FKind.add.neutral .f32 hφ) (h w : Fin 128) :
    multiReduction (F := Ideal) .add [0] S128x128 v 0x00000000#32 reduces_S64x128x128_S128x128 hφ hacc (ix2 h w)
      = ∑ c : Fin 64, v (ix3 c h w) := by
  refine (Ideal.multiReduction_add_single v 0x00000000#32 reduces_S64x128x128_S128x128 hφ hacc (ix2 h w)).trans ?_
  refine Finset.sum_congr rfl fun c _ => congrArg v ?_
  funext a
  match a with
  | ⟨0, _⟩ => rfl
  | ⟨1, _⟩ => rfl
  | ⟨2, _⟩ => rfl

/-- One step of the accumulation at a pixel: what the scratch held plus the sum of the block's 64 channels there. -/
theorem accStep_apply (s : Vec Ideal Cert.KernelIdeal.S128x128 .f32) (xb : Vec Ideal Cert.KernelIdeal.S1x64x128x128 .f32)
    (h w : Fin 128) :
    Cert.KernelIdeal.Chain.accStep (F := Ideal) s xb (ix2 h w) = s (ix2 h w) + ∑ c : Fin 64, xb (ix4 (0 : Fin 1) c h w) := by
  unfold Cert.KernelIdeal.Chain.accStep k0_pay2
  rw [shapeCast_self]
  refine (addf_apply _ _ _).trans ?_
  refine congrArg (s (ix2 h w) + ·) ?_
  refine (sumAxis0_apply _ _ _ h w).trans ?_
  refine Finset.sum_congr rfl fun c _ => ?_
  exact shapeCast_1abc_abc_apply xb shapeCasts_S1x64x128x128_S64x128x128 c h w

end Cert.Proof.CarafeValue

end
-- ==== Proof.MaskArr.lean ====
/-
  The masks array after the first launch. A grid point is a batch entry b and a channel tile k (point 4·b + k). After
  point 4·b + k the scratch holds, at every pixel, the sum of channels 0 … 64·(k+1) − 1 of entry b — by induction on
  the point: the first tile starts from the zero plane, every tile adds its 64 channels. At the last tile the sums are
  the sums over all 256 channels, the masks' output buffer ends as the masks of the entry computed from them, and it is
  written back to block b of the masks array; the four last tiles cover the array.
-/
import proofs.«174128_j1090921693816_1_alg».proof.Proof.Gen.KernelIdeal.Launch
import proofs.«174128_j1090921693816_1_alg».proof.Proof.Gen.KernelIdeal.Skeleton
import proofs.«174128_j1090921693816_1_alg».proof.Proof.Gen.KernelIdeal.Points
import proofs.«174128_j1090921693816_1_alg».proof.Proof.FrR0I
import proofs.«174128_j1090921693816_1_alg».proof.Proof.ChainI
import proofs.«174128_j1090921693816_1_alg».proof.Proof.MaskArrOut
import proofs.«174128_j1090921693816_1_alg».proof.Proof.MaskArrCanon
import proofs.«174128_j1090921693816_1_alg».proof.Proof.MaskArrSum
import proofs.«174128_j1090921693816_1_alg».proof.Proof.AccValue
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.Proof.MaskValue

open Cert.KernelIdeal Cert.KernelIdeal.Gen Cert.KernelIdeal.Fr Cert.KernelIdeal.Chain
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.Proof.CarafeValue (accZero_apply accStep_apply)

section Launch
variable (V : (c : Dev nD) → (b : Ref sig .tc) → Buf (Elt Ideal) ((c : Thread nD τ).loc b)) (c : Dev nD)

/-- The three windows' block indices at a grid point, decided over the grid: the input block is (entry, tile, 0, 0), the
    tap weights' block the whole array, the masks' block (entry, 0, 0, 0). -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, _)

/-! ## What a point leaves, by its case -/

theorem stepA_snd (t : Fin cfg0.N) (h0 : t.val % 4 = 0) :
    (stepA V c t h0).2 = accStep (accZero (F := Ideal)) (iblk0 V c 0 t) := by
  unfold stepA
  dsimp only
  exact sout0_A_eq c (grid0.coords t) (ms0_0 t) (hs0_0 t) (ms0_1 t) (hs0_1 t) (ms0_2 t) (hs0_2 t) scM (Memref.isWhole_whole _) ((hcond0_0 t).mpr h0) (fun h => by have := (hcond0_1 t).mp h; omega) (iblk0 V c 0 t)
theorem stepB_snd (t : Fin cfg0.N) (h0 : ¬t.val % 4 = 0) (h1 : ¬t.val % 4 = 3) (prev : Vec Ideal S128x128 .f32) :
    (stepB V c t h0 h1 prev).2 = accStep prev (iblk0 V c 0 t) := by
  unfold stepB
  dsimp only
  exact sout0_B_eq c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk0 V c 0 t) prev
theorem stepC_snd (t : Fin cfg0.N) (h0 : ¬t.val % 4 = 0) (h1 : t.val % 4 = 3) (prev : Vec Ideal S128x128 .f32) :
    (stepC V c t h0 h1 prev).2 = accStep prev (iblk0 V c 0 t) := by
  unfold stepC
  dsimp only
  exact sout0_C_eq c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev
theorem stepC_fst (t : Fin cfg0.N) (h0 : ¬t.val % 4 = 0) (h1 : t.val % 4 = 3) (prev : Vec Ideal S128x128 .f32) :
    (stepC V c t h0 h1 prev).1
      = View.canon (maskPieces (F := Ideal) (accStep (F := Ideal) prev (iblk0 V c 0 t : Vec Ideal S1x64x128x128 .f32)) (iblk0 V c 1 t : Vec Ideal S9x4 .f32)) := by
  unfold stepC
  dsimp only
  exact out0_C_eq c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk0 V c 0 t) (iblk0 V c 1 t) prev

/-! ## The blocks the body loads -/

/-- The input block at point t holds channels 64·(t % 4) … of batch entry t / 4. -/
theorem xblock_apply (t : Fin cfg0.N) (ch : Fin 64) (h w : Fin 128) :
    (iblk0 V c 0 t : S1x64x128x128.Idx → EReal) (ix4 (0 : Fin 1) ch h w)
      = chanAt (V c main_arg0) (t.val / 4) h w (64 * (t.val % 4) + ch.val) := by
  have hN : t.val < 16 := lt_of_lt_of_eq t.isLt (show cfg0.N = 16 from N_0)
  obtain ⟨e0, e1, e2, e3, -⟩ := idx_facts t
  unfold chanAt
  rw [dif_pos (by omega), dif_pos (by omega)]
  unfold iblk0
  rw [View.read_apply]
  show V c main_arg0 _ = V c main_arg0 _
  congr 1
  funext a
  apply Fin.ext
  match a with
  | ⟨0, _⟩ => show win0_0.index t (0 : Fin 4) * 1 + 1 * 0 = t.val / 4; omega
  | ⟨1, _⟩ => show win0_0.index t (1 : Fin 4) * 64 + 1 * ch.val = 64 * (t.val % 4) + ch.val; omega
  | ⟨2, _⟩ => show win0_0.index t (2 : Fin 4) * 128 + 1 * h.val = h.val; omega
  | ⟨3, _⟩ => show win0_0.index t (3 : Fin 4) * 128 + 1 * w.val = w.val; omega

/-- The tap weights' block is the whole array at every point. -/
theorem gblock_eq (t : Fin cfg0.N) : (iblk0 V c 1 t : S9x4.Idx → EReal) = V c main_arg1 := by
  obtain ⟨-, -, -, -, e0, e1, -⟩ := idx_facts t
  funext j
  unfold iblk0
  rw [View.read_apply]
  show V c main_arg1 _ = V c main_arg1 j
  congr 1
  funext a
  apply Fin.ext
  match a with
  | ⟨0, _⟩ => show win0_1.index t (0 : Fin 2) * 9 + 1 * (j 0).val = (j 0).val; omega
  | ⟨1, _⟩ => show win0_1.index t (1 : Fin 2) * 4 + 1 * (j 1).val = (j 1).val; omega

/-- One step of the accumulation at a pixel, in the channels of the array. -/
theorem accStep_chan (prev : Vec Ideal S128x128 .f32) (n : ℕ) (hn : n < cfg0.N) (h w : Fin 128) :
    accStep (F := Ideal) prev (iblk0 V c 0 ⟨n, hn⟩) (ix2 h w)
      = prev (ix2 h w) + ∑ ch : Fin 64, chanAt (V c main_arg0) (n / 4) h w (64 * (n % 4) + ch.val) := by
  refine (accStep_apply prev (iblk0 V c 0 ⟨n, hn⟩) h w).trans ?_
  exact congrArg (prev (ix2 h w) + ·) (Finset.sum_congr rfl fun ch _ => xblock_apply V c ⟨n, hn⟩ ch h w)

/-! ## The scratch after each point -/

/-- After point n the scratch holds the sum of the first 64·(n % 4 + 1) channels of batch entry n / 4. -/
theorem scratch_eq : ∀ (n : ℕ) (hn : n < cfg0.N) (h w : Fin 128),
    (outsAt0 V c n hn).2 (ix2 h w)
      = ∑ ch ∈ Finset.range (64 * (n % 4 + 1)), chanAt (V c main_arg0) (n / 4) h w ch
  | 0, hn, h, w => by
    have key : outsAt0 V c 0 hn = stepA V c ⟨0, hn⟩ (Nat.zero_mod _) := outsAt0_A V c ⟨0, hn⟩ (Nat.zero_mod _)
    rw [key, stepA_snd, accStep_chan, accZero_apply]
    exact sum_first64 _
  | n + 1, hn, h, w => by
    have ih := scratch_eq n (Nat.lt_of_succ_lt hn) h w
    by_cases h0 : (n + 1) % 4 = 0
    · have key : outsAt0 V c (n + 1) hn = stepA V c ⟨n + 1, hn⟩ h0 := outsAt0_A V c ⟨n + 1, hn⟩ h0
      rw [key, stepA_snd, accStep_chan, accZero_apply, h0]
      exact sum_first64 _
    · have e1 : n / 4 = (n + 1) / 4 := by omega
      have e2 : n % 4 + 1 = (n + 1) % 4 := by omega
      by_cases h1 : (n + 1) % 4 = 3
      · have key : outsAt0 V c (n + 1) hn = stepC V c ⟨n + 1, hn⟩ h0 h1 (outsAt0 V c n (Nat.lt_of_succ_lt hn)).2 :=
          outsAt0_C V c ⟨n + 1, hn⟩ h0 h1
        rw [key, stepC_snd, accStep_chan, ih, e1, e2]
        exact sum_next64 _ _
      · have key : outsAt0 V c (n + 1) hn = stepB V c ⟨n + 1, hn⟩ h0 h1 (outsAt0 V c n (Nat.lt_of_succ_lt hn)).2 :=
          outsAt0_B V c ⟨n + 1, hn⟩ h0 h1
        rw [key, stepB_snd, accStep_chan, ih, e1, e2]
        exact sum_next64 _ _

/-! ## From blocks to the array -/

/-- What a last tile writes back is its block of the masks of the two argument arrays. -/
theorem flushed_eq (t : Fin cfg0.N) (hf : (cfg0.win 2).flush t = true) :
    (dat0 V c).flushed 2 t
      = ((cfg0.win 2).blk t).view.read (Elt Ideal) (Spec.mask (V c main_arg0) (V c main_arg1)) := by
  have h1 : t.val % 4 = 3 := (flush0_2 t).mp hf
  have h0 : ¬t.val % 4 = 0 := by omega
  have hN : t.val < 16 := lt_of_lt_of_eq t.isLt (show cfg0.N = 16 from N_0)
  obtain ⟨-, -, -, -, -, -, e0, e1, e2, e3⟩ := idx_facts t
  have eS : ∀ h w : Fin 128,
      accStep (F := Ideal) (outsAt0 V c (t.val - 1) (Nat.lt_of_le_of_lt (Nat.sub_le _ _) t.isLt)).2 (iblk0 V c 0 t) (ix2 h w)
        = ∑ ch ∈ Finset.range 256, chanAt (V c main_arg0) (t.val / 4) h w ch := by
    intro h w
    have := scratch_eq V c t.val t.isLt h w
    rw [outsAt0_C V c t h0 h1, stepC_snd, h1] at this
    exact this
  show (cfg0.win 2).cut (grid0.coords t) ((dat0 V c).after 2 t) = _
  rw [after0_2, outsAt0_C V c t h0 h1, stepC_fst]
  funext j
  have hj0 : (j 0).val < 1 := (j 0).isLt
  show View.canon (maskPieces (F := Ideal) (accStep (F := Ideal) _ (iblk0 V c 0 t : Vec Ideal S1x64x128x128 .f32)) (iblk0 V c 1 t : Vec Ideal S9x4 .f32)) j
    = Spec.mask (V c main_arg0) (V c main_arg1) (((cfg0.win 2).blk t).view.emb j)
  refine (canon_maskPieces _ _ j).trans ?_
  unfold maskBlock Spec.mask
  have q0 : ((((cfg0.win 2).blk t).view.emb j) 0).val = t.val / 4 := by
    show win0_2.index t (0 : Fin 4) * 1 + 1 * (j 0).val = t.val / 4; omega
  have q1 : (((cfg0.win 2).blk t).view.emb j) 1 = j 1 :=
    Fin.ext (by show win0_2.index t (1 : Fin 4) * 9 + 1 * (j 1).val = (j 1).val; omega)
  have q2 : (((cfg0.win 2).blk t).view.emb j) 2 = j 2 :=
    Fin.ext (by show win0_2.index t (2 : Fin 4) * 256 + 1 * (j 2).val = (j 2).val; omega)
  have q3 : (((cfg0.win 2).blk t).view.emb j) 3 = j 3 :=
    Fin.ext (by show win0_2.index t (3 : Fin 4) * 256 + 1 * (j 3).val = (j 3).val; omega)
  have ep : ∀ b : Fin 4, b.val = t.val / 4 →
      planeOf (accStep (F := Ideal) (outsAt0 V c (t.val - 1) (Nat.lt_of_le_of_lt (Nat.sub_le _ _) t.isLt)).2 (iblk0 V c 0 t))
        = Spec.chanSum (V c main_arg0) b := by
    intro b hb
    funext h w
    show accStep (F := Ideal) _ (iblk0 V c 0 t) (ix2 h w) = _
    rw [eS h w, chanSum_eq (V c main_arg0) b h w, hb]
  rw [ep ((((cfg0.win 2).blk t).view.emb j) 0) q0, gblock_eq V c t, q1, q2, q3]

/-- Every index of the masks array is in the block of its batch entry's last tile. -/
theorem covered (i : S4x9x256x256.Idx) :
    ∃ t : Fin cfg0.N, (cfg0.win 2).flush t = true ∧ i ∈ ((cfg0.win 2).blk t).view.set := by
  have hi0 : (i 0).val < 4 := (i 0).isLt
  have hi1 : (i 1).val < 9 := (i 1).isLt
  have hi2 : (i 2).val < 256 := (i 2).isLt
  have hi3 : (i 3).val < 256 := (i 3).isLt
  have hlt : 4 * (i 0).val + 3 < cfg0.N := by rw [show cfg0.N = 16 from N_0]; omega
  have et : (⟨4 * (i 0).val + 3, hlt⟩ : Fin cfg0.N).val = 4 * (i 0).val + 3 := rfl
  obtain ⟨-, -, -, -, -, -, e0, e1, e2, e3⟩ := idx_facts ⟨4 * (i 0).val + 3, hlt⟩
  refine ⟨⟨4 * (i 0).val + 3, hlt⟩, (flush0_2 _).mpr (by rw [et]; omega), ?_⟩
  show i ∈ ((View.whole main_v0).slice (win0_2.rect ⟨4 * (i 0).val + 3, hlt⟩)).set
  rw [View.set_slice_whole, Rect.mem_set_unit]
  intro a
  match a with
  | ⟨0, _⟩ =>
    show win0_2.index ⟨4 * (i 0).val + 3, hlt⟩ (0 : Fin 4) * 1 ≤ (i 0).val
      ∧ (i 0).val < win0_2.index ⟨4 * (i 0).val + 3, hlt⟩ (0 : Fin 4) * 1 + 1
    omega
  | ⟨1, _⟩ =>
    show win0_2.index ⟨4 * (i 0).val + 3, hlt⟩ (1 : Fin 4) * 9 ≤ (i 1).val
      ∧ (i 1).val < win0_2.index ⟨4 * (i 0).val + 3, hlt⟩ (1 : Fin 4) * 9 + 9
    omega
  | ⟨2, _⟩ =>
    show win0_2.index ⟨4 * (i 0).val + 3, hlt⟩ (2 : Fin 4) * 256 ≤ (i 2).val
      ∧ (i 2).val < win0_2.index ⟨4 * (i 0).val + 3, hlt⟩ (2 : Fin 4) * 256 + 256
    omega
  | ⟨3, _⟩ =>
    show win0_2.index ⟨4 * (i 0).val + 3, hlt⟩ (3 : Fin 4) * 256 ≤ (i 3).val
      ∧ (i 3).val < win0_2.index ⟨4 * (i 0).val + 3, hlt⟩ (3 : Fin 4) * 256 + 256
    omega

end Launch

/-- THE MASKS ARRAY after the first launch: the softmax masks of the two argument arrays. -/
theorem final0 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Fr.dat0 (F := Ideal) V c).arrAt 2 Cert.KernelIdeal.cfg0.N
      = Cert.Proof.Spec.mask (V c Cert.KernelIdeal.main_arg0) (V c Cert.KernelIdeal.main_arg1) :=
  (dat0 (F := Ideal) V c).arrAt_eq_of_cover 2 (Spec.mask (V c main_arg0) (V c main_arg1))
    (fun t hf => flushed_eq V c t hf) (fun i => covered i)

end Cert.Proof.MaskValue

end
-- ==== Proof.KernelValue.lean ====
/-
  The idealized kernel's result as one function of its two arguments.

  The program is two launches. The first leaves in the masks array the softmax masks of the input and the tap weights
  (every batch entry's block is written back once, after the channel sums are complete); the second finds that array and
  the unchanged input, and leaves in the result array the reassembly of the input under those masks (every block written
  back once). So the result array ends at `Spec.out` of the launch contents of the two arguments.
-/
import proofs.«174128_j1090921693816_1_alg».proof.Proof.FrMainI
import proofs.«174128_j1090921693816_1_alg».proof.Proof.CarafeArr
import proofs.«174128_j1090921693816_1_alg».proof.Proof.MaskArr
import proofs.«174128_j1090921693816_1_alg».proof.Proof.Spec

noncomputable section

namespace Cert.Proof.KernelValue

open Idealize.ShloMosaic Idealize.ShloMosaic.TcCoe Idealize.SL.Sem
open Cert.KernelIdeal Cert.KernelIdeal.Fr

variable (m : (ℓ : Loc nD τ sig) → Buf (Elt Ideal) ℓ) (ρ : Dev nD → PrngReg)

/-- What the second launch finds in the masks array: the softmax masks of the launch contents. -/
theorem masks_eq (c : Dev nD) :
    V2 (F := Ideal) m ρ c main_v0 = Cert.Proof.Spec.mask (m ((c.tc : Thread nD τ).loc main_arg0)) (m ((c.tc : Thread nD τ).loc main_arg1)) :=
  (W2_arr (F := Ideal) m ρ c 2).trans (Cert.Proof.MaskValue.final0 (V1 (F := Ideal) m ρ) c)

/-- What the second launch leaves in the result array. -/
theorem result_eq (c : Dev nD) :
    (dat1 (F := Ideal) (V2 (F := Ideal) m ρ) c).arrAt 2 cfg1.N
      = Cert.Proof.Spec.out (m ((c.tc : Thread nD τ).loc main_arg0)) (m ((c.tc : Thread nD τ).loc main_arg1)) := by
  rw [Cert.Proof.CarafeValue.final1, masks_eq m ρ c, V2_main_arg0 m ρ c]
  rfl

/-- The idealized kernel runs to the end without a fault, its result array at `Spec.out` of the launch contents of its
    arguments and both arguments as launched. -/
theorem run : θ_run defs (onTc (τ := τ) (main (F := Ideal))) ⟨m, fun _ => 0, ρ⟩ (fun r => ∀ c : Dev nD,
      r.2.mem ((c.tc : Thread nD τ).loc main_v1)
        = Cert.Proof.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_main (F := Ideal) m ρ)

end Cert.Proof.KernelValue

end
-- ==== Proof.RefFrame.lean ====
/-
  The reference program has no kernel launch: it is a straight line of host operations. Its run is read
  back by the run module (every weakly fair execution terminates, nothing faults, the result
  buffer holds the operations' composed term of the arguments, and the arguments are unchanged). The frame
  claim of the reference is that run with the statement about the result dropped.
-/
import proofs.«174128_j1090921693816_1_alg».proof.Defs
import proofs.«174128_j1090921693816_1_alg».proof.Proof.Gen.ReferenceIdeal
import proofs.«174128_j1090921693816_1_alg».proof.Proof.Gen.Pre_finite_inputs
import proofs.«174128_j1090921693816_1_alg».proof.Proof.RunP

noncomputable section

open Idealize.ShloMosaic Idealize.SL.Sem

namespace Cert.Proof.RefFrame

/-- The reference runs to the end without a fault and leaves both argument arrays as it found them. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.RefAux.lean ====
/-
  Facts about indices and a few layout operations, independent of any program.

  * the row-major position of a rank-7 index as one sum of products, and a rank-7 index from its coordinates;
  * an array whose last two axes have extent 128, padded by one ring of a constant on those two axes, read at an index:
    the array's element one step up and to the left when both padded coordinates are in 1 … 128, the constant elsewhere;
  * nine arrays with one channel each joined along the channel axis, read at channel n: the n-th array at channel 0;
  * a sum over nine terms written out; the maximum over nine terms from the bottom element is their supremum;
  * the words for −∞ and for the integer 0 converted to a float, as extended reals.
-/
import Idealize.ShloMosaic.PureOps.Ideal.Laws
import Idealize.ShloMosaic.Lib.ValueIdx
import Idealize.ShloMosaic.Lib.Pipeline.Value

noncomputable section

open scoped BigOperators

namespace Cert.Proof.RefValue

open Idealize.ShloMosaic Idealize.ShloMosaic.ValueIdx

/-! ## Rank 7 -/

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

/-! ## One ring of a constant round the last two axes -/

/-- The padded array at (a, c, i, j): the array at (a, c, i − 1, j − 1) when 1 ≤ i, j ≤ 128, else the constant. -/
theorem pad_ring_apply {α : Type} {n0 n1 : Nat} (x : (⟨4, ![n0, n1, 128, 128]⟩ : Shape).Idx → α) {u : Shape} (v : u.Idx → α)
    (h : (⟨4, ![n0, n1, 128, 128]⟩ : Shape).Pads ![0, 0, 1, 1] ![0, 0, 1, 1] ![0, 0, 0, 0] (⟨4, ![n0, n1, 130, 130]⟩ : Shape))
    (hu : 0 < u.numel) (a : Fin n0) (c : Fin n1) (i j : Fin 130) :
    pad (⟨4, ![n0, n1, 130, 130]⟩ : Shape) ![0, 0, 1, 1] ![0, 0, 1, 1] ![0, 0, 0, 0] x v h hu (ix4 a c i j)
      = if hh : (1 ≤ i.val ∧ i.val ≤ 128) ∧ (1 ≤ j.val ∧ j.val ≤ 128) then
          x (ix4 a c ⟨i.val - 1, by omega⟩ ⟨j.val - 1, by omega⟩)
        else v (Shape.Idx.first hu) := by
  unfold pad
  by_cases hh : (1 ≤ i.val ∧ i.val ≤ 128) ∧ (1 ≤ j.val ∧ j.val ≤ 128)
  · rw [dif_pos hh]
    split
    · next hin =>
      refine congrArg x (funext fun e => Fin.ext ?_)
      match e with
      | ⟨0, _⟩ => show (a.val - 0) / (0 + 1) = a.val; omega
      | ⟨1, _⟩ => show (c.val - 0) / (0 + 1) = c.val; omega
      | ⟨2, _⟩ => show (i.val - 1) / (0 + 1) = i.val - 1; omega
      | ⟨3, _⟩ => show (j.val - 1) / (0 + 1) = j.val - 1; omega
    · next hin =>
      refine absurd (fun e => ?_) hin
      match e with
      | ⟨0, _⟩ =>
        show 0 ≤ a.val ∧ (a.val - 0) % (0 + 1) = 0 ∧ (a.val - 0) / (0 + 1) < n0
        have := a.isLt; omega
      | ⟨1, _⟩ =>
        show 0 ≤ c.val ∧ (c.val - 0) % (0 + 1) = 0 ∧ (c.val - 0) / (0 + 1) < n1
        have := c.isLt; omega
      | ⟨2, _⟩ =>
        show 1 ≤ i.val ∧ (i.val - 1) % (0 + 1) = 0 ∧ (i.val - 1) / (0 + 1) < 128
        omega
      | ⟨3, _⟩ =>
        show 1 ≤ j.val ∧ (j.val - 1) % (0 + 1) = 0 ∧ (j.val - 1) / (0 + 1) < 128
        omega
  · rw [dif_neg hh]
    split
    · next hin =>
      exfalso
      have h2 := hin ⟨2, by show 2 < 4; omega⟩
      have h3 := hin ⟨3, by show 3 < 4; omega⟩
      change 1 ≤ i.val ∧ (i.val - 1) % (0 + 1) = 0 ∧ (i.val - 1) / (0 + 1) < 128 at h2
      change 1 ≤ j.val ∧ (j.val - 1) % (0 + 1) = 0 ∧ (j.val - 1) / (0 + 1) < 128 at h3
      omega
    · rfl

/-! ## Nine one-channel arrays joined along the channel axis -/

set_option maxHeartbeats 8000000 in
/-- The joined array at channel n is the n-th array at its one channel. -/
theorem concat9_apply {α : Type} (u : Fin 9 → (⟨4, ![4, 1, 128, 128]⟩ : Shape).Idx → α)
    (hc : Shape.Concatenates [(⟨4, ![4, 1, 128, 128]⟩ : Shape), ⟨4, ![4, 1, 128, 128]⟩, ⟨4, ![4, 1, 128, 128]⟩,
      ⟨4, ![4, 1, 128, 128]⟩, ⟨4, ![4, 1, 128, 128]⟩, ⟨4, ![4, 1, 128, 128]⟩, ⟨4, ![4, 1, 128, 128]⟩, ⟨4, ![4, 1, 128, 128]⟩,
      ⟨4, ![4, 1, 128, 128]⟩] (⟨4, ![4, 9, 128, 128]⟩ : Shape) 1)
    (b : Fin 4) (n : Fin 9) (p q : Fin 128) :
    concatenate (⟨4, ![4, 9, 128, 128]⟩ : Shape) 1
      [⟨(⟨4, ![4, 1, 128, 128]⟩ : Shape), u 0⟩, ⟨⟨4, ![4, 1, 128, 128]⟩, u 1⟩, ⟨⟨4, ![4, 1, 128, 128]⟩, u 2⟩,
        ⟨⟨4, ![4, 1, 128, 128]⟩, u 3⟩, ⟨⟨4, ![4, 1, 128, 128]⟩, u 4⟩, ⟨⟨4, ![4, 1, 128, 128]⟩, u 5⟩,
        ⟨⟨4, ![4, 1, 128, 128]⟩, u 6⟩, ⟨⟨4, ![4, 1, 128, 128]⟩, u 7⟩, ⟨⟨4, ![4, 1, 128, 128]⟩, u 8⟩] hc (ix4 b n p q)
      = u n (ix4 b 0 p q) := by
  unfold concatenate
  dsimp only
  fin_cases n <;>
  · refine congrArg (u _) (funext fun e => Fin.ext ?_)
    match e with
    | ⟨0, _⟩ => rfl
    | ⟨1, _⟩ => rfl
    | ⟨2, _⟩ => rfl
    | ⟨3, _⟩ => rfl

/-! ## Nine terms -/

/-- A sum over nine terms, written out. -/
theorem sum_fin9 {M : Type*} [AddCommMonoid M] (f : Fin 9 → M) :
    ∑ n, f n = f 0 + f 1 + f 2 + f 3 + f 4 + f 5 + f 6 + f 7 + f 8 := by
  rw [Fin.sum_univ_castSucc, Fin.sum_univ_eight]; rfl

/-- The word for −∞ is the bottom element. -/
theorem ofBits_neg_inf : Ideal.ofBits .f32 0xFF800000#32 = (⊥ : EReal) := by simp [Ideal.ofBits, Ideal.ieee]

/-- The maximum of nine terms, folded from −∞, is their supremum. -/
theorem fold_max_eq_sup (f : Fin 9 → EReal) :
    (Finset.univ : Finset (Fin 9)).fold max (Ideal.ofBits .f32 0xFF800000#32) f = Finset.univ.sup f := by
  rw [ofBits_neg_inf]; rfl

/-- The integer 0 converted to a float is 0. -/
theorem sitofp_zero : FloatOps.sitofp (F := Ideal) .f32 (0#32 : BitVec 32) = (0 : EReal) := by
  show (((0#32 : BitVec 32).toInt : ℝ) : EReal) = 0
  simp

end Cert.Proof.RefValue

end
-- ==== Proof.RefTapsB.lean ====
/-
  The two layout chains of the reference's reassembly, read at an index, for any array they are applied to.

  (1) A window of the zero-padded input [4, 256, 130, 130] at offsets (0, 0, a, b), doubled along both image axes: the
      slice [4, 256, 128, 128] broadcast to a new axis of extent 2 after the rows, merged into [4, 256, 256, 128], then
      broadcast to a new last axis of extent 2, merged into [4, 256, 256, 256]. At (b, c, I, J) it reads the padded input
      at (b, c, a + I/2, b + J/2): the row-major position of (b, c, I, J) in the merged shape is that of
      (b, c, I, J/2, J%2) in the five-axis shape, the broadcast forgets the remainder; likewise for the rows.
  (2) Plane n of the mask array [4, 9, 256, 256] (a slice at offsets (0, n, 0, 0)) broadcast over the 256 channels: at
      (b, c, I, J) it reads the mask array at (b, n, I, J).
-/
import proofs.«174128_j1090921693816_1_alg».proof.ReferenceIdeal
import Idealize.ShloMosaic.Lib.ValueIdx
import Idealize.ShloMosaic.Lib.Pipeline.Value

noncomputable section

namespace Cert.Proof.RefValue

open Cert.ReferenceIdeal
open Idealize.ShloMosaic Idealize.ShloMosaic.ValueIdx

/-- The doubled window at (b, c, I, J) is the array at the index k whose coordinates are the offsets plus
    (b, c, I/2, J/2). -/
theorem dbl_slice_at {α : Type} (y : S4x256x130x130.Idx → α) (off : Fin 4 → ℕ)
    (hs : S4x256x130x130.Slices off S4x256x128x128)
    (hb1 : S4x256x128x128.BroadcastsInDim S4x256x128x2x128 (![0, 1, 2, 4] : Fin 4 → Fin S4x256x128x2x128.rank))
    (hc1 : S4x256x128x2x128.ShapeCasts S4x256x256x128)
    (hb2 : S4x256x256x128.BroadcastsInDim S4x256x256x128x2 (![0, 1, 2, 3] : Fin 4 → Fin S4x256x256x128x2.rank))
    (hc2 : S4x256x256x128x2.ShapeCasts S4x256x256x256)
    (b : Fin 4) (c I J : Fin 256) (k : S4x256x130x130.Idx)
    (hk0 : (k 0).val = off 0 + b.val) (hk1 : (k 1).val = off 1 + c.val)
    (hk2 : (k 2).val = off 2 + I.val / 2) (hk3 : (k 3).val = off 3 + J.val / 2) :
    shapeCast S4x256x256x256 (broadcastInDim S4x256x256x128x2 ![0, 1, 2, 3] hb2
      (shapeCast S4x256x256x128 (broadcastInDim S4x256x128x2x128 ![0, 1, 2, 4] hb1
        (extractStridedSlice S4x256x128x128 off y hs)) hc1)) hc2 (ix4 b c I J) = y k := by
  have hb := b.isLt
  have hc := c.isLt
  have hI := I.isLt
  have hJ := J.isLt
  refine (shapeCast_apply _ hc2 (ix4 b c I J)
    (ix5 b c I (⟨J.val / 2, by omega⟩ : Fin 128) (⟨J.val % 2, by omega⟩ : Fin 2)) ?_).trans ?_
  · rw [Shape.rowMajor_val_five, Shape.rowMajor_val_four]
    show (((b.val * 256 + c.val) * 256 + I.val) * 128 + J.val / 2) * 2 + J.val % 2
      = ((b.val * 256 + c.val) * 256 + I.val) * 256 + J.val
    omega
  refine (broadcastInDim_apply _ hb2 _ _ (ix4 b c I (⟨J.val / 2, by omega⟩ : Fin 128)) ?_).trans ?_
  · intro a
    match a with
    | ⟨0, _⟩ => rfl
    | ⟨1, _⟩ => rfl
    | ⟨2, _⟩ => rfl
    | ⟨3, _⟩ => rfl
  refine (shapeCast_apply _ hc1 _
    (ix5 b c (⟨I.val / 2, by omega⟩ : Fin 128) (⟨I.val % 2, by omega⟩ : Fin 2) (⟨J.val / 2, by omega⟩ : Fin 128)) ?_).trans ?_
  · rw [Shape.rowMajor_val_five, Shape.rowMajor_val_four]
    show (((b.val * 256 + c.val) * 128 + I.val / 2) * 2 + I.val % 2) * 128 + J.val / 2
      = ((b.val * 256 + c.val) * 256 + I.val) * 128 + J.val / 2
    omega
  refine (broadcastInDim_apply _ hb1 _ _
    (ix4 b c (⟨I.val / 2, by omega⟩ : Fin 128) (⟨J.val / 2, by omega⟩ : Fin 128)) ?_).trans ?_
  · intro a
    match a with
    | ⟨0, _⟩ => rfl
    | ⟨1, _⟩ => rfl
    | ⟨2, _⟩ => rfl
    | ⟨3, _⟩ => rfl
  refine extractStridedSlice_apply off y hs _ k ?_
  intro a
  match a with
  | ⟨0, _⟩ => exact hk0
  | ⟨1, _⟩ => exact hk1
  | ⟨2, _⟩ => exact hk2
  | ⟨3, _⟩ => exact hk3

/-- Plane n of the mask array broadcast over the channels reads, at (b, c, I, J), the mask array at (b, n, I, J). -/
theorem plane_bcast_at {α : Type} (y : S4x9x256x256.Idx → α) (off : Fin 4 → ℕ)
    (hs : S4x9x256x256.Slices off S4x1x256x256)
    (hb : S4x1x256x256.BroadcastsInDim S4x256x256x256 (![0, 1, 2, 3] : Fin 4 → Fin S4x256x256x256.rank))
    (n : Fin 9) (h0 : off 0 = 0) (h1 : off 1 = n.val) (h2 : off 2 = 0) (h3 : off 3 = 0)
    (b : Fin 4) (c I J : Fin 256) :
    broadcastInDim S4x256x256x256 ![0, 1, 2, 3] hb (extractStridedSlice S4x1x256x256 off y hs) (ix4 b c I J)
      = y (ix4 b n I J) := by
  refine (broadcastInDim_apply _ hb _ _ (ix4 b (0 : Fin 1) I J) ?_).trans ?_
  · intro a
    match a with
    | ⟨0, _⟩ => rfl
    | ⟨1, _⟩ => rfl
    | ⟨2, _⟩ => rfl
    | ⟨3, _⟩ => rfl
  refine extractStridedSlice_apply off y hs _ _ ?_
  intro a
  match a with
  | ⟨0, _⟩ => show b.val = off 0 + b.val; omega
  | ⟨1, _⟩ => show n.val = off 1 + 0; omega
  | ⟨2, _⟩ => show I.val = off 2 + I.val; omega
  | ⟨3, _⟩ => show J.val = off 3 + J.val; omega

end Cert.Proof.RefValue

end
-- ==== Proof.RefMean.lean ====
/-
  The reference's channel mean, and its copy with one ring of zeros, read at an index.

  The sum over the 256 channels starts from the word 0, which is the real 0; the quotient by the word 256.0 is the
  specification's mean. The padding value is the integer 0 converted to a float, the real 0, so the padded copy at
  padded coordinates (i, j) is the specification's read of the mean plane with a ring of zeros.
-/
import proofs.«174128_j1090921693816_1_alg».proof.Proof.ReadP
import proofs.«174128_j1090921693816_1_alg».proof.Proof.Spec
import proofs.«174128_j1090921693816_1_alg».proof.Proof.RefAux

noncomputable section

open scoped BigOperators

namespace Cert.Proof.RefValue

open Cert.ReferenceIdeal Cert.ReferenceIdeal.Gen Cert.ReferenceIdeal.ReadP
open Idealize.ShloMosaic Idealize.ShloMosaic.ValueIdx

/-- The channel mean at batch entry b, pixel (h, w). -/
theorem v3_at (x : Spec.XArr) (b : Fin 4) (h w : Fin 128) :
    val_main_v3 (F := Ideal) x (ix4 b 0 h w) = Spec.meanP (Spec.chanSum x b) h w := by
  rw [val_main_v3_apply, val_main_v1_apply, val_main_v2_apply, val_main_cst_0_apply, val_main_v0_apply, val_main_cst_apply]
  simp only [Ideal.hostDivf_def, Ideal.ofBits_def, Ideal.ofBits_zero_f32, zero_add]
  unfold Spec.meanP Spec.chanSum
  refine congrArg (fun s => Ideal.div s _) (Finset.sum_congr rfl fun k _ => congrArg x (funext fun a => ?_))
  match a with
  | ⟨0, _⟩ => rfl
  | ⟨1, _⟩ => rfl
  | ⟨2, _⟩ => rfl
  | ⟨3, _⟩ => rfl

/-- The padded mean at batch entry b, padded coordinates (i, j). -/
theorem v4_at (x : Spec.XArr) (b : Fin 4) (i j : Fin 130) :
    val_main_v4 (F := Ideal) x (ix4 b 0 i j) = Spec.padRead (Spec.meanP (Spec.chanSum x b)) i.val j.val := by
  unfold val_main_v4
  refine (pad_ring_apply (val_main_v3 (F := Ideal) x) (val_main_call0_v0 (F := Ideal)) _ h_S_ b 0 i j).trans ?_
  unfold Spec.padRead
  by_cases hh : (1 ≤ i.val ∧ i.val ≤ 128) ∧ (1 ≤ j.val ∧ j.val ≤ 128)
  · rw [dif_pos hh, dif_pos hh]
    exact v3_at x b _ _
  · rw [dif_neg hh, dif_neg hh, val_main_call0_v0_apply, val_main_c_apply]
    exact sitofp_zero

/-- The padded input at batch entry b, channel c, padded coordinates (i, j). -/
theorem v59_at (x : Spec.XArr) (b : Fin 4) (c : Fin 256) (i j : Fin 130) :
    val_main_v59 (F := Ideal) x (ix4 b c i j) = Spec.padRead (fun h w => x (ix4 b c h w)) i.val j.val := by
  unfold val_main_v59
  refine (pad_ring_apply x (val_main_call1_v0 (F := Ideal)) _ h_S_ b c i j).trans ?_
  unfold Spec.padRead
  by_cases hh : (1 ≤ i.val ∧ i.val ≤ 128) ∧ (1 ≤ j.val ∧ j.val ≤ 128)
  · rw [dif_pos hh, dif_pos hh]
  · rw [dif_neg hh, dif_neg hh, val_main_call1_v0_apply, val_main_c_6_apply]
    exact sitofp_zero

end Cert.Proof.RefValue

end
-- ==== Proof.RefRed.lean ====
/-
  A maximum-reduce over the tap axis of an array of shape [4, 9, 256, 256], from an initial value that is −∞, read at an
  index: the supremum of the nine entries. Independent of any program: the array and the initial value are arbitrary.

  The reduce is the fold of max over the indices that drop to (b, I, J); those are (b, k, I, J) for the nine k; max is
  commutative and associative, so the fold over them is the fold over k, and a fold of max from the bottom element is the
  supremum.
-/
import Idealize.ShloMosaic.PureOps.Ideal.Laws
import Idealize.ShloMosaic.Lib.ValueIdx
import Idealize.ShloMosaic.Lib.Pipeline.Value
import proofs.«174128_j1090921693816_1_alg».proof.Proof.RefAux

noncomputable section

open scoped BigOperators

namespace Cert.Proof.RefValue

open Idealize.ShloMosaic Idealize.ShloMosaic.ValueIdx

/-- The tap axis is the one dropped. -/
theorem red9 : (⟨4, ![4, 9, 256, 256]⟩ : Shape).Reduces [1] (⟨3, ![4, 256, 256]⟩ : Shape) := by decide

/-- The reduced index (b, I, J) with tap k put back is (b, k, I, J). -/
theorem red9_lift (b : Fin 4) (I J : Fin 256) (k : Fin ((⟨4, ![4, 9, 256, 256]⟩ : Shape).size 1)) :
    red9.lift (ix3 b I J) k = ix4 b (⟨k.val, k.isLt⟩ : Fin 9) I J := by
  funext c; apply Fin.ext
  fin_cases c <;> rfl

/-- The maximum-reduce over the tap axis from −∞, at (b, I, J), is the supremum of the nine entries there. -/
theorem reduce_max9_at (y : (⟨4, ![4, 9, 256, 256]⟩ : Shape).Idx → EReal) {u : Shape} (init : u.Idx → EReal)
    (h' : (⟨4, ![4, 9, 256, 256]⟩ : Shape).ReducesTo [1] (⟨3, ![4, 256, 256]⟩ : Shape)) (hu : 0 < u.numel)
    (hinit : init (Shape.Idx.first hu) = ⊥) (b : Fin 4) (I J : Fin 256) :
    Host.reduce (FloatOps.maximumf (F := Ideal) (φ := .f32)) y init h' hu (ix3 b I J)
      = Finset.univ.sup fun n : Fin 9 => y (ix4 b n I J) := by
  rw [Host.reduce_eq_fold_single (FloatOps.maximumf (F := Ideal) (φ := .f32)) y init h' red9 hu, hinit]
  have hf : (y ∘ red9.lift (ix3 b I J)) = fun k : Fin 9 => y (ix4 b k I J) :=
    funext fun k => congrArg y (red9_lift b I J k)
  refine Eq.trans (congrArg (fun f => Finset.fold max (⊥ : EReal) f (Finset.univ : Finset (Fin 9))) hf) ?_
  rfl

end Cert.Proof.RefValue

end
-- ==== Proof.RefGrad.lean ====
/-
  The nine shifted copies of the padded mean, their stack, and the weights, read at an index.

  Tap n = 3·i + j reads the padded mean at (h + i, w + j): a slice of the padded plane at offset (i, j), a reshape that
  drops the unit channel axis (a row-major position kept: a division with remainder by the literal extents) and a
  broadcast that puts the unit axis back. The stack of the nine along the channel axis at channel n is tap n. The
  weight is 1 / ((tap − mean)² + 1).
-/
import proofs.«174128_j1090921693816_1_alg».proof.Proof.ReadP
import proofs.«174128_j1090921693816_1_alg».proof.Proof.Spec
import proofs.«174128_j1090921693816_1_alg».proof.Proof.RefAux
import proofs.«174128_j1090921693816_1_alg».proof.Proof.RefMean

noncomputable section

open scoped BigOperators

namespace Cert.Proof.RefValue

open Cert.ReferenceIdeal Cert.ReferenceIdeal.Gen Cert.ReferenceIdeal.ReadP
open Idealize.ShloMosaic Idealize.ShloMosaic.ValueIdx

/-- Tap 0: the index its three layout operations read of the padded mean. -/
theorem idx_tap0 (b : Fin 4) (h w : Fin 128) :
    idx_main_v5 (idx_main_v6 (idx_main_v23 (ix4 b (0 : Fin 1) h w)))
      = (ix4 b (0 : Fin 1) (⟨h.val + 0, by omega⟩ : Fin 130) (⟨w.val + 0, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show ((b.val * 128 + h.val) * 128 + w.val) / 128 % 128 = h.val + 0; omega)
  | ⟨3, _⟩ => exact Fin.ext (by show ((b.val * 128 + h.val) * 128 + w.val) % 128 = w.val + 0; omega)

/-- Tap 0 at (b, h, w) is the padded mean at (h + 0, w + 0). -/
theorem tap0_at (x : Spec.XArr) (b : Fin 4) (h w : Fin 128) :
    val_main_v23 (F := Ideal) x (ix4 b 0 h w)
      = Spec.padRead (Spec.meanP (Spec.chanSum x b)) (h.val + 0) (w.val + 0) := by
  rw [val_main_v23_apply, val_main_v6_apply, val_main_v5_apply, idx_tap0]
  exact v4_at x b _ _

/-- Tap 1: the index its three layout operations read of the padded mean. -/
theorem idx_tap1 (b : Fin 4) (h w : Fin 128) :
    idx_main_v7 (idx_main_v8 (idx_main_v24 (ix4 b (0 : Fin 1) h w)))
      = (ix4 b (0 : Fin 1) (⟨h.val + 0, by omega⟩ : Fin 130) (⟨w.val + 1, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show ((b.val * 128 + h.val) * 128 + w.val) / 128 % 128 = h.val + 0; omega)
  | ⟨3, _⟩ => exact Fin.ext (by show 1 + ((b.val * 128 + h.val) * 128 + w.val) % 128 = w.val + 1; omega)

/-- Tap 1 at (b, h, w) is the padded mean at (h + 0, w + 1). -/
theorem tap1_at (x : Spec.XArr) (b : Fin 4) (h w : Fin 128) :
    val_main_v24 (F := Ideal) x (ix4 b 0 h w)
      = Spec.padRead (Spec.meanP (Spec.chanSum x b)) (h.val + 0) (w.val + 1) := by
  rw [val_main_v24_apply, val_main_v8_apply, val_main_v7_apply, idx_tap1]
  exact v4_at x b _ _

/-- Tap 2: the index its three layout operations read of the padded mean. -/
theorem idx_tap2 (b : Fin 4) (h w : Fin 128) :
    idx_main_v9 (idx_main_v10 (idx_main_v25 (ix4 b (0 : Fin 1) h w)))
      = (ix4 b (0 : Fin 1) (⟨h.val + 0, by omega⟩ : Fin 130) (⟨w.val + 2, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show ((b.val * 128 + h.val) * 128 + w.val) / 128 % 128 = h.val + 0; omega)
  | ⟨3, _⟩ => exact Fin.ext (by show 2 + ((b.val * 128 + h.val) * 128 + w.val) % 128 = w.val + 2; omega)

/-- Tap 2 at (b, h, w) is the padded mean at (h + 0, w + 2). -/
theorem tap2_at (x : Spec.XArr) (b : Fin 4) (h w : Fin 128) :
    val_main_v25 (F := Ideal) x (ix4 b 0 h w)
      = Spec.padRead (Spec.meanP (Spec.chanSum x b)) (h.val + 0) (w.val + 2) := by
  rw [val_main_v25_apply, val_main_v10_apply, val_main_v9_apply, idx_tap2]
  exact v4_at x b _ _

/-- Tap 3: the index its three layout operations read of the padded mean. -/
theorem idx_tap3 (b : Fin 4) (h w : Fin 128) :
    idx_main_v11 (idx_main_v12 (idx_main_v26 (ix4 b (0 : Fin 1) h w)))
      = (ix4 b (0 : Fin 1) (⟨h.val + 1, by omega⟩ : Fin 130) (⟨w.val + 0, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 1 + ((b.val * 128 + h.val) * 128 + w.val) / 128 % 128 = h.val + 1; omega)
  | ⟨3, _⟩ => exact Fin.ext (by show ((b.val * 128 + h.val) * 128 + w.val) % 128 = w.val + 0; omega)

/-- Tap 3 at (b, h, w) is the padded mean at (h + 1, w + 0). -/
theorem tap3_at (x : Spec.XArr) (b : Fin 4) (h w : Fin 128) :
    val_main_v26 (F := Ideal) x (ix4 b 0 h w)
      = Spec.padRead (Spec.meanP (Spec.chanSum x b)) (h.val + 1) (w.val + 0) := by
  rw [val_main_v26_apply, val_main_v12_apply, val_main_v11_apply, idx_tap3]
  exact v4_at x b _ _

/-- Tap 4: the index its three layout operations read of the padded mean. -/
theorem idx_tap4 (b : Fin 4) (h w : Fin 128) :
    idx_main_v13 (idx_main_v14 (idx_main_v27 (ix4 b (0 : Fin 1) h w)))
      = (ix4 b (0 : Fin 1) (⟨h.val + 1, by omega⟩ : Fin 130) (⟨w.val + 1, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 1 + ((b.val * 128 + h.val) * 128 + w.val) / 128 % 128 = h.val + 1; omega)
  | ⟨3, _⟩ => exact Fin.ext (by show 1 + ((b.val * 128 + h.val) * 128 + w.val) % 128 = w.val + 1; omega)

/-- Tap 4 at (b, h, w) is the padded mean at (h + 1, w + 1). -/
theorem tap4_at (x : Spec.XArr) (b : Fin 4) (h w : Fin 128) :
    val_main_v27 (F := Ideal) x (ix4 b 0 h w)
      = Spec.padRead (Spec.meanP (Spec.chanSum x b)) (h.val + 1) (w.val + 1) := by
  rw [val_main_v27_apply, val_main_v14_apply, val_main_v13_apply, idx_tap4]
  exact v4_at x b _ _

/-- Tap 5: the index its three layout operations read of the padded mean. -/
theorem idx_tap5 (b : Fin 4) (h w : Fin 128) :
    idx_main_v15 (idx_main_v16 (idx_main_v28 (ix4 b (0 : Fin 1) h w)))
      = (ix4 b (0 : Fin 1) (⟨h.val + 1, by omega⟩ : Fin 130) (⟨w.val + 2, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 1 + ((b.val * 128 + h.val) * 128 + w.val) / 128 % 128 = h.val + 1; omega)
  | ⟨3, _⟩ => exact Fin.ext (by show 2 + ((b.val * 128 + h.val) * 128 + w.val) % 128 = w.val + 2; omega)

/-- Tap 5 at (b, h, w) is the padded mean at (h + 1, w + 2). -/
theorem tap5_at (x : Spec.XArr) (b : Fin 4) (h w : Fin 128) :
    val_main_v28 (F := Ideal) x (ix4 b 0 h w)
      = Spec.padRead (Spec.meanP (Spec.chanSum x b)) (h.val + 1) (w.val + 2) := by
  rw [val_main_v28_apply, val_main_v16_apply, val_main_v15_apply, idx_tap5]
  exact v4_at x b _ _

/-- Tap 6: the index its three layout operations read of the padded mean. -/
theorem idx_tap6 (b : Fin 4) (h w : Fin 128) :
    idx_main_v17 (idx_main_v18 (idx_main_v29 (ix4 b (0 : Fin 1) h w)))
      = (ix4 b (0 : Fin 1) (⟨h.val + 2, by omega⟩ : Fin 130) (⟨w.val + 0, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 2 + ((b.val * 128 + h.val) * 128 + w.val) / 128 % 128 = h.val + 2; omega)
  | ⟨3, _⟩ => exact Fin.ext (by show ((b.val * 128 + h.val) * 128 + w.val) % 128 = w.val + 0; omega)

/-- Tap 6 at (b, h, w) is the padded mean at (h + 2, w + 0). -/
theorem tap6_at (x : Spec.XArr) (b : Fin 4) (h w : Fin 128) :
    val_main_v29 (F := Ideal) x (ix4 b 0 h w)
      = Spec.padRead (Spec.meanP (Spec.chanSum x b)) (h.val + 2) (w.val + 0) := by
  rw [val_main_v29_apply, val_main_v18_apply, val_main_v17_apply, idx_tap6]
  exact v4_at x b _ _

/-- Tap 7: the index its three layout operations read of the padded mean. -/
theorem idx_tap7 (b : Fin 4) (h w : Fin 128) :
    idx_main_v19 (idx_main_v20 (idx_main_v30 (ix4 b (0 : Fin 1) h w)))
      = (ix4 b (0 : Fin 1) (⟨h.val + 2, by omega⟩ : Fin 130) (⟨w.val + 1, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 2 + ((b.val * 128 + h.val) * 128 + w.val) / 128 % 128 = h.val + 2; omega)
  | ⟨3, _⟩ => exact Fin.ext (by show 1 + ((b.val * 128 + h.val) * 128 + w.val) % 128 = w.val + 1; omega)

/-- Tap 7 at (b, h, w) is the padded mean at (h + 2, w + 1). -/
theorem tap7_at (x : Spec.XArr) (b : Fin 4) (h w : Fin 128) :
    val_main_v30 (F := Ideal) x (ix4 b 0 h w)
      = Spec.padRead (Spec.meanP (Spec.chanSum x b)) (h.val + 2) (w.val + 1) := by
  rw [val_main_v30_apply, val_main_v20_apply, val_main_v19_apply, idx_tap7]
  exact v4_at x b _ _

/-- Tap 8: the index its three layout operations read of the padded mean. -/
theorem idx_tap8 (b : Fin 4) (h w : Fin 128) :
    idx_main_v21 (idx_main_v22 (idx_main_v31 (ix4 b (0 : Fin 1) h w)))
      = (ix4 b (0 : Fin 1) (⟨h.val + 2, by omega⟩ : Fin 130) (⟨w.val + 2, by omega⟩ : Fin 130)) := by
  have hb := b.isLt; have hh := h.isLt; have hw := w.isLt
  funext a
  match a with
  | ⟨0, _⟩ => exact Fin.ext (by show ((b.val * 128 + h.val) * 128 + w.val) / 16384 = b.val; omega)
  | ⟨1, _⟩ => exact Fin.ext rfl
  | ⟨2, _⟩ => exact Fin.ext (by show 2 + ((b.val * 128 + h.val) * 128 + w.val) / 128 % 128 = h.val + 2; omega)
  | ⟨3, _⟩ => exact Fin.ext (by show 2 + ((b.val * 128 + h.val) * 128 + w.val) % 128 = w.val + 2; omega)

/-- Tap 8 at (b, h, w) is the padded mean at (h + 2, w + 2). -/
theorem tap8_at (x : Spec.XArr) (b : Fin 4) (h w : Fin 128) :
    val_main_v31 (F := Ideal) x (ix4 b 0 h w)
      = Spec.padRead (Spec.meanP (Spec.chanSum x b)) (h.val + 2) (w.val + 2) := by
  rw [val_main_v31_apply, val_main_v22_apply, val_main_v21_apply, idx_tap8]
  exact v4_at x b _ _

/-- The stack of the nine taps at channel n. -/
theorem v32_at (x : Spec.XArr) (b : Fin 4) (n : Fin 9) (h w : Fin 128) :
    val_main_v32 (F := Ideal) x (ix4 b n h w)
      = Spec.padRead (Spec.meanP (Spec.chanSum x b)) (h.val + n.val / 3) (w.val + n.val % 3) := by
  unfold val_main_v32
  refine (concat9_apply ![val_main_v23 (F := Ideal) x, val_main_v24 (F := Ideal) x, val_main_v25 (F := Ideal) x,
    val_main_v26 (F := Ideal) x, val_main_v27 (F := Ideal) x, val_main_v28 (F := Ideal) x, val_main_v29 (F := Ideal) x,
    val_main_v30 (F := Ideal) x, val_main_v31 (F := Ideal) x] _ b n h w).trans ?_
  fin_cases n
  · exact tap0_at x b h w
  · exact tap1_at x b h w
  · exact tap2_at x b h w
  · exact tap3_at x b h w
  · exact tap4_at x b h w
  · exact tap5_at x b h w
  · exact tap6_at x b h w
  · exact tap7_at x b h w
  · exact tap8_at x b h w

/-- The weight of tap n at (b, h, w). -/
theorem v39_at (x : Spec.XArr) (b : Fin 4) (n : Fin 9) (h w : Fin 128) :
    val_main_v39 (F := Ideal) x (ix4 b n h w) = Spec.gradP (Spec.chanSum x b) n h w := by
  have e : idx_main_v33 (ix4 b n h w) = ix4 b (0 : Fin 1) h w := by
    funext a
    match a with
    | ⟨0, _⟩ => rfl
    | ⟨1, _⟩ => rfl
    | ⟨2, _⟩ => rfl
    | ⟨3, _⟩ => rfl
  rw [val_main_v39_apply, val_main_v38_apply, val_main_cst_2_apply, val_main_v37_apply, val_main_v36_apply,
    val_main_cst_1_apply, val_main_v35_apply, val_main_v34_apply, val_main_v33_apply, v32_at, e, v3_at]
  simp only [Ideal.hostDivf_def, Ideal.ofBits_def, Ideal.addf_def, Ideal.mulf_def, Ideal.subf_def]
  rfl

end Cert.Proof.RefValue

end
-- ==== Proof.RefLogit.lean ====
/-
  The logits at the doubled resolution, read at an index.

  The weights are broadcast over the four sub-pixel positions and multiplied by the tap weights; the pixel shuffle
  (a reshape to rank 7, a transposition, a reshape back to rank 4) moves sub-pixel position 2·s + t of pixel (h, w) to the
  pixel (2h + s, 2w + t). A reshape keeps the row-major position; written out at the literal extents the two positions
  are sums of products that agree by division with remainder by 2.
-/
import proofs.«174128_j1090921693816_1_alg».proof.Proof.ReadP
import proofs.«174128_j1090921693816_1_alg».proof.Proof.Spec
import proofs.«174128_j1090921693816_1_alg».proof.Proof.RefAux
import proofs.«174128_j1090921693816_1_alg».proof.Proof.RefGrad

noncomputable section

open scoped BigOperators

namespace Cert.Proof.RefValue

open Cert.ReferenceIdeal Cert.ReferenceIdeal.Gen Cert.ReferenceIdeal.ReadP
open Idealize.ShloMosaic Idealize.ShloMosaic.ValueIdx

/-- The logit of tap n at (b, I, J). -/
theorem v47_at (x : Spec.XArr) (g : Spec.GArr) (b : Fin 4) (n : Fin 9) (I J : Fin 256) :
    val_main_v47 (F := Ideal) x g (ix4 b n I J) = Spec.logitP (Spec.chanSum x b) g n I J := by
  have hb := b.isLt; have hn := n.isLt; have hI := I.isLt; have hJ := J.isLt
  -- the reshape to rank 4 reads (b, n, 0, I/2, I%2, J/2, J%2)
  have e1 : val_main_v47 (F := Ideal) x g (ix4 b n I J)
      = val_main_v46 (F := Ideal) x g (ix7 b n (0 : Fin 1) (⟨I.val / 2, by omega⟩ : Fin 128) (⟨I.val % 2, by omega⟩ : Fin 2) (⟨J.val / 2, by omega⟩ : Fin 128) (⟨J.val % 2, by omega⟩ : Fin 2)) := by
    unfold val_main_v47
    refine shapeCast_apply _ shapeCasts_S4x9x1x128x2x128x2_S4x9x256x256 _ _ ?_
    rw [rowMajor_val_seven, Shape.rowMajor_val_four]
    exact (by omega :
      (((((b.val * 9 + n.val) * 1 + 0) * 128 + I.val / 2) * 2 + I.val % 2) * 128 + J.val / 2) * 2 + J.val % 2
        = ((b.val * 9 + n.val) * 256 + I.val) * 256 + J.val)
  -- the transposition reads (b, n, 0, I%2, J%2, I/2, J/2)
  have e2 : idx_main_v46 (ix7 b n (0 : Fin 1) (⟨I.val / 2, by omega⟩ : Fin 128) (⟨I.val % 2, by omega⟩ : Fin 2) (⟨J.val / 2, by omega⟩ : Fin 128) (⟨J.val % 2, by omega⟩ : Fin 2))
      = ix7 b n (0 : Fin 1) (⟨I.val % 2, by omega⟩ : Fin 2) (⟨J.val % 2, by omega⟩ : Fin 2) (⟨I.val / 2, by omega⟩ : Fin 128) (⟨J.val / 2, by omega⟩ : Fin 128) := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  -- the reshape to rank 7 reads (b, n, 2·(I%2) + J%2, I/2, J/2)
  have e3 : val_main_v45 (F := Ideal) x g (ix7 b n (0 : Fin 1) (⟨I.val % 2, by omega⟩ : Fin 2) (⟨J.val % 2, by omega⟩ : Fin 2) (⟨I.val / 2, by omega⟩ : Fin 128) (⟨J.val / 2, by omega⟩ : Fin 128))
      = val_main_v44 (F := Ideal) x g (ix5 b n (⟨2 * (I.val % 2) + J.val % 2, by omega⟩ : Fin 4) (⟨I.val / 2, by omega⟩ : Fin 128) (⟨J.val / 2, by omega⟩ : Fin 128)) := by
    unfold val_main_v45
    refine shapeCast_apply _ shapeCasts_S4x9x4x128x128_S4x9x1x2x2x128x128 _ _ ?_
    rw [Shape.rowMajor_val_five, rowMajor_val_seven]
    exact (by omega :
      (((b.val * 9 + n.val) * 4 + (2 * (I.val % 2) + J.val % 2)) * 128 + I.val / 2) * 128 + J.val / 2
        = (((((b.val * 9 + n.val) * 1 + 0) * 2 + I.val % 2) * 2 + J.val % 2) * 128 + I.val / 2) * 128 + J.val / 2)
  have e4 : idx_main_v40 (idx_main_v42 (ix5 b n (⟨2 * (I.val % 2) + J.val % 2, by omega⟩ : Fin 4) (⟨I.val / 2, by omega⟩ : Fin 128) (⟨J.val / 2, by omega⟩ : Fin 128))) = ix4 b n (⟨I.val / 2, by omega⟩ : Fin 128) (⟨J.val / 2, by omega⟩ : Fin 128) := by
    funext a
    match a with
    | ⟨0, _⟩ => rfl
    | ⟨1, _⟩ => rfl
    | ⟨2, _⟩ => rfl
    | ⟨3, _⟩ => rfl
  have e5 : idx_main_v41 (idx_main_v43 (ix5 b n (⟨2 * (I.val % 2) + J.val % 2, by omega⟩ : Fin 4) (⟨I.val / 2, by omega⟩ : Fin 128) (⟨J.val / 2, by omega⟩ : Fin 128))) = ix2 n (⟨2 * (I.val % 2) + J.val % 2, by omega⟩ : Fin 4) := by
    funext a
    match a with
    | ⟨0, _⟩ => rfl
    | ⟨1, _⟩ => rfl
  rw [e1, val_main_v46_apply, e2, e3, val_main_v44_apply, val_main_v42_apply, val_main_v40_apply, e4, v39_at,
    val_main_v43_apply, val_main_v41_apply, e5]
  simp only [Ideal.mulf_def]
  rfl

end Cert.Proof.RefValue

end
-- ==== Proof.RefMask.lean ====
/-
  The softmax over the nine taps, read at an index.

  The maximum over the tap axis, folded from −∞, is the supremum of the nine logits (max is commutative and associative, and
  −∞ is the bottom element); the further maximum with −∞ changes nothing. The exponentials of the differences are summed
  from the word 0, the real 0, and each is divided by the sum.
-/
import proofs.«174128_j1090921693816_1_alg».proof.Proof.ReadP
import proofs.«174128_j1090921693816_1_alg».proof.Proof.Spec
import proofs.«174128_j1090921693816_1_alg».proof.Proof.RefAux
import proofs.«174128_j1090921693816_1_alg».proof.Proof.RefRed
import proofs.«174128_j1090921693816_1_alg».proof.Proof.RefLogit

noncomputable section

open scoped BigOperators

namespace Cert.Proof.RefValue

open Cert.ReferenceIdeal Cert.ReferenceIdeal.Gen Cert.ReferenceIdeal.ReadP
open Idealize.ShloMosaic Idealize.ShloMosaic.ValueIdx

/-- The largest logit at (b, I, J). -/
theorem v48_at (x : Spec.XArr) (g : Spec.GArr) (b : Fin 4) (I J : Fin 256) :
    val_main_v48 (F := Ideal) x g (ix3 b I J) = Spec.lmaxP (Spec.chanSum x b) g I J := by
  unfold val_main_v48
  refine (reduce_max9_at (val_main_v47 (F := Ideal) x g) (val_main_cst_3 (F := Ideal))
    reducesTo_S4x9x256x256_S4x256x256_d1 h_S_ ?_ b I J).trans ?_
  · rw [val_main_cst_3_apply]
    exact ofBits_neg_inf
  · unfold Spec.lmaxP
    exact congrArg (fun f : Fin 9 → EReal => Finset.univ.sup f) (funext fun n => v47_at x g b n I J)

/-- exp (logit − the largest logit) of tap n at (b, I, J). -/
theorem v54_at (x : Spec.XArr) (g : Spec.GArr) (b : Fin 4) (n : Fin 9) (I J : Fin 256) :
    val_main_v54 (F := Ideal) x g (ix4 b n I J) = Spec.lexpP (Spec.chanSum x b) g n I J := by
  have e : idx_main_v51 (idx_main_v52 (ix4 b n I J)) = ix3 b I J := by
    funext a
    match a with
    | ⟨0, _⟩ => rfl
    | ⟨1, _⟩ => rfl
    | ⟨2, _⟩ => rfl
  rw [val_main_v54_apply, val_main_v53_apply, v47_at, val_main_v52_apply, val_main_v51_apply, e, val_main_v50_apply,
    val_main_v49_apply, val_main_cst_4_apply, v48_at]
  simp only [Ideal.hostUnary_exp_def, Ideal.subf_def, Ideal.maximumf_def, Ideal.ofBits_def, ofBits_neg_inf]
  rw [max_eq_right bot_le]
  rfl

/-- The mask of tap n at (b, I, J). -/
theorem v58_at (x : Spec.XArr) (g : Spec.GArr) (b : Fin 4) (n : Fin 9) (I J : Fin 256) :
    val_main_v58 (F := Ideal) x g (ix4 b n I J) = Spec.maskP (Spec.chanSum x b) g n I J := by
  have e : idx_main_v56 (idx_main_v57 (ix4 b n I J)) = ix3 b I J := by
    funext a
    match a with
    | ⟨0, _⟩ => rfl
    | ⟨1, _⟩ => rfl
    | ⟨2, _⟩ => rfl
  have hs : ∀ k : Fin 9, val_main_v54 (F := Ideal) x g (idx_main_v55 (ix3 b I J) k) = Spec.lexpP (Spec.chanSum x b) g k I J :=
    fun k => by
      have e2 : idx_main_v55 (ix3 b I J) k = ix4 b k I J := by
        funext a
        match a with
        | ⟨0, _⟩ => rfl
        | ⟨1, _⟩ => rfl
        | ⟨2, _⟩ => rfl
        | ⟨3, _⟩ => rfl
      rw [e2, v54_at]
  rw [val_main_v58_apply, v54_at, val_main_v57_apply, val_main_v56_apply, e, val_main_v55_apply, val_main_cst_5_apply]
  simp only [hs, Ideal.hostDivf_def, Ideal.ofBits_def, Ideal.ofBits_zero_f32, zero_add]
  rfl

end Cert.Proof.RefValue

end
-- ==== Proof.RefTaps.lean ====
/-
  The nine terms of the reference's reassembly, read at an index.

  Tap n = 3·i + j takes the window of the zero-padded input at offset (i, j), doubled along both image axes, and the mask
  plane of tap n broadcast over the channels. At (b, c, I, J) the doubled window is the padded input of plane (b, c) at
  (I/2 + i, J/2 + j), and the broadcast plane is the mask of tap n at (b, I, J).
-/
import proofs.«174128_j1090921693816_1_alg».proof.Proof.ReadP
import proofs.«174128_j1090921693816_1_alg».proof.Proof.Spec
import proofs.«174128_j1090921693816_1_alg».proof.Proof.RefAux
import proofs.«174128_j1090921693816_1_alg».proof.Proof.RefTapsB
import proofs.«174128_j1090921693816_1_alg».proof.Proof.RefMean
import proofs.«174128_j1090921693816_1_alg».proof.Proof.RefMask

noncomputable section

open scoped BigOperators

namespace Cert.Proof.RefValue

open Cert.ReferenceIdeal Cert.ReferenceIdeal.Gen Cert.ReferenceIdeal.ReadP
open Idealize.ShloMosaic Idealize.ShloMosaic.ValueIdx

/-- Tap 0: the doubled window at (b, c, I, J) is the padded input at (I / 2 + 0, J / 2 + 0). -/
theorem xu0_at (x : Spec.XArr) (b : Fin 4) (c I J : Fin 256) :
    val_main_v65 (F := Ideal) x (ix4 b c I J)
      = Spec.padRead (fun h w => x (ix4 b c h w)) (I.val / 2 + 0) (J.val / 2 + 0) := by
  have hI := I.isLt
  have hJ := J.isLt
  unfold val_main_v65 val_main_v64 val_main_v63 val_main_v62 val_main_v61
  exact (dbl_slice_at (val_main_v59 (F := Ideal) x) _ _ _ _ _ _ b c I J
    (ix4 b c (⟨I.val / 2 + 0, by omega⟩ : Fin 130) (⟨J.val / 2 + 0, by omega⟩ : Fin 130))
    (by show b.val = 0 + b.val; omega) (by show c.val = 0 + c.val; omega)
    (by show I.val / 2 + 0 = 0 + I.val / 2; omega) (by show J.val / 2 + 0 = 0 + J.val / 2; omega)).trans
    (v59_at x b c _ _)

/-- Tap 0: the mask plane broadcast over the channels, at (b, c, I, J). -/
theorem mk0_at (x : Spec.XArr) (g : Spec.GArr) (b : Fin 4) (c I J : Fin 256) :
    val_main_v67 (F := Ideal) x g (ix4 b c I J) = Spec.maskP (Spec.chanSum x b) g (0 : Fin 9) I J := by
  unfold val_main_v67 val_main_v66
  exact (plane_bcast_at (val_main_v58 (F := Ideal) x g) _ _ _ (0 : Fin 9) rfl rfl rfl rfl b c I J).trans
    (v58_at x g b (0 : Fin 9) I J)

/-- Tap 1: the doubled window at (b, c, I, J) is the padded input at (I / 2 + 0, J / 2 + 1). -/
theorem xu1_at (x : Spec.XArr) (b : Fin 4) (c I J : Fin 256) :
    val_main_v74 (F := Ideal) x (ix4 b c I J)
      = Spec.padRead (fun h w => x (ix4 b c h w)) (I.val / 2 + 0) (J.val / 2 + 1) := by
  have hI := I.isLt
  have hJ := J.isLt
  unfold val_main_v74 val_main_v73 val_main_v72 val_main_v71 val_main_v70
  exact (dbl_slice_at (val_main_v59 (F := Ideal) x) _ _ _ _ _ _ b c I J
    (ix4 b c (⟨I.val / 2 + 0, by omega⟩ : Fin 130) (⟨J.val / 2 + 1, by omega⟩ : Fin 130))
    (by show b.val = 0 + b.val; omega) (by show c.val = 0 + c.val; omega)
    (by show I.val / 2 + 0 = 0 + I.val / 2; omega) (by show J.val / 2 + 1 = 1 + J.val / 2; omega)).trans
    (v59_at x b c _ _)

/-- Tap 1: the mask plane broadcast over the channels, at (b, c, I, J). -/
theorem mk1_at (x : Spec.XArr) (g : Spec.GArr) (b : Fin 4) (c I J : Fin 256) :
    val_main_v76 (F := Ideal) x g (ix4 b c I J) = Spec.maskP (Spec.chanSum x b) g (1 : Fin 9) I J := by
  unfold val_main_v76 val_main_v75
  exact (plane_bcast_at (val_main_v58 (F := Ideal) x g) _ _ _ (1 : Fin 9) rfl rfl rfl rfl b c I J).trans
    (v58_at x g b (1 : Fin 9) I J)

/-- Tap 2: the doubled window at (b, c, I, J) is the padded input at (I / 2 + 0, J / 2 + 2). -/
theorem xu2_at (x : Spec.XArr) (b : Fin 4) (c I J : Fin 256) :
    val_main_v83 (F := Ideal) x (ix4 b c I J)
      = Spec.padRead (fun h w => x (ix4 b c h w)) (I.val / 2 + 0) (J.val / 2 + 2) := by
  have hI := I.isLt
  have hJ := J.isLt
  unfold val_main_v83 val_main_v82 val_main_v81 val_main_v80 val_main_v79
  exact (dbl_slice_at (val_main_v59 (F := Ideal) x) _ _ _ _ _ _ b c I J
    (ix4 b c (⟨I.val / 2 + 0, by omega⟩ : Fin 130) (⟨J.val / 2 + 2, by omega⟩ : Fin 130))
    (by show b.val = 0 + b.val; omega) (by show c.val = 0 + c.val; omega)
    (by show I.val / 2 + 0 = 0 + I.val / 2; omega) (by show J.val / 2 + 2 = 2 + J.val / 2; omega)).trans
    (v59_at x b c _ _)

/-- Tap 2: the mask plane broadcast over the channels, at (b, c, I, J). -/
theorem mk2_at (x : Spec.XArr) (g : Spec.GArr) (b : Fin 4) (c I J : Fin 256) :
    val_main_v85 (F := Ideal) x g (ix4 b c I J) = Spec.maskP (Spec.chanSum x b) g (2 : Fin 9) I J := by
  unfold val_main_v85 val_main_v84
  exact (plane_bcast_at (val_main_v58 (F := Ideal) x g) _ _ _ (2 : Fin 9) rfl rfl rfl rfl b c I J).trans
    (v58_at x g b (2 : Fin 9) I J)

/-- Tap 3: the doubled window at (b, c, I, J) is the padded input at (I / 2 + 1, J / 2 + 0). -/
theorem xu3_at (x : Spec.XArr) (b : Fin 4) (c I J : Fin 256) :
    val_main_v92 (F := Ideal) x (ix4 b c I J)
      = Spec.padRead (fun h w => x (ix4 b c h w)) (I.val / 2 + 1) (J.val / 2 + 0) := by
  have hI := I.isLt
  have hJ := J.isLt
  unfold val_main_v92 val_main_v91 val_main_v90 val_main_v89 val_main_v88
  exact (dbl_slice_at (val_main_v59 (F := Ideal) x) _ _ _ _ _ _ b c I J
    (ix4 b c (⟨I.val / 2 + 1, by omega⟩ : Fin 130) (⟨J.val / 2 + 0, by omega⟩ : Fin 130))
    (by show b.val = 0 + b.val; omega) (by show c.val = 0 + c.val; omega)
    (by show I.val / 2 + 1 = 1 + I.val / 2; omega) (by show J.val / 2 + 0 = 0 + J.val / 2; omega)).trans
    (v59_at x b c _ _)

/-- Tap 3: the mask plane broadcast over the channels, at (b, c, I, J). -/
theorem mk3_at (x : Spec.XArr) (g : Spec.GArr) (b : Fin 4) (c I J : Fin 256) :
    val_main_v94 (F := Ideal) x g (ix4 b c I J) = Spec.maskP (Spec.chanSum x b) g (3 : Fin 9) I J := by
  unfold val_main_v94 val_main_v93
  exact (plane_bcast_at (val_main_v58 (F := Ideal) x g) _ _ _ (3 : Fin 9) rfl rfl rfl rfl b c I J).trans
    (v58_at x g b (3 : Fin 9) I J)

/-- Tap 4: the doubled window at (b, c, I, J) is the padded input at (I / 2 + 1, J / 2 + 1). -/
theorem xu4_at (x : Spec.XArr) (b : Fin 4) (c I J : Fin 256) :
    val_main_v101 (F := Ideal) x (ix4 b c I J)
      = Spec.padRead (fun h w => x (ix4 b c h w)) (I.val / 2 + 1) (J.val / 2 + 1) := by
  have hI := I.isLt
  have hJ := J.isLt
  unfold val_main_v101 val_main_v100 val_main_v99 val_main_v98 val_main_v97
  exact (dbl_slice_at (val_main_v59 (F := Ideal) x) _ _ _ _ _ _ b c I J
    (ix4 b c (⟨I.val / 2 + 1, by omega⟩ : Fin 130) (⟨J.val / 2 + 1, by omega⟩ : Fin 130))
    (by show b.val = 0 + b.val; omega) (by show c.val = 0 + c.val; omega)
    (by show I.val / 2 + 1 = 1 + I.val / 2; omega) (by show J.val / 2 + 1 = 1 + J.val / 2; omega)).trans
    (v59_at x b c _ _)

/-- Tap 4: the mask plane broadcast over the channels, at (b, c, I, J). -/
theorem mk4_at (x : Spec.XArr) (g : Spec.GArr) (b : Fin 4) (c I J : Fin 256) :
    val_main_v103 (F := Ideal) x g (ix4 b c I J) = Spec.maskP (Spec.chanSum x b) g (4 : Fin 9) I J := by
  unfold val_main_v103 val_main_v102
  exact (plane_bcast_at (val_main_v58 (F := Ideal) x g) _ _ _ (4 : Fin 9) rfl rfl rfl rfl b c I J).trans
    (v58_at x g b (4 : Fin 9) I J)

/-- Tap 5: the doubled window at (b, c, I, J) is the padded input at (I / 2 + 1, J / 2 + 2). -/
theorem xu5_at (x : Spec.XArr) (b : Fin 4) (c I J : Fin 256) :
    val_main_v110 (F := Ideal) x (ix4 b c I J)
      = Spec.padRead (fun h w => x (ix4 b c h w)) (I.val / 2 + 1) (J.val / 2 + 2) := by
  have hI := I.isLt
  have hJ := J.isLt
  unfold val_main_v110 val_main_v109 val_main_v108 val_main_v107 val_main_v106
  exact (dbl_slice_at (val_main_v59 (F := Ideal) x) _ _ _ _ _ _ b c I J
    (ix4 b c (⟨I.val / 2 + 1, by omega⟩ : Fin 130) (⟨J.val / 2 + 2, by omega⟩ : Fin 130))
    (by show b.val = 0 + b.val; omega) (by show c.val = 0 + c.val; omega)
    (by show I.val / 2 + 1 = 1 + I.val / 2; omega) (by show J.val / 2 + 2 = 2 + J.val / 2; omega)).trans
    (v59_at x b c _ _)

/-- Tap 5: the mask plane broadcast over the channels, at (b, c, I, J). -/
theorem mk5_at (x : Spec.XArr) (g : Spec.GArr) (b : Fin 4) (c I J : Fin 256) :
    val_main_v112 (F := Ideal) x g (ix4 b c I J) = Spec.maskP (Spec.chanSum x b) g (5 : Fin 9) I J := by
  unfold val_main_v112 val_main_v111
  exact (plane_bcast_at (val_main_v58 (F := Ideal) x g) _ _ _ (5 : Fin 9) rfl rfl rfl rfl b c I J).trans
    (v58_at x g b (5 : Fin 9) I J)

/-- Tap 6: the doubled window at (b, c, I, J) is the padded input at (I / 2 + 2, J / 2 + 0). -/
theorem xu6_at (x : Spec.XArr) (b : Fin 4) (c I J : Fin 256) :
    val_main_v119 (F := Ideal) x (ix4 b c I J)
      = Spec.padRead (fun h w => x (ix4 b c h w)) (I.val / 2 + 2) (J.val / 2 + 0) := by
  have hI := I.isLt
  have hJ := J.isLt
  unfold val_main_v119 val_main_v118 val_main_v117 val_main_v116 val_main_v115
  exact (dbl_slice_at (val_main_v59 (F := Ideal) x) _ _ _ _ _ _ b c I J
    (ix4 b c (⟨I.val / 2 + 2, by omega⟩ : Fin 130) (⟨J.val / 2 + 0, by omega⟩ : Fin 130))
    (by show b.val = 0 + b.val; omega) (by show c.val = 0 + c.val; omega)
    (by show I.val / 2 + 2 = 2 + I.val / 2; omega) (by show J.val / 2 + 0 = 0 + J.val / 2; omega)).trans
    (v59_at x b c _ _)

/-- Tap 6: the mask plane broadcast over the channels, at (b, c, I, J). -/
theorem mk6_at (x : Spec.XArr) (g : Spec.GArr) (b : Fin 4) (c I J : Fin 256) :
    val_main_v121 (F := Ideal) x g (ix4 b c I J) = Spec.maskP (Spec.chanSum x b) g (6 : Fin 9) I J := by
  unfold val_main_v121 val_main_v120
  exact (plane_bcast_at (val_main_v58 (F := Ideal) x g) _ _ _ (6 : Fin 9) rfl rfl rfl rfl b c I J).trans
    (v58_at x g b (6 : Fin 9) I J)

/-- Tap 7: the doubled window at (b, c, I, J) is the padded input at (I / 2 + 2, J / 2 + 1). -/
theorem xu7_at (x : Spec.XArr) (b : Fin 4) (c I J : Fin 256) :
    val_main_v128 (F := Ideal) x (ix4 b c I J)
      = Spec.padRead (fun h w => x (ix4 b c h w)) (I.val / 2 + 2) (J.val / 2 + 1) := by
  have hI := I.isLt
  have hJ := J.isLt
  unfold val_main_v128 val_main_v127 val_main_v126 val_main_v125 val_main_v124
  exact (dbl_slice_at (val_main_v59 (F := Ideal) x) _ _ _ _ _ _ b c I J
    (ix4 b c (⟨I.val / 2 + 2, by omega⟩ : Fin 130) (⟨J.val / 2 + 1, by omega⟩ : Fin 130))
    (by show b.val = 0 + b.val; omega) (by show c.val = 0 + c.val; omega)
    (by show I.val / 2 + 2 = 2 + I.val / 2; omega) (by show J.val / 2 + 1 = 1 + J.val / 2; omega)).trans
    (v59_at x b c _ _)

/-- Tap 7: the mask plane broadcast over the channels, at (b, c, I, J). -/
theorem mk7_at (x : Spec.XArr) (g : Spec.GArr) (b : Fin 4) (c I J : Fin 256) :
    val_main_v130 (F := Ideal) x g (ix4 b c I J) = Spec.maskP (Spec.chanSum x b) g (7 : Fin 9) I J := by
  unfold val_main_v130 val_main_v129
  exact (plane_bcast_at (val_main_v58 (F := Ideal) x g) _ _ _ (7 : Fin 9) rfl rfl rfl rfl b c I J).trans
    (v58_at x g b (7 : Fin 9) I J)

/-- Tap 8: the doubled window at (b, c, I, J) is the padded input at (I / 2 + 2, J / 2 + 2). -/
theorem xu8_at (x : Spec.XArr) (b : Fin 4) (c I J : Fin 256) :
    val_main_v137 (F := Ideal) x (ix4 b c I J)
      = Spec.padRead (fun h w => x (ix4 b c h w)) (I.val / 2 + 2) (J.val / 2 + 2) := by
  have hI := I.isLt
  have hJ := J.isLt
  unfold val_main_v137 val_main_v136 val_main_v135 val_main_v134 val_main_v133
  exact (dbl_slice_at (val_main_v59 (F := Ideal) x) _ _ _ _ _ _ b c I J
    (ix4 b c (⟨I.val / 2 + 2, by omega⟩ : Fin 130) (⟨J.val / 2 + 2, by omega⟩ : Fin 130))
    (by show b.val = 0 + b.val; omega) (by show c.val = 0 + c.val; omega)
    (by show I.val / 2 + 2 = 2 + I.val / 2; omega) (by show J.val / 2 + 2 = 2 + J.val / 2; omega)).trans
    (v59_at x b c _ _)

/-- Tap 8: the mask plane broadcast over the channels, at (b, c, I, J). -/
theorem mk8_at (x : Spec.XArr) (g : Spec.GArr) (b : Fin 4) (c I J : Fin 256) :
    val_main_v139 (F := Ideal) x g (ix4 b c I J) = Spec.maskP (Spec.chanSum x b) g (8 : Fin 9) I J := by
  unfold val_main_v139 val_main_v138
  exact (plane_bcast_at (val_main_v58 (F := Ideal) x g) _ _ _ (8 : Fin 9) rfl rfl rfl rfl b c I J).trans
    (v58_at x g b (8 : Fin 9) I J)

end Cert.Proof.RefValue

end
-- ==== Proof.RefValue.lean ====
/-
  The reference program's result is the specification's, index by index.

  At (b, c, I, J) the result buffer is the sum, from the word 0 (the real 0), of the nine products mask × doubled slice
  in tap order; the specification's sum over the nine taps written out is the same expression.
-/
import proofs.«174128_j1090921693816_1_alg».proof.Proof.ReadP
import proofs.«174128_j1090921693816_1_alg».proof.Proof.Spec
import proofs.«174128_j1090921693816_1_alg».proof.Proof.RefAux
import proofs.«174128_j1090921693816_1_alg».proof.Proof.RefTaps

noncomputable section

open scoped BigOperators

namespace Cert.Proof.RefValue

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-- The specification's result at (b, c, I, J), its nine terms written out in tap order. -/
theorem out_at (x : Spec.XArr) (g : Spec.GArr) (b : Fin 4) (c I J : Fin 256) :
    Spec.out x g (ix4 b c I J)
      = Spec.maskP (Spec.chanSum x b) g (0 : Fin 9) I J * Spec.padRead (fun h w => x (ix4 b c h w)) (I.val / 2 + 0) (J.val / 2 + 0)
        + Spec.maskP (Spec.chanSum x b) g (1 : Fin 9) I J * Spec.padRead (fun h w => x (ix4 b c h w)) (I.val / 2 + 0) (J.val / 2 + 1)
        + Spec.maskP (Spec.chanSum x b) g (2 : Fin 9) I J * Spec.padRead (fun h w => x (ix4 b c h w)) (I.val / 2 + 0) (J.val / 2 + 2)
        + Spec.maskP (Spec.chanSum x b) g (3 : Fin 9) I J * Spec.padRead (fun h w => x (ix4 b c h w)) (I.val / 2 + 1) (J.val / 2 + 0)
        + Spec.maskP (Spec.chanSum x b) g (4 : Fin 9) I J * Spec.padRead (fun h w => x (ix4 b c h w)) (I.val / 2 + 1) (J.val / 2 + 1)
        + Spec.maskP (Spec.chanSum x b) g (5 : Fin 9) I J * Spec.padRead (fun h w => x (ix4 b c h w)) (I.val / 2 + 1) (J.val / 2 + 2)
        + Spec.maskP (Spec.chanSum x b) g (6 : Fin 9) I J * Spec.padRead (fun h w => x (ix4 b c h w)) (I.val / 2 + 2) (J.val / 2 + 0)
        + Spec.maskP (Spec.chanSum x b) g (7 : Fin 9) I J * Spec.padRead (fun h w => x (ix4 b c h w)) (I.val / 2 + 2) (J.val / 2 + 1)
        + Spec.maskP (Spec.chanSum x b) g (8 : Fin 9) I J * Spec.padRead (fun h w => x (ix4 b c h w)) (I.val / 2 + 2) (J.val / 2 + 2) :=
  sum_fin9 (fun n : Fin 9 => Spec.maskP (Spec.chanSum x b) g n I J
    * Spec.padRead (fun h w => x (ix4 b c h w)) (I.val / 2 + n.val / 3) (J.val / 2 + n.val % 3))

/-- The reference's last stage, of any two argument arrays, is the specification's result. -/
theorem result_eq (x : Spec.XArr) (g : Spec.GArr) : val_main_v141 (F := Ideal) x g = Spec.out x g := by
  funext i
  obtain ⟨b, c, I, J, rfl⟩ : ∃ (b : Fin 4) (c I J : Fin 256), i = ix4 b c I J := ⟨i 0, i 1, i 2, i 3, eq_ix4 i⟩
  rw [out_at]
  rw [val_main_v141_apply, val_main_v140_apply, mk8_at, xu8_at, val_main_v132_apply, val_main_v131_apply, mk7_at,
    xu7_at, val_main_v123_apply, val_main_v122_apply, mk6_at, xu6_at, val_main_v114_apply, val_main_v113_apply,
    mk5_at, xu5_at, val_main_v105_apply, val_main_v104_apply, mk4_at, xu4_at, val_main_v96_apply,
    val_main_v95_apply, mk3_at, xu3_at, val_main_v87_apply, val_main_v86_apply, mk2_at, xu2_at,
    val_main_v78_apply, val_main_v77_apply, mk1_at, xu1_at, val_main_v69_apply, val_main_v68_apply, mk0_at,
    xu0_at, val_main_v60_apply, val_main_cst_7_apply]
  simp only [Ideal.addf_def, Ideal.mulf_def, Ideal.ofBits_def, Ideal.ofBits_zero_f32, zero_add]

/-- The term the run module states for the result buffer is the specification's result of the two argument buffers. -/
theorem run_result_eq (m : (ℓ : Loc nD τ sig) → Buf (Elt Ideal) ℓ) (c : Dev nD) :
    Cert.ReferenceIdeal.ValueP.res_main_v141 (F := Ideal) m c
      = Spec.out (m ((c.tc : Thread nD τ).loc main_arg0)) (m ((c.tc : Thread nD τ).loc main_arg1)) :=
  (val_main_v141_eq (F := Ideal) m c).trans (result_eq _ _)

end Cert.Proof.RefValue

end
-- ==== Proof.lean ====
/-
  The five claims of the certificate, assembled.

  Both programs compute one function of their two arguments x (shape [4, 256, 128, 128]) and g (shape [9, 4]), the
  array `Spec.out x g` of Proof/Spec.lean: from the mean of x over its 256 channels, nine weights per pixel
  1 / ((the zero-padded mean at the tap's offset − the mean)² + 1), spread to the doubled resolution through the four
  entries of g's row for the tap, turned into masks by a softmax over the nine taps, and the masks then weight the nine
  shifted, doubled copies of the zero-padded x. The kernel reaches it in two launches (the channel sums accumulated in a
  scratch over four tiles of 64 channels and multiplied by 2⁻⁸; then the reassembly, 16 channels at a time); the
  reference in one straight line of host operations (the sums divided by 256). On the extended reals the two agree at
  every input: a sum may be taken in any order and grouping, a maximum likewise, a product either way round, and the
  quotient by 256 is the product with 2⁻⁸; no step needs the inputs finite.

  * The frames: each program runs to the end, nothing faulting, and leaves both argument arrays as it found them — the
    kernel's by its run through both launches (Proof/FrMain*.lean, the same text at either float instance), the
    reference's by its run (Proof/RefFrame.lean).
  * The idealized kernel is the kernel's own text read over the extended reals: no operation was rewritten, and the
    fourth claim is `True`.
  * The algebraic claim: the idealized kernel's result array ends at `Spec.out` of its arguments
    (Proof/KernelValue.lean), and so does the reference's (Proof/RefValue.lean), from memories agreeing on the arguments.
-/
import proofs.«174128_j1090921693816_1_alg».proof.Defs
import proofs.«174128_j1090921693816_1_alg».proof.Proof.Gen.Kernel
import proofs.«174128_j1090921693816_1_alg».proof.Proof.Gen.KernelIdeal
import proofs.«174128_j1090921693816_1_alg».proof.Proof.Gen.ReferenceIdeal
import proofs.«174128_j1090921693816_1_alg».proof.Proof.Gen.Pre_finite_inputs
import proofs.«174128_j1090921693816_1_alg».proof.Proof.FrMainB
import proofs.«174128_j1090921693816_1_alg».proof.Proof.FrMainI
import proofs.«174128_j1090921693816_1_alg».proof.Proof.KernelValue
import proofs.«174128_j1090921693816_1_alg».proof.Proof.RefFrame
import proofs.«174128_j1090921693816_1_alg».proof.Proof.RefValue
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Fr.frame (F := Bits) m ρ

/-- So does its reading over the extended reals. -/
theorem frame_ki : Cert.frame_KernelIdeal := fun m ρ _ => Cert.KernelIdeal.Fr.frame (F := Ideal) m ρ

/-- And the reference. -/
theorem frame_ri : Cert.frame_ReferenceIdeal := Cert.Proof.RefFrame.frame_ri

/-- The idealization rewrote nothing. -/
theorem preserves : Cert.preserves_Kernel_KernelIdeal := trivial

/-- From memories agreeing on x and g both idealized programs end with their result arrays at `Spec.out x g`. -/
theorem algebraic : Cert.algebraic_KernelIdeal_ReferenceIdeal := by
  intro m ρ m' ρ' _ hagree
  refine ⟨fun c => Cert.Proof.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v141_eq, Cert.Proof.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
